-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v52)) (v1 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_v54) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_v112) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x64x64 : Shape := ⟨4, ![32, 256, 64, 64]⟩
abbrev S16x256 : Shape := ⟨2, ![16, 256]⟩
abbrev S16 : Shape := ⟨1, ![16]⟩
abbrev S256x16 : Shape := ⟨2, ![256, 16]⟩
abbrev S256 : Shape := ⟨1, ![256]⟩
abbrev S_ : Shape := ⟨0, ![]⟩

class Facts : Prop where
  bcast_S_S32x256x64x64 : S_.BroadcastsInDim S32x256x64x64 (![] : Fin 0 → Fin S32x256x64x64.rank)
  reducesTo_S32x256x64x64_S_d0_1_2_3 : S32x256x64x64.ReducesTo [0, 1, 2, 3] S_
  h_S_ : 0 < S_.numel
  bcast_S_S16x256 : S_.BroadcastsInDim S16x256 (![] : Fin 0 → Fin S16x256.rank)
  reducesTo_S16x256_S_d0_1 : S16x256.ReducesTo [0, 1] S_
  bcast_S_S16 : S_.BroadcastsInDim S16 (![] : Fin 0 → Fin S16.rank)
  reducesTo_S16_S_d0 : S16.ReducesTo [0] S_
  bcast_S_S256x16 : S_.BroadcastsInDim S256x16 (![] : Fin 0 → Fin S256x16.rank)
  reducesTo_S256x16_S_d0_1 : S256x16.ReducesTo [0, 1] S_
  bcast_S_S256 : S_.BroadcastsInDim S256 (![] : Fin 0 → Fin S256.rank)
  reducesTo_S256_S_d0 : S256.ReducesTo [0] S_

variable [Facts]

def fn_part8 {F : FTy → Type} [FloatOps F] (main_arg19 : FVec F S16 .f32) (main_arg25 : FVec F S256 .f32) (main_v132 : IVec S_ 1) (main_v135 : IVec S_ 1) : IVec S_ 1 :=
  let main_v136 : IVec S_ 1 := andi main_v132 main_v135
  let main_cst_54 : FVec F S_ .f32 := constant S_ .f32 0x00000000#32
  let main_v137 : FVec F S16 .f32 := broadcastInDim S16 ![] bcast_S_S16 main_cst_54
  let main_v138 : IVec S16 1 := cmpf .oge main_arg19 main_v137
  let main_c_55 : IVec S_ 1 := constantI S_ 1 1#1
  let main_v139 : IVec S_ 1 := (fun x v => Host.reduce IntOp.andi x v reducesTo_S16_S_d0 h_S_) main_v138 main_c_55
  let main_v140 : IVec S_ 1 := andi main_v136 main_v139
  let main_cst_56 : FVec F S_ .f32 := constant S_ .f32 0x00000000#32
  let main_v141 : FVec F S256 .f32 := broadcastInDim S256 ![] bcast_S_S256 main_cst_56
  let main_v142 : IVec S256 1 := cmpf .oge main_arg25 main_v141
  let main_c_57 : IVec S_ 1 := constantI S_ 1 1#1
  let main_v143 : IVec S_ 1 := (fun x v => Host.reduce IntOp.andi x v reducesTo_S256_S_d0 h_S_) main_v142 main_c_57
  let main_v144 : IVec S_ 1 := andi main_v140 main_v143
  main_v144

def fn_part7 {F : FTy → Type} [FloatOps F] (main_arg7 : FVec F S16 .f32) (main_arg13 : FVec F S256 .f32) (main_arg19 : FVec F S16 .f32) (main_arg25 : FVec F S256 .f32) (main_v118 : IVec S_ 1) (main_v119 : FVec F S256 .f32) : IVec S_ 1 :=
  let main_cst_46 : FVec F S_ .f32 := constant S_ .f32 0x7F800000#32
  let main_v120 : FVec F S256 .f32 := broadcastInDim S256 ![] bcast_S_S256 main_cst_46
  let main_v121 : IVec S256 1 := cmpf .olt main_v119 main_v120
  let main_c_47 : IVec S_ 1 := constantI S_ 1 1#1
  let main_v122 : IVec S_ 1 := (fun x v => Host.reduce IntOp.andi x v reducesTo_S256_S_d0 h_S_) main_v121 main_c_47
  let main_v123 : IVec S_ 1 := andi main_v118 main_v122
  let main_v124 : FVec F S256 .f32 := Host.absf main_arg25
  let main_cst_48 : FVec F S_ .f32 := constant S_ .f32 0x7F800000#32
  let main_v125 : FVec F S256 .f32 := broadcastInDim S256 ![] bcast_S_S256 main_cst_48
  let main_v126 : IVec S256 1 := cmpf .olt main_v124 main_v125
  let main_c_49 : IVec S_ 1 := constantI S_ 1 1#1
  let main_v127 : IVec S_ 1 := (fun x v => Host.reduce IntOp.andi x v reducesTo_S256_S_d0 h_S_) main_v126 main_c_49
  let main_v128 : IVec S_ 1 := andi main_v123 main_v127
  let main_cst_50 : FVec F S_ .f32 := constant S_ .f32 0x00000000#32
  let main_v129 : FVec F S16 .f32 := broadcastInDim S16 ![] bcast_S_S16 main_cst_50
  let main_v130 : IVec S16 1 := cmpf .oge main_arg7 main_v129
  let main_c_51 : IVec S_ 1 := constantI S_ 1 1#1
  let main_v131 : IVec S_ 1 := (fun x v => Host.reduce IntOp.andi x v reducesTo_S16_S_d0 h_S_) main_v130 main_c_51
  let main_v132 : IVec S_ 1 := andi main_v128 main_v131
  let main_cst_52 : FVec F S_ .f32 := constant S_ .f32 0x00000000#32
  let main_v133 : FVec F S256 .f32 := broadcastInDim S256 ![] bcast_S_S256 main_cst_52
  let main_v134 : IVec S256 1 := cmpf .oge main_arg13 main_v133
  let main_c_53 : IVec S_ 1 := constantI S_ 1 1#1
  let main_v135 : IVec S_ 1 := (fun x v => Host.reduce IntOp.andi x v reducesTo_S256_S_d0 h_S_) main_v134 main_c_53
  fn_part8 (F := F) main_arg19 main_arg25 main_v132 main_v135

def fn_part6 {F : FTy → Type} [FloatOps F] (main_arg7 : FVec F S16 .f32) (main_arg13 : FVec F S256 .f32) (main_arg19 : FVec F S16 .f32) (main_arg21 : FVec F S256 .f32) (main_arg22 : FVec F S256 .f32) (main_arg23 : FVec F S256 .f32) (main_arg24 : FVec F S256 .f32) (main_arg25 : FVec F S256 .f32) (main_v98 : IVec S_ 1) (main_v101 : IVec S256x16 1) (main_c_39 : IVec S_ 1) : IVec S_ 1 :=
  let main_v102 : IVec S_ 1 := (fun x v => Host.reduce IntOp.andi x v reducesTo_S256x16_S_d0_1 h_S_) main_v101 main_c_39
  let main_v103 : IVec S_ 1 := andi main_v98 main_v102
  let main_v104 : FVec F S256 .f32 := Host.absf main_arg21
  let main_cst_40 : FVec F S_ .f32 := constant S_ .f32 0x7F800000#32
  let main_v105 : FVec F S256 .f32 := broadcastInDim S256 ![] bcast_S_S256 main_cst_40
  let main_v106 : IVec S256 1 := cmpf .olt main_v104 main_v105
  let main_c_41 : IVec S_ 1 := constantI S_ 1 1#1
  let main_v107 : IVec S_ 1 := (fun x v => Host.reduce IntOp.andi x v reducesTo_S256_S_d0 h_S_) main_v106 main_c_41
  let main_v108 : IVec S_ 1 := andi main_v103 main_v107
  let main_v109 : FVec F S256 .f32 := Host.absf main_arg22
  let main_cst_42 : FVec F S_ .f32 := constant S_ .f32 0x7F800000#32
  let main_v110 : FVec F S256 .f32 := broadcastInDim S256 ![] bcast_S_S256 main_cst_42
  let main_v111 : IVec S256 1 := cmpf .olt main_v109 main_v110
  let main_c_43 : IVec S_ 1 := constantI S_ 1 1#1
  let main_v112 : IVec S_ 1 := (fun x v => Host.reduce IntOp.andi x v reducesTo_S256_S_d0 h_S_) main_v111 main_c_43
  let main_v113 : IVec S_ 1 := andi main_v108 main_v112
  let main_v114 : FVec F S256 .f32 := Host.absf main_arg23
  let main_cst_44 : FVec F S_ .f32 := constant S_ .f32 0x7F800000#32
  let main_v115 : FVec F S256 .f32 := broadcastInDim S256 ![] bcast_S_S256 main_cst_44
  let main_v116 : IVec S256 1 := cmpf .olt main_v114 main_v115
  let main_c_45 : IVec S_ 1 := constantI S_ 1 1#1
  let main_v117 : IVec S_ 1 := (fun x v => Host.reduce IntOp.andi x v reducesTo_S256_S_d0 h_S_) main_v116 main_c_45
  let main_v118 : IVec S_ 1 := andi main_v113 main_v117
  let main_v119 : FVec F S256 .f32 := Host.absf main_arg24
  fn_part7 (F := F) main_arg7 main_arg13 main_arg19 main_arg25 main_v118 main_v119

def fn_part5 {F : FTy → Type} [FloatOps F] (main_arg7 : FVec F S16 .f32) (main_arg13 : FVec F S256 .f32) (main_arg18 : FVec F S16 .f32) (main_arg19 : FVec F S16 .f32) (main_arg20 : FVec F S256x16 .f32) (main_arg21 : FVec F S256 .f32) (main_arg22 : FVec F S256 .f32) (main_arg23 : FVec F S256 .f32) (main_arg24 : FVec F S256 .f32) (main_arg25 : FVec F S256 .f32) (main_v83 : IVec S_ 1) (main_v84 : FVec F S16 .f32) (main_cst_32 : FVec F S_ .f32) : IVec S_ 1 :=
  let main_v85 : FVec F S16 .f32 := broadcastInDim S16 ![] bcast_S_S16 main_cst_32
  let main_v86 : IVec S16 1 := cmpf .olt main_v84 main_v85
  let main_c_33 : IVec S_ 1 := constantI S_ 1 1#1
  let main_v87 : IVec S_ 1 := (fun x v => Host.reduce IntOp.andi x v reducesTo_S16_S_d0 h_S_) main_v86 main_c_33
  let main_v88 : IVec S_ 1 := andi main_v83 main_v87
  let main_v89 : FVec F S16 .f32 := Host.absf main_arg18
  let main_cst_34 : FVec F S_ .f32 := constant S_ .f32 0x7F800000#32
  let main_v90 : FVec F S16 .f32 := broadcastInDim S16 ![] bcast_S_S16 main_cst_34
  let main_v91 : IVec S16 1 := cmpf .olt main_v89 main_v90
  let main_c_35 : IVec S_ 1 := constantI S_ 1 1#1
  let main_v92 : IVec S_ 1 := (fun x v => Host.reduce IntOp.andi x v reducesTo_S16_S_d0 h_S_) main_v91 main_c_35
  let main_v93 : IVec S_ 1 := andi main_v88 main_v92
  let main_v94 : FVec F S16 .f32 := Host.absf main_arg19
  let main_cst_36 : FVec F S_ .f32 := constant S_ .f32 0x7F800000#32
  let main_v95 : FVec F S16 .f32 := broadcastInDim S16 ![] bcast_S_S16 main_cst_36
  let main_v96 : IVec S16 1 := cmpf .olt main_v94 main_v95
  let main_c_37 : IVec S_ 1 := constantI S_ 1 1#1
  let main_v97 : IVec S_ 1 := (fun x v => Host.reduce IntOp.andi x v reducesTo_S16_S_d0 h_S_) main_v96 main_c_37
  let main_v98 : IVec S_ 1 := andi main_v93 main_v97
  let main_v99 : FVec F S256x16 .f32 := Host.absf main_arg20
  let main_cst_38 : FVec F S_ .f32 := constant S_ .f32 0x7F800000#32
  let main_v100 : FVec F S256x16 .f32 := broadcastInDim S256x16 ![] bcast_S_S256x16 main_cst_38
  let main_v101 : IVec S256x16 1 := cmpf .olt main_v99 main_v100
  let main_c_39 : IVec S_ 1 := constantI S_ 1 1#1
  fn_part6 (F := F) main_arg7 main_arg13 main_arg19 main_arg21 main_arg22 main_arg23 main_arg24 main_arg25 main_v98 main_v101 main_c_39

def fn_part4 {F : FTy → Type} [FloatOps F] (main_arg7 : FVec F S16 .f32) (main_arg13 : FVec F S256 .f32) (main_arg14 : FVec F S16x256 .f32) (main_arg15 : FVec F S16 .f32) (main_arg16 : FVec F S16 .f32) (main_arg17 : FVec F S16 .f32) (main_arg18 : FVec F S16 .f32) (main_arg19 : FVec F S16 .f32) (main_arg20 : FVec F S256x16 .f32) (main_arg21 : FVec F S256 .f32) (main_arg22 : FVec F S256 .f32) (main_arg23 : FVec F S256 .f32) (main_arg24 : FVec F S256 .f32) (main_arg25 : FVec F S256 .f32) (main_v63 : IVec S_ 1) (main_v67 : IVec S_ 1) : IVec S_ 1 :=
  let main_v68 : IVec S_ 1 := andi main_v63 main_v67
  let main_v69 : FVec F S16x256 .f32 := Host.absf main_arg14
  let main_cst_26 : FVec F S_ .f32 := constant S_ .f32 0x7F800000#32
  let main_v70 : FVec F S16x256 .f32 := broadcastInDim S16x256 ![] bcast_S_S16x256 main_cst_26
  let main_v71 : IVec S16x256 1 := cmpf .olt main_v69 main_v70
  let main_c_27 : IVec S_ 1 := constantI S_ 1 1#1
  let main_v72 : IVec S_ 1 := (fun x v => Host.reduce IntOp.andi x v reducesTo_S16x256_S_d0_1 h_S_) main_v71 main_c_27
  let main_v73 : IVec S_ 1 := andi main_v68 main_v72
  let main_v74 : FVec F S16 .f32 := Host.absf main_arg15
  let main_cst_28 : FVec F S_ .f32 := constant S_ .f32 0x7F800000#32
  let main_v75 : FVec F S16 .f32 := broadcastInDim S16 ![] bcast_S_S16 main_cst_28
  let main_v76 : IVec S16 1 := cmpf .olt main_v74 main_v75
  let main_c_29 : IVec S_ 1 := constantI S_ 1 1#1
  let main_v77 : IVec S_ 1 := (fun x v => Host.reduce IntOp.andi x v reducesTo_S16_S_d0 h_S_) main_v76 main_c_29
  let main_v78 : IVec S_ 1 := andi main_v73 main_v77
  let main_v79 : FVec F S16 .f32 := Host.absf main_arg16
  let main_cst_30 : FVec F S_ .f32 := constant S_ .f32 0x7F800000#32
  let main_v80 : FVec F S16 .f32 := broadcastInDim S16 ![] bcast_S_S16 main_cst_30
  let main_v81 : IVec S16 1 := cmpf .olt main_v79 main_v80
  let main_c_31 : IVec S_ 1 := constantI S_ 1 1#1
  let main_v82 : IVec S_ 1 := (fun x v => Host.reduce IntOp.andi x v reducesTo_S16_S_d0 h_S_) main_v81 main_c_31
  let main_v83 : IVec S_ 1 := andi main_v78 main_v82
  let main_v84 : FVec F S16 .f32 := Host.absf main_arg17
  let main_cst_32 : FVec F S_ .f32 := constant S_ .f32 0x7F800000#32
  fn_part5 (F := F) main_arg7 main_arg13 main_arg18 main_arg19 main_arg20 main_arg21 main_arg22 main_arg23 main_arg24 main_arg25 main_v83 main_v84 main_cst_32

def fn_part3 {F : FTy → Type} [FloatOps F] (main_arg7 : FVec F S16 .f32) (main_arg11 : FVec F S256 .f32) (main_arg12 : FVec F S256 .f32) (main_arg13 : FVec F S256 .f32) (main_arg14 : FVec F S16x256 .f32) (main_arg15 : FVec F S16 .f32) (main_arg16 : FVec F S16 .f32) (main_arg17 : FVec F S16 .f32) (main_arg18 : FVec F S16 .f32) (main_arg19 : FVec F S16 .f32) (main_arg20 : FVec F S256x16 .f32) (main_arg21 : FVec F S256 .f32) (main_arg22 : FVec F S256 .f32) (main_arg23 : FVec F S256 .f32) (main_arg24 : FVec F S256 .f32) (main_arg25 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg7 main_arg13 main_arg14 main_arg15 main_arg16 main_arg17 main_arg18 main_arg19 main_arg20 main_arg21 main_arg22 main_arg23 main_arg24 main_arg25 main_v63 main_v67

def fn_part2 {F : FTy → Type} [FloatOps F] (main_arg7 : FVec F S16 .f32) (main_arg8 : FVec F S256x16 .f32) (main_arg9 : FVec F S256 .f32) (main_arg10 : FVec F S256 .f32) (main_arg11 : FVec F S256 .f32) (main_arg12 : FVec F S256 .f32) (main_arg13 : FVec F S256 .f32) (main_arg14 : FVec F S16x256 .f32) (main_arg15 : FVec F S16 .f32) (main_arg16 : FVec F S16 .f32) (main_arg17 : FVec F S16 .f32) (main_arg18 : FVec F S16 .f32) (main_arg19 : FVec F S16 .f32) (main_arg20 : FVec F S256x16 .f32) (main_arg21 : FVec F S256 .f32) (main_arg22 : FVec F S256 .f32) (main_arg23 : FVec F S256 .f32) (main_arg24 : FVec F S256 .f32) (main_arg25 : FVec F S256 .f32) (main_v33 : IVec S_ 1) : IVec S_ 1 :=
  let main_v34 : FVec F S16 .f32 := Host.absf main_arg7
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S256x16 .f32 := Host.absf main_arg8
  let main_cst_14 : FVec F S_ .f32 := constant S_ .f32 0x7F800000#32
  let main_v40 : FVec F S256x16 .f32 := broadcastInDim S256x16 ![] bcast_S_S256x16 main_cst_14
  let main_v41 : IVec S256x16 1 := cmpf .olt main_v39 main_v40
  let main_c_15 : IVec S_ 1 := constantI S_ 1 1#1
  let main_v42 : IVec S_ 1 := (fun x v => Host.reduce IntOp.andi x v reducesTo_S256x16_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg7 main_arg11 main_arg12 main_arg13 main_arg14 main_arg15 main_arg16 main_arg17 main_arg18 main_arg19 main_arg20 main_arg21 main_arg22 main_arg23 main_arg24 main_arg25 main_v48 main_v49 main_v50

def fn_part1 {F : FTy → Type} [FloatOps F] (main_arg4 : FVec F S16 .f32) (main_arg5 : FVec F S16 .f32) (main_arg6 : FVec F S16 .f32) (main_arg7 : FVec F S16 .f32) (main_arg8 : FVec F S256x16 .f32) (main_arg9 : FVec F S256 .f32) (main_arg10 : FVec F S256 .f32) (main_arg11 : FVec F S256 .f32) (main_arg12 : FVec F S256 .f32) (main_arg13 : FVec F S256 .f32) (main_arg14 : FVec F S16x256 .f32) (main_arg15 : FVec F S16 .f32) (main_arg16 : FVec F S16 .f32) (main_arg17 : FVec F S16 .f32) (main_arg18 : FVec F S16 .f32) (main_arg19 : FVec F S16 .f32) (main_arg20 : FVec F S256x16 .f32) (main_arg21 : FVec F S256 .f32) (main_arg22 : FVec F S256 .f32) (main_arg23 : FVec F S256 .f32) (main_arg24 : FVec F S256 .f32) (main_arg25 : FVec F S256 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S32x256x64x64 .f32) (main_arg1 : FVec F S32x256x64x64 .f32) (main_arg2 : FVec F S16x256 .f32) (main_arg3 : FVec F S16 .f32) (main_arg4 : FVec F S16 .f32) (main_arg5 : FVec F S16 .f32) (main_arg6 : FVec F S16 .f32) (main_arg7 : FVec F S16 .f32) (main_arg8 : FVec F S256x16 .f32) (main_arg9 : FVec F S256 .f32) (main_arg10 : FVec F S256 .f32) (main_arg11 : FVec F S256 .f32) (main_arg12 : FVec F S256 .f32) (main_arg13 : FVec F S256 .f32) (main_arg14 : FVec F S16x256 .f32) (main_arg15 : FVec F S16 .f32) (main_arg16 : FVec F S16 .f32) (main_arg17 : FVec F S16 .f32) (main_arg18 : FVec F S16 .f32) (main_arg19 : FVec F S16 .f32) (main_arg20 : FVec F S256x16 .f32) (main_arg21 : FVec F S256 .f32) (main_arg22 : FVec F S256 .f32) (main_arg23 : FVec F S256 .f32) (main_arg24 : FVec F S256 .f32) (main_arg25 : FVec F S256 .f32) : IVec S_ 1 :=
  let main_v0 : FVec F S32x256x64x64 .f32 := Host.absf main_arg0
  let main_cst : FVec F S_ .f32 := constant S_ .f32 0x7F800000#32
  let main_v1 : FVec F S32x256x64x64 .f32 := broadcastInDim S32x256x64x64 ![] bcast_S_S32x256x64x64 main_cst
  let main_v2 : IVec S32x256x64x64 1 := cmpf .olt main_v0 main_v1
  let main_c : IVec S_ 1 := constantI S_ 1 1#1
  let main_v3 : IVec S_ 1 := (fun x v => Host.reduce IntOp.andi x v reducesTo_S32x256x64x64_S_d0_1_2_3 h_S_) main_v2 main_c
  let main_v4 : FVec F S32x256x64x64 .f32 := Host.absf main_arg1
  let main_cst_0 : FVec F S_ .f32 := constant S_ .f32 0x7F800000#32
  let main_v5 : FVec F S32x256x64x64 .f32 := broadcastInDim S32x256x64x64 ![] bcast_S_S32x256x64x64 main_cst_0
  let main_v6 : IVec S32x256x64x64 1 := cmpf .olt main_v4 main_v5
  let main_c_1 : IVec S_ 1 := constantI S_ 1 1#1
  let main_v7 : IVec S_ 1 := (fun x v => Host.reduce IntOp.andi x v reducesTo_S32x256x64x64_S_d0_1_2_3 h_S_) main_v6 main_c_1
  let main_v8 : IVec S_ 1 := andi main_v3 main_v7
  let main_v9 : FVec F S16x256 .f32 := Host.absf main_arg2
  let main_cst_2 : FVec F S_ .f32 := constant S_ .f32 0x7F800000#32
  let main_v10 : FVec F S16x256 .f32 := broadcastInDim S16x256 ![] bcast_S_S16x256 main_cst_2
  let main_v11 : IVec S16x256 1 := cmpf .olt main_v9 main_v10
  let main_c_3 : IVec S_ 1 := constantI S_ 1 1#1
  let main_v12 : IVec S_ 1 := (fun x v => Host.reduce IntOp.andi x v reducesTo_S16x256_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S32x256x64x64 : Shape := ⟨4, ![32, 256, 64, 64]⟩
abbrev S16x256 : Shape := ⟨2, ![16, 256]⟩
abbrev S16 : Shape := ⟨1, ![16]⟩
abbrev S256x16 : Shape := ⟨2, ![256, 16]⟩
abbrev S256 : Shape := ⟨1, ![256]⟩
abbrev S32x256x4096 : Shape := ⟨3, ![32, 256, 4096]⟩
abbrev S_ : Shape := ⟨0, ![]⟩
abbrev S16x1 : Shape := ⟨2, ![16, 1]⟩
abbrev S256x1 : Shape := ⟨2, ![256, 1]⟩
abbrev S1x256x4096 : Shape := ⟨3, ![1, 256, 4096]⟩
abbrev S256x4096 : Shape := ⟨2, ![256, 4096]⟩
abbrev S1 : Shape := ⟨1, ![1]⟩
abbrev S1x1 : Shape := ⟨2, ![1, 1]⟩

abbrev nBuf : Space → Nat
  | .hbm => 86
  | .vmem => 16
  | .smem => 0
  | _ => 0

abbrev bufTy : (tb : Table) → Fin (tcTables nBuf tb) → BufTy
  | .hbm, ⟨0, _⟩ => ⟨S32x256x64x64, .f32⟩
  | .hbm, ⟨1, _⟩ => ⟨S32x256x64x64, .f32⟩
  | .hbm, ⟨2, _⟩ => ⟨S16x256, .f32⟩
  | .hbm, ⟨3, _⟩ => ⟨S16, .f32⟩
  | .hbm, ⟨4, _⟩ => ⟨S16, .f32⟩
  | .hbm, ⟨5, _⟩ => ⟨S16, .f32⟩
  | .hbm, ⟨6, _⟩ => ⟨S16, .f32⟩
  | .hbm, ⟨7, _⟩ => ⟨S16, .f32⟩
  | .hbm, ⟨8, _⟩ => ⟨S256x16, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S16x256, .f32⟩
  | .hbm, ⟨15, _⟩ => ⟨S16, .f32⟩
  | .hbm, ⟨16, _⟩ => ⟨S16, .f32⟩
  | .hbm, ⟨17, _⟩ => ⟨S16, .f32⟩
  | .hbm, ⟨18, _⟩ => ⟨S16, .f32⟩
  | .hbm, ⟨19, _⟩ => ⟨S16, .f32⟩
  | .hbm, ⟨20, _⟩ => ⟨S256x16, .f32⟩
  | .hbm, ⟨21, _⟩ => ⟨S256, .f32⟩
  | .hbm, ⟨22, _⟩ => ⟨S256, .f32⟩
  | .hbm, ⟨23, _⟩ => ⟨S256, .f32⟩
  | .hbm, ⟨24, _⟩ => ⟨S256, .f32⟩
  | .hbm, ⟨25, _⟩ => ⟨S256, .f32⟩
  | .hbm, ⟨26, _⟩ => ⟨S32x256x4096, .f32⟩
  | .hbm, ⟨27, _⟩ => ⟨S32x256x4096, .f32⟩
  | .hbm, ⟨28, _⟩ => ⟨S_, .f32⟩
  | .hbm, ⟨29, _⟩ => ⟨S16, .f32⟩
  | .hbm, ⟨30, _⟩ => ⟨S16, .f32⟩
  | .hbm, ⟨31, _⟩ => ⟨S16, .f32⟩
  | .hbm, ⟨32, _⟩ => ⟨S16, .f32⟩
  | .hbm, ⟨33, _⟩ => ⟨S16, .f32⟩
  | .hbm, ⟨34, _⟩ => ⟨S16, .f32⟩
  | .hbm, ⟨35, _⟩ => ⟨S_, .f32⟩
  | .hbm, ⟨36, _⟩ => ⟨S256, .f32⟩
  | .hbm, ⟨37, _⟩ => ⟨S256, .f32⟩
  | .hbm, ⟨38, _⟩ => ⟨S256, .f32⟩
  | .hbm, ⟨39, _⟩ => ⟨S256, .f32⟩
  | .hbm, ⟨40, _⟩ => ⟨S256, .f32⟩
  | .hbm, ⟨41, _⟩ => ⟨S256, .f32⟩
  | .hbm, ⟨42, _⟩ => ⟨S16x1, .f32⟩
  | .hbm, ⟨43, _⟩ => ⟨S16x256, .f32⟩
  | .hbm, ⟨44, _⟩ => ⟨S16x256, .f32⟩
  | .hbm, ⟨45, _⟩ => ⟨S16, .f32⟩
  | .hbm, ⟨46, _⟩ => ⟨S16, .f32⟩
  | .hbm, ⟨47, _⟩ => ⟨S16x1, .f32⟩
  | .hbm, ⟨48, _⟩ => ⟨S256x1, .f32⟩
  | .hbm, ⟨49, _⟩ => ⟨S256x16, .f32⟩
  | .hbm, ⟨50, _⟩ => ⟨S256x16, .f32⟩
  | .hbm, ⟨51, _⟩ => ⟨S256, .f32⟩
  | .hbm, ⟨52, _⟩ => ⟨S256, .f32⟩
  | .hbm, ⟨53, _⟩ => ⟨S256x1, .f32⟩
  | .hbm, ⟨54, _⟩ => ⟨S_, .f32⟩
  | .hbm, ⟨55, _⟩ => ⟨S16, .f32⟩
  | .hbm, ⟨56, _⟩ => ⟨S16, .f32⟩
  | .hbm, ⟨57, _⟩ => ⟨S16, .f32⟩
  | .hbm, ⟨58, _⟩ => ⟨S16, .f32⟩
  | .hbm, ⟨59, _⟩ => ⟨S16, .f32⟩
  | .hbm, ⟨60, _⟩ => ⟨S16, .f32⟩
  | .hbm, ⟨61, _⟩ => ⟨S_, .f32⟩
  | .hbm, ⟨62, _⟩ => ⟨S256, .f32⟩
  | .hbm, ⟨63, _⟩ => ⟨S256, .f32⟩
  | .hbm, ⟨64, _⟩ => ⟨S256, .f32⟩
  | .hbm, ⟨65, _⟩ => ⟨S256, .f32⟩
  | .hbm, ⟨66, _⟩ => ⟨S256, .f32⟩
  | .hbm, ⟨67, _⟩ => ⟨S256, .f32⟩
  | .hbm, ⟨68, _⟩ => ⟨S16x1, .f32⟩
  | .hbm, ⟨69, _⟩ => ⟨S16x256, .f32⟩
  | .hbm, ⟨70, _⟩ => ⟨S16x256, .f32⟩
  | .hbm, ⟨71, _⟩ => ⟨S16, .f32⟩
  | .hbm, ⟨72, _⟩ => ⟨S16, .f32⟩
  | .hbm, ⟨73, _⟩ => ⟨S16x1, .f32⟩
  | .hbm, ⟨74, _⟩ => ⟨S256x1, .f32⟩
  | .hbm, ⟨75, _⟩ => ⟨S256x16, .f32⟩
  | .hbm, ⟨76, _⟩ => ⟨S256x16, .f32⟩
  | .hbm, ⟨77, _⟩ => ⟨S256, .f32⟩
  | .hbm, ⟨78, _⟩ => ⟨S256, .f32⟩
  | .hbm, ⟨79, _⟩ => ⟨S256x1, .f32⟩
  | .hbm, ⟨80, _⟩ => ⟨S32x256x4096, .bf16⟩
  | .hbm, ⟨81, _⟩ => ⟨S32x256x4096, .bf16⟩
  | .hbm, ⟨82, _⟩ => ⟨S32x256x64x64, .bf16⟩
  | .hbm, ⟨83, _⟩ => ⟨S32x256x64x64, .f32⟩
  | .hbm, ⟨84, _⟩ => ⟨S32x256x64x64, .bf16⟩
  | .hbm, ⟨85, _⟩ => ⟨S32x256x64x64, .f32⟩
  | .local _ .vmem, ⟨0, _⟩ => ⟨S1x256x4096, .f32⟩
  | .local _ .vmem, ⟨1, _⟩ => ⟨S1x256x4096, .f32⟩
  | .local _ .vmem, ⟨2, _⟩ => ⟨S1x256x4096, .f32⟩
  | .local _ .vmem, ⟨3, _⟩ => ⟨S1x256x4096, .f32⟩
  | .local _ .vmem, ⟨4, _⟩ => ⟨S16x256, .f32⟩
  | .local _ .vmem, ⟨5, _⟩ => ⟨S16x1, .f32⟩
  | .local _ .vmem, ⟨6, _⟩ => ⟨S256x16, .f32⟩
  | .local _ .vmem, ⟨7, _⟩ => ⟨S256x1, .f32⟩
  | .local _ .vmem, ⟨8, _⟩ => ⟨S16x256, .f32⟩
  | .local _ .vmem, ⟨9, _⟩ => ⟨S16x1, .f32⟩
  | .local _ .vmem, ⟨10, _⟩ => ⟨S256x16, .f32⟩
  | .local _ .vmem, ⟨11, _⟩ => ⟨S256x1, .f32⟩
  | .local _ .vmem, ⟨12, _⟩ => ⟨S1x256x4096, .bf16⟩
  | .local _ .vmem, ⟨13, _⟩ => ⟨S1x256x4096, .bf16⟩
  | .local _ .vmem, ⟨14, _⟩ => ⟨S1x256x4096, .bf16⟩
  | .local _ .vmem, ⟨15, _⟩ => ⟨S1x256x4096, .bf16⟩
  | _, _ => ⟨S32x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_cst : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_cst_0 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_cst_1 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_cst_2 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50_0 : Ref sig .tc := ⟨.hbm, 80, rfl⟩
abbrev main_v50_1 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x256x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S32x256x64x64_S32x256x4096 : S32x256x64x64.ShapeCasts S32x256x4096
  bcast_S_S16 : S_.BroadcastsInDim S16 (![] : Fin 0 → Fin S16.rank)
  bcast_S_S256 : S_.BroadcastsInDim S256 (![] : Fin 0 → Fin S256.rank)
  bcast_S16_S16x1_0 : S16.BroadcastsInDim S16x1 (![0] : Fin 1 → Fin S16x1.rank)
  bcast_S16x1_S16x256_0_1 : S16x1.BroadcastsInDim S16x256 (![0, 1] : Fin 2 → Fin S16x256.rank)
  bcast_S256_S256x1_0 : S256.BroadcastsInDim S256x1 (![0] : Fin 1 → Fin S256x1.rank)
  bcast_S256x1_S256x16_0_1 : S256x1.BroadcastsInDim S256x16 (![0, 1] : Fin 2 → Fin S256x16.rank)
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  reduces_S256x4096_S256 : S256x4096.Reduces [1] S256
  shapeCasts_S256_S256x1 : S256.ShapeCasts S256x1
  inb_S16x256_S16x256_0_0 : ∀ a, (![0, 0] : Fin 2 → Nat) a + S16x256.size a ≤ S16x256.size a
  h_S16x256 : 0 < S16x256.numel
  shapeCasts_S16x256_S16x256 : S16x256.ShapeCasts S16x256
  inb_S16x1_S16x1_0_0 : ∀ a, (![0, 0] : Fin 2 → Nat) a + S16x1.size a ≤ S16x1.size a
  h_S16x1 : 0 < S16x1.numel
  shapeCasts_S16x1_S16x1 : S16x1.ShapeCasts S16x1
  inb_S256x16_S256x16_0_0 : ∀ a, (![0, 0] : Fin 2 → Nat) a + S256x16.size a ≤ S256x16.size a
  h_S256x16 : 0 < S256x16.numel
  shapeCasts_S256x16_S256x16 : S256x16.ShapeCasts S256x16
  inb_S256x1_S256x1_0_0 : ∀ a, (![0, 0] : Fin 2 → Nat) a + S256x1.size a ≤ S256x1.size a
  h_S256x1 : 0 < S256x1.numel
  shapeCasts_S256x1_S256x1 : S256x1.ShapeCasts S256x1
  reduces_S256x1_S1 : S256x1.Reduces [0] S1
  shapeCasts_S1_S1x1 : S1.ShapeCasts S1x1
  broadcasts_S1x1_S256x1 : S1x1.Broadcasts S256x1
  broadcasts_S256x1_S256x4096 : S256x1.Broadcasts S256x4096
  bitsLt_bf16_f32 : FTy.bits .bf16 < FTy.bits .f32
  shapeCasts_S256x4096_S1x256x4096 : S256x4096.ShapeCasts S1x256x4096
  packedbf16_S1x256x4096_S1x256x4096_0_0_0 : (Rect.unit (s := S1x256x4096) ![0, 0, 0] S1x256x4096.size inb_S1x256x4096_S1x256x4096_0_0_0).PackedRows (EltTy.packing .bf16)
  shapeCasts_S32x256x4096_S32x256x64x64 : S32x256x4096.ShapeCasts S32x256x64x64
  dot_S16x256_S256x1_S16x1_1_0_0_1_n_n_wf : DotDims.WF S16x256 S256x1 S16x1 [1] [0] [0] [1] [] []
  dot_S256x16_S16x1_S256x1_1_0_0_1_n_n_wf : DotDims.WF S256x16 S16x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S32x256x4096.size a
  hwx0_0 : ∀ i : grid0.Coords, EltTy.bits .f32 = 32 ∨ (Rect.block (s := S32x256x4096) S1x256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x4096.size a ≤ S32x256x4096.size a
  hwx0_1 : ∀ i : grid0.Coords, EltTy.bits .f32 = 32 ∨ (Rect.block (s := S32x256x4096) S1x256x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x256.size a ≤ S16x256.size a
  hwx0_2 : ∀ i : grid0.Coords, EltTy.bits .f32 = 32 ∨ (Rect.block (s := S16x256) S16x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x1.size a ≤ S16x1.size a
  hwx0_3 : ∀ i : grid0.Coords, EltTy.bits .f32 = 32 ∨ (Rect.block (s := S16x1) S16x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x16.size a ≤ S256x16.size a
  hwx0_4 : ∀ i : grid0.Coords, EltTy.bits .f32 = 32 ∨ (Rect.block (s := S256x16) S256x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S256x1.size a
  hwx0_5 : ∀ i : grid0.Coords, EltTy.bits .f32 = 32 ∨ (Rect.block (s := S256x1) S256x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16x256.size a ≤ S16x256.size a
  hwx0_6 : ∀ i : grid0.Coords, EltTy.bits .f32 = 32 ∨ (Rect.block (s := S16x256) S16x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16x1.size a ≤ S16x1.size a
  hwx0_7 : ∀ i : grid0.Coords, EltTy.bits .f32 = 32 ∨ (Rect.block (s := S16x1) S16x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x16.size a ≤ S256x16.size a
  hwx0_8 : ∀ i : grid0.Coords, EltTy.bits .f32 = 32 ∨ (Rect.block (s := S256x16) S256x16.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x1.size a ≤ S256x1.size a
  hwx0_9 : ∀ i : grid0.Coords, EltTy.bits .f32 = 32 ∨ (Rect.block (s := S256x1) S256x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x256x4096.size a ≤ S32x256x4096.size a
  hwx0_10 : ∀ i : grid0.Coords, EltTy.bits .bf16 = 32 ∨ (Rect.block (s := S32x256x4096) S1x256x4096.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x256x4096.size a ≤ S32x256x4096.size a
  hwx0_11 : ∀ i : grid0.Coords, EltTy.bits .bf16 = 32 ∨ (Rect.block (s := S32x256x4096) S1x256x4096.size (cc0_transform_11 i) (hinb0_11 i)).WholeWords (EltTy.packing .bf16)

variable [Facts₀]

def dot_S16x256_S256x1_S16x1_1_0_0_1_n_n : DotDims S16x256 S256x1 S16x1 where
  lhsContracting := [1]
  rhsContracting := [0]
  lhsNonContracting := [0]
  rhsNonContracting := [1]
  lhsBatch := []
  rhsBatch := []
  wf := dot_S16x256_S256x1_S16x1_1_0_0_1_n_n_wf
def dot_S256x16_S16x1_S256x1_1_0_0_1_n_n : DotDims S256x16 S16x1 S256x1 where
  lhsContracting := [1]
  rhsContracting := [0]
  lhsNonContracting := [0]
  rhsNonContracting := [1]
  lhsBatch := []
  rhsBatch := []
  wf := dot_S256x16_S16x1_S256x1_1_0_0_1_n_n_wf

abbrev win0_0 : Pipeline.Window sig grid0 :=
  Pipeline.Window.ofSpec (Memref.whole main_v0) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S16x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S16x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S256x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S256x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v40) S16x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v43) S16x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v46) S256x16.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v49) S256x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v50_0) S1x256x4096.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v50_1) S1x256x4096.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S32x256x64x64 : Shape := ⟨4, ![32, 256, 64, 64]⟩
abbrev S16x256 : Shape := ⟨2, ![16, 256]⟩
abbrev S16 : Shape := ⟨1, ![16]⟩
abbrev S256x16 : Shape := ⟨2, ![256, 16]⟩
abbrev S256 : Shape := ⟨1, ![256]⟩
abbrev S32x256x4096 : Shape := ⟨3, ![32, 256, 4096]⟩
abbrev S32x256x1 : Shape := ⟨3, ![32, 256, 1]⟩
abbrev S1x256x1024 : Shape := ⟨3, ![1, 256, 1024]⟩
abbrev S1x256x1 : Shape := ⟨3, ![1, 256, 1]⟩
abbrev S1x256 : Shape := ⟨2, ![1, 256]⟩
abbrev S32x256 : Shape := ⟨2, ![32, 256]⟩
abbrev S_ : Shape := ⟨0, ![]⟩
abbrev S32x16 : Shape := ⟨2, ![32, 16]⟩
abbrev S1x16 : Shape := ⟨2, ![1, 16]⟩
abbrev S32 : Shape := ⟨1, ![32]⟩
abbrev S32x1 : Shape := ⟨2, ![32, 1]⟩
abbrev S256x1024 : Shape := ⟨2, ![256, 1024]⟩
abbrev S256x1 : Shape := ⟨2, ![256, 1]⟩

abbrev nBuf : Space → Nat
  | .hbm => 157
  | .vmem => 22
  | .smem => 0
  | _ => 0

abbrev hbmTy0_0 (i : Nat) : BufTy := match i % 128 with
  | 0 => ⟨S32x256x64x64, .f32⟩
  | 1 => ⟨S32x256x64x64, .f32⟩
  | 2 => ⟨S16x256, .f32⟩
  | 3 => ⟨S16, .f32⟩
  | 4 => ⟨S16, .f32⟩
  | 5 => ⟨S16, .f32⟩
  | 6 => ⟨S16, .f32⟩
  | 7 => ⟨S16, .f32⟩
  | 8 => ⟨S256x16, .f32⟩
  | 9 => ⟨S256, .f32⟩
  | 10 => ⟨S256, .f32⟩
  | 11 => ⟨S256, .f32⟩
  | 12 => ⟨S256, .f32⟩
  | 13 => ⟨S256, .f32⟩
  | 14 => ⟨S16x256, .f32⟩
  | 15 => ⟨S16, .f32⟩
  | 16 => ⟨S16, .f32⟩
  | 17 => ⟨S16, .f32⟩
  | 18 => ⟨S16, .f32⟩
  | 19 => ⟨S16, .f32⟩
  | 20 => ⟨S256x16, .f32⟩
  | 21 => ⟨S256, .f32⟩
  | 22 => ⟨S256, .f32⟩
  | 23 => ⟨S256, .f32⟩
  | 24 => ⟨S256, .f32⟩
  | 25 => ⟨S256, .f32⟩
  | 26 => ⟨S32x256x4096, .f32⟩
  | 27 => ⟨S32x256x4096, .f32⟩
  | 28 => ⟨S32x256x1, .f32⟩
  | 29 => ⟨S32x256x1, .f32⟩
  | 30 => ⟨S32x256, .f32⟩
  | 31 => ⟨S_, .f32⟩
  | 32 => ⟨S32x256, .f32⟩
  | 33 => ⟨S32x256, .f32⟩
  | 34 => ⟨S32x256, .f32⟩
  | 35 => ⟨S_, .f32⟩
  | 36 => ⟨S32x256, .f32⟩
  | 37 => ⟨S32x256, .f32⟩
  | 38 => ⟨S_, .f32⟩
  | 39 => ⟨S16, .f32⟩
  | 40 => ⟨S16, .f32⟩
  | 41 => ⟨S16, .f32⟩
  | 42 => ⟨S16, .f32⟩
  | 43 => ⟨S16, .f32⟩
  | 44 => ⟨S16, .f32⟩
  | 45 => ⟨S_, .f32⟩
  | 46 => ⟨S256, .f32⟩
  | 47 => ⟨S256, .f32⟩
  | 48 => ⟨S256, .f32⟩
  | 49 => ⟨S256, .f32⟩
  | 50 => ⟨S256, .f32⟩
  | 51 => ⟨S256, .f32⟩
  | 52 => ⟨S256x16, .f32⟩
  | 53 => ⟨S32x16, .f32⟩
  | 54 => ⟨S1x16, .f32⟩
  | 55 => ⟨S32x16, .f32⟩
  | 56 => ⟨S32x16, .f32⟩
  | 57 => ⟨S1x16, .f32⟩
  | 58 => ⟨S32x16, .f32⟩
  | 59 => ⟨S32x16, .f32⟩
  | 60 => ⟨S1x16, .f32⟩
  | 61 => ⟨S32x16, .f32⟩
  | 62 => ⟨S32x16, .f32⟩
  | 63 => ⟨S_, .f32⟩
  | 64 => ⟨S32x16, .f32⟩
  | 65 => ⟨S32x16, .f32⟩
  | 66 => ⟨S16x256, .f32⟩
  | 67 => ⟨S32x256, .f32⟩
  | 68 => ⟨S1x256, .f32⟩
  | 69 => ⟨S32x256, .f32⟩
  | 70 => ⟨S32x256, .f32⟩
  | 71 => ⟨S1x256, .f32⟩
  | 72 => ⟨S32x256, .f32⟩
  | 73 => ⟨S32x256, .f32⟩
  | 74 => ⟨S1x256, .f32⟩
  | 75 => ⟨S32x256, .f32⟩
  | 76 => ⟨S32x256, .f32⟩
  | 77 => ⟨S_, .f32⟩
  | 78 => ⟨S16, .f32⟩
  | 79 => ⟨S16, .f32⟩
  | 80 => ⟨S16, .f32⟩
  | 81 => ⟨S16, .f32⟩
  | 82 => ⟨S16, .f32⟩
  | 83 => ⟨S16, .f32⟩
  | 84 => ⟨S_, .f32⟩
  | 85 => ⟨S256, .f32⟩
  | 86 => ⟨S256, .f32⟩
  | 87 => ⟨S256, .f32⟩
  | 88 => ⟨S256, .f32⟩
  | 89 => ⟨S256, .f32⟩
  | 90 => ⟨S256, .f32⟩
  | 91 => ⟨S256x16, .f32⟩
  | 92 => ⟨S32x16, .f32⟩
  | 93 => ⟨S1x16, .f32⟩
  | 94 => ⟨S32x16, .f32⟩
  | 95 => ⟨S32x16, .f32⟩
  | 96 => ⟨S1x16, .f32⟩
  | 97 => ⟨S32x16, .f32⟩
  | 98 => ⟨S32x16, .f32⟩
  | 99 => ⟨S1x16, .f32⟩
  | 100 => ⟨S32x16, .f32⟩
  | 101 => ⟨S32x16, .f32⟩
  | 102 => ⟨S_, .f32⟩
  | 103 => ⟨S32x16, .f32⟩
  | 104 => ⟨S32x16, .f32⟩
  | 105 => ⟨S16x256, .f32⟩
  | 106 => ⟨S32x256, .f32⟩
  | 107 => ⟨S1x256, .f32⟩
  | 108 => ⟨S32x256, .f32⟩
  | 109 => ⟨S32x256, .f32⟩
  | 110 => ⟨S1x256, .f32⟩
  | 111 => ⟨S32x256, .f32⟩
  | 112 => ⟨S32x256, .f32⟩
  | 113 => ⟨S1x256, .f32⟩
  | 114 => ⟨S32x256, .f32⟩
  | 115 => ⟨S32x256, .f32⟩
  | 116 => ⟨S_, .f32⟩
  | 117 => ⟨S32, .f32⟩
  | 118 => ⟨S_, .f32⟩
  | 119 => ⟨S32, .f32⟩
  | 120 => ⟨S32, .f32⟩
  | 121 => ⟨S32x1, .f32⟩
  | 122 => ⟨S32x256, .f32⟩
  | 123 => ⟨S32x256, .f32⟩
  | 124 => ⟨S32x256, .f32⟩
  | 125 => ⟨S_, .f32⟩
  | 126 => ⟨S32, .f32⟩
  | 127 => ⟨S32x1, .f32⟩
  | _ => ⟨S32x256x64x64, .f32⟩

abbrev hbmTy0_1 (i : Nat) : BufTy := match i % 128 with
  | 0 => ⟨S32x256, .f32⟩
  | 1 => ⟨S32x256, .f32⟩
  | 2 => ⟨S_, .f32⟩
  | 3 => ⟨S32x256, .f32⟩
  | 4 => ⟨S32x256, .f32⟩
  | 5 => ⟨S32x256x1, .f32⟩
  | 6 => ⟨S_, .f32⟩
  | 7 => ⟨S32, .f32⟩
  | 8 => ⟨S_, .f32⟩
  | 9 => ⟨S32, .f32⟩
  | 10 => ⟨S32, .f32⟩
  | 11 => ⟨S32x1, .f32⟩
  | 12 => ⟨S32x256, .f32⟩
  | 13 => ⟨S32x256, .f32⟩
  | 14 => ⟨S32x256, .f32⟩
  | 15 => ⟨S_, .f32⟩
  | 16 => ⟨S32, .f32⟩
  | 17 => ⟨S32x1, .f32⟩
  | 18 => ⟨S32x256, .f32⟩
  | 19 => ⟨S32x256, .f32⟩
  | 20 => ⟨S_, .f32⟩
  | 21 => ⟨S32x256, .f32⟩
  | 22 => ⟨S32x256, .f32⟩
  | 23 => ⟨S32x256x1, .f32⟩
  | 24 => ⟨S32x256x1, .f32⟩
  | 25 => ⟨S32x256x4096, .f32⟩
  | 26 => ⟨S32x256x4096, .f32⟩
  | 27 => ⟨S32x256x64x64, .f32⟩
  | 28 => ⟨S32x256x64x64, .f32⟩
  | _ => ⟨S32x256x64x64, .f32⟩

abbrev hbmTy (i : Nat) : BufTy := match i / 128 with
  | 0 => hbmTy0_0 i
  | 1 => hbmTy0_1 i
  | _ => ⟨S32x256x64x64, .f32⟩

abbrev bufTy : (tb : Table) → Fin (tcTables nBuf tb) → BufTy
  | .hbm, ⟨i, _⟩ => hbmTy i
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1, .f32⟩
  | .local _ .vmem, ⟨5, _⟩ => ⟨S1x256x1, .f32⟩
  | .local _ .vmem, ⟨6, _⟩ => ⟨S1x256x1, .f32⟩
  | .local _ .vmem, ⟨7, _⟩ => ⟨S1x256x1, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1, .f32⟩
  | .local _ .vmem, ⟨13, _⟩ => ⟨S1x256x1, .f32⟩
  | .local _ .vmem, ⟨14, _⟩ => ⟨S1x256x1, .f32⟩
  | .local _ .vmem, ⟨15, _⟩ => ⟨S1x256x1, .f32⟩
  | .local _ .vmem, ⟨16, _⟩ => ⟨S1x256x1, .f32⟩
  | .local _ .vmem, ⟨17, _⟩ => ⟨S1x256x1, .f32⟩
  | .local _ .vmem, ⟨18, _⟩ => ⟨S1x256x1024, .f32⟩
  | .local _ .vmem, ⟨19, _⟩ => ⟨S1x256x1024, .f32⟩
  | .local _ .vmem, ⟨20, _⟩ => ⟨S1x256x1024, .f32⟩
  | .local _ .vmem, ⟨21, _⟩ => ⟨S1x256x1024, .f32⟩
  | _, _ => ⟨S32x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2_0 : Ref sig .tc := ⟨.hbm, 28, rfl⟩
abbrev main_v2_1 : Ref sig .tc := ⟨.hbm, 29, rfl⟩
abbrev main_v3 : Ref sig .tc := ⟨.hbm, 30, rfl⟩
abbrev main_cst : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_cst_0 : Ref sig .tc := ⟨.hbm, 35, rfl⟩
abbrev main_v7 : Ref sig .tc := ⟨.hbm, 36, rfl⟩
abbrev main_v8 : Ref sig .tc := ⟨.hbm, 37, rfl⟩
abbrev main_cst_1 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_2 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_cst_3 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_cst_4 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_cst_5 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_6 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_7 : Ref sig .tc := ⟨.hbm, 116, rfl⟩
abbrev main_v81 : Ref sig .tc := ⟨.hbm, 117, rfl⟩
abbrev main_cst_8 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_cst_9 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_cst_10 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_cst_11 : Ref sig .tc := ⟨.hbm, 134, rfl⟩
abbrev main_v95 : Ref sig .tc := ⟨.hbm, 135, rfl⟩
abbrev main_cst_12 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_cst_13 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_cst_14 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110_0 : Ref sig .tc := ⟨.hbm, 153, rfl⟩
abbrev main_v110_1 : Ref sig .tc := ⟨.hbm, 154, rfl⟩
abbrev main_v111 : Ref sig .tc := ⟨.hbm, 155, rfl⟩
abbrev main_v112 : Ref sig .tc := ⟨.hbm, 156, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![32, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x256x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x256x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x256x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

class Facts₀ : Prop where
  shapeCasts_S32x256x64x64_S32x256x4096 : S32x256x64x64.ShapeCasts S32x256x4096
  inb_S1x256x1_S1x256x1_0_0_0 : ∀ a, (![0, 0, 0] : Fin 3 → Nat) a + S1x256x1.size a ≤ S1x256x1.size a
  h_S1x256x1 : 0 < S1x256x1.numel
  shapeCasts_S1x256x1_S1x256x1 : S1x256x1.ShapeCasts S1x256x1
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S1x256x1024 : S1x256x1024.ShapeCasts S1x256x1024
  reduces_S1x256x1024_S1x256 : S1x256x1024.Reduces [2] S1x256
  shapeCasts_S1x256_S1x256x1 : S1x256.ShapeCasts S1x256x1
  shapeCasts_S32x256x1_S32x256 : S32x256x1.ShapeCasts S32x256
  bcast_S_S32x256 : S_.BroadcastsInDim S32x256 (![] : Fin 0 → Fin S32x256.rank)
  bcast_S_S16 : S_.BroadcastsInDim S16 (![] : Fin 0 → Fin S16.rank)
  bcast_S_S256 : S_.BroadcastsInDim S256 (![] : Fin 0 → Fin S256.rank)
  transposes_S16x256_S256x16_1_0 : S16x256.Transposes [1, 0] S256x16
  bcast_S16_S1x16_1 : S16.BroadcastsInDim S1x16 (![1] : Fin 1 → Fin S1x16.rank)
  bcast_S1x16_S32x16_0_1 : S1x16.BroadcastsInDim S32x16 (![0, 1] : Fin 2 → Fin S32x16.rank)
  bcast_S_S32x16 : S_.BroadcastsInDim S32x16 (![] : Fin 0 → Fin S32x16.rank)
  transposes_S256x16_S16x256_1_0 : S256x16.Transposes [1, 0] S16x256
  bcast_S256_S1x256_1 : S256.BroadcastsInDim S1x256 (![1] : Fin 1 → Fin S1x256.rank)
  bcast_S1x256_S32x256_0_1 : S1x256.BroadcastsInDim S32x256 (![0, 1] : Fin 2 → Fin S32x256.rank)
  reducesTo_S32x256_S32_d1 : S32x256.ReducesTo [1] S32
  h_S_ : 0 < S_.numel
  bcast_S_S32 : S_.BroadcastsInDim S32 (![] : Fin 0 → Fin S32.rank)
  bcast_S32_S32x1_0 : S32.BroadcastsInDim S32x1 (![0] : Fin 1 → Fin S32x1.rank)
  bcast_S32x1_S32x256_0_1 : S32x1.BroadcastsInDim S32x256 (![0, 1] : Fin 2 → Fin S32x256.rank)
  shapeCasts_S32x256_S32x256x1 : S32x256.ShapeCasts S32x256x1
  shapeCasts_S1x256x1024_S256x1024 : S1x256x1024.ShapeCasts S256x1024
  shapeCasts_S1x256x1_S256x1 : S1x256x1.ShapeCasts S256x1
  broadcasts_S256x1_S256x1024 : S256x1.Broadcasts S256x1024
  shapeCasts_S256x1024_S1x256x1024 : S256x1024.ShapeCasts S1x256x1024
  shapeCasts_S32x256x4096_S32x256x64x64 : S32x256x4096.ShapeCasts S32x256x64x64
  dot_S32x256_S256x16_S32x16_1_0_0_1_n_n_wf : DotDims.WF S32x256 S256x16 S32x16 [1] [0] [0] [1] [] []
  dot_S32x16_S16x256_S32x256_1_0_0_1_n_n_wf : DotDims.WF S32x16 S16x256 S32x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S32x256x4096.size a
  hwx0_0 : ∀ i : grid0.Coords, EltTy.bits .f32 = 32 ∨ (Rect.block (s := S32x256x4096) S1x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1024.size a ≤ S32x256x4096.size a
  hwx0_1 : ∀ i : grid0.Coords, EltTy.bits .f32 = 32 ∨ (Rect.block (s := S32x256x4096) S1x256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1.size a ≤ S32x256x1.size a
  hwx0_2 : ∀ i : grid0.Coords, EltTy.bits .f32 = 32 ∨ (Rect.block (s := S32x256x1) S1x256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1.size a ≤ S32x256x1.size a
  hwx0_3 : ∀ i : grid0.Coords, EltTy.bits .f32 = 32 ∨ (Rect.block (s := S32x256x1) S1x256x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1024.size a ≤ S32x256x4096.size a
  hwx1_0 : ∀ i : grid1.Coords, EltTy.bits .f32 = 32 ∨ (Rect.block (s := S32x256x4096) S1x256x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x1024.size a ≤ S32x256x4096.size a
  hwx1_1 : ∀ i : grid1.Coords, EltTy.bits .f32 = 32 ∨ (Rect.block (s := S32x256x4096) S1x256x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x1.size a ≤ S32x256x1.size a
  hwx1_2 : ∀ i : grid1.Coords, EltTy.bits .f32 = 32 ∨ (Rect.block (s := S32x256x1) S1x256x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x1.size a ≤ S32x256x1.size a
  hwx1_3 : ∀ i : grid1.Coords, EltTy.bits .f32 = 32 ∨ (Rect.block (s := S32x256x1) S1x256x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x256x1.size a ≤ S32x256x1.size a
  hwx1_4 : ∀ i : grid1.Coords, EltTy.bits .f32 = 32 ∨ (Rect.block (s := S32x256x1) S1x256x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x256x1024.size a ≤ S32x256x4096.size a
  hwx1_5 : ∀ i : grid1.Coords, EltTy.bits .f32 = 32 ∨ (Rect.block (s := S32x256x4096) S1x256x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x256x1024.size a ≤ S32x256x4096.size a
  hwx1_6 : ∀ i : grid1.Coords, EltTy.bits .f32 = 32 ∨ (Rect.block (s := S32x256x4096) S1x256x1024.size (cc1_transform_6 i) (hinb1_6 i)).WholeWords (EltTy.packing .f32)

variable [Facts₀]

def dot_S32x256_S256x16_S32x16_1_0_0_1_n_n : DotDims S32x256 S256x16 S32x16 where
  lhsContracting := [1]
  rhsContracting := [0]
  lhsNonContracting := [0]
  rhsNonContracting := [1]
  lhsBatch := []
  rhsBatch := []
  wf := dot_S32x256_S256x16_S32x16_1_0_0_1_n_n_wf
def dot_S32x16_S16x256_S32x256_1_0_0_1_n_n : DotDims S32x16 S16x256 S32x256 where
  lhsContracting := [1]
  rhsContracting := [0]
  lhsNonContracting := [0]
  rhsNonContracting := [1]
  lhsBatch := []
  rhsBatch := []
  wf := dot_S32x16_S16x256_S32x256_1_0_0_1_n_n_wf

abbrev win0_0 : Pipeline.Window sig grid0 :=
  Pipeline.Window.ofSpec (Memref.whole main_v0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x256x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x256x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S1x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x256x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v94) S1x256x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v108) S1x256x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v109) S1x256x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v110_0) S1x256x1024.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v110_1) S1x256x1024.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== Proof.LibIsReal.lean ====
/-
  Extended reals that are real numbers, and a real weight moved across absolute differences.

  `IsReal x` says the extended real `x` is (the image of) a real number. Real numbers are closed under sums,
  differences, the absolute value taken as the larger of `x` and `-x` (`absE`), and finite sums (`isReal_sum`), so a
  quantity built from real pieces by these operations stays away from both infinities, where the extended reals do
  not distribute. For real `A B C D w` (`weighted_abs`):
    |A w - B w| + |C w - D w| = |w| (|A - B| + |C - D|).
  Nothing here mentions a program: the file depends on Mathlib's extended reals only.
-/
import Mathlib.Data.EReal.Basic
import Mathlib.Data.EReal.Operations
import Mathlib.Algebra.BigOperators.Group.Finset.Basic
import Mathlib.Algebra.Order.AbsoluteValue.Basic
import Mathlib.Tactic.Ring

noncomputable section

namespace Cert.EdgeLoss

/-- The absolute value as both programs take it: the larger of `x` and `-x`. -/
def absE (x : EReal) : EReal := max x (-x)

/-- An extended real that is a real number. -/
def IsReal (x : EReal) : Prop := ∃ r : ℝ, x = (r : EReal)

theorem isReal_zero : IsReal 0 := ⟨0, EReal.coe_zero.symm⟩

/-- The inclusion of the reals is monotone, so it commutes with the larger of two numbers. -/
theorem coe_max (a b : ℝ) : ((max a b : ℝ) : EReal) = max (a : EReal) (b : EReal) :=
  EReal.coe_strictMono.monotone.map_max

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.absE {x : EReal} (hx : IsReal x) : IsReal (absE x) := by
  obtain ⟨a, rfl⟩ := hx
  exact ⟨max a (-a), by rw [Cert.EdgeLoss.absE, coe_max, EReal.coe_neg]⟩

theorem isReal_sum {ι : Type} (s : Finset ι) (f : ι → EReal) (hf : ∀ i ∈ s, IsReal (f i)) : IsReal (∑ i ∈ s, f i) := by
  classical
  induction s using Finset.induction_on with
  | empty => rw [Finset.sum_empty]; exact isReal_zero
  | insert a s ha ih =>
    rw [Finset.sum_insert ha]
    exact (hf a (Finset.mem_insert_self a s)).add (ih fun i hi => hf i (Finset.mem_insert_of_mem hi))

/-! ## A finite weight moves across the differences -/

/-- For real numbers, |A w - B w| + |C w - D w| = |w| (|A - B| + |C - D|): the reference weights each structure
    before it subtracts, the kernel weights the sum of the two absolute differences. -/
theorem weighted_abs {A B C D w : EReal} (hA : IsReal A) (hB : IsReal B) (hC : IsReal C) (hD : IsReal D) (hw : IsReal w) :
    absE (A * w - B * w) + absE (C * w - D * w) = absE w * (absE (A - B) + absE (C - D)) := by
  obtain ⟨a, rfl⟩ := hA; obtain ⟨b, rfl⟩ := hB; obtain ⟨c, rfl⟩ := hC; obtain ⟨d, rfl⟩ := hD; obtain ⟨v, rfl⟩ := hw
  simp only [absE, ← EReal.coe_mul, ← EReal.coe_sub, ← EReal.coe_neg, ← coe_max, ← EReal.coe_add]
  refine congrArg _ ?_
  simp only [← abs_eq_max_neg]
  rw [← sub_mul, ← sub_mul, abs_mul, abs_mul]
  ring

end Cert.EdgeLoss

end
-- ==== Proof.LibRealScale.lean ====
/-
  A real factor moved across a finite sum of products, on the extended reals.

  The extended reals are not a ring: a product does not distribute over a sum at an infinity (the sum may be
  `⊤ + ⊥`). For extended reals that are real numbers (`IsReal`) every ring identity of the reals holds, because
  the inclusion of the reals commutes with products and with finite sums (`coe_finset_sum`). This file proves that
  real numbers are closed under products (`IsReal.mul`), that the image of a real number is real (`isReal_coe`),
  and the identity used for a scaled inner product (`scale_sum`):
    ∑ i, (a i * c) * b i = (∑ i, a i * b i) * c    for real a i, b i, c.
  Nothing here mentions a program: the file depends on Mathlib's extended reals only.
-/
import Mathlib
import proofs.«119149_g2000609679484958_pallasbulk_1271_18_alg».proof.Proof.LibIsReal

noncomputable section

open scoped BigOperators

namespace Cert.EdgeLoss

/-- The product of two real numbers is a real number. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

end Cert.EdgeLoss

namespace Cert.RealScale

open Cert.EdgeLoss

/-- The image of a real number is real. -/
theorem isReal_coe (r : ℝ) : IsReal (r : EReal) := ⟨r, rfl⟩

/-- The inclusion of the reals commutes with finite sums. -/
theorem coe_finset_sum {ι : Type} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- A real factor moves across a finite sum of products of real numbers. On the extended reals this needs the
    terms real: at an infinity the product does not distribute. -/
theorem scale_sum {ι : Type} [Fintype ι] (a b : ι → EReal) (c : EReal)
    (ha : ∀ i, IsReal (a i)) (hb : ∀ i, IsReal (b i)) (hc : IsReal c) :
    ∑ i, (a i * c) * b i = (∑ i, a i * b i) * c := by
  choose a' ha' using ha
  choose b' hb' using hb
  obtain ⟨c', rfl⟩ := hc
  have h1 : ∀ i, (a i * (c' : EReal)) * b i = ((a' i * c' * b' i : ℝ) : EReal) := fun i => by
    rw [ha' i, hb' i, EReal.coe_mul, EReal.coe_mul]
  have h2 : ∀ i, a i * b i = ((a' i * b' i : ℝ) : EReal) := fun i => by
    rw [ha' i, hb' i, EReal.coe_mul]
  rw [Finset.sum_congr rfl fun i _ => h1 i, Finset.sum_congr rfl fun i _ => h2 i,
    ← coe_finset_sum, ← coe_finset_sum, ← EReal.coe_mul, Finset.sum_mul]
  refine congrArg _ (Finset.sum_congr rfl fun i _ => ?_)
  ring

end Cert.RealScale

end
-- ==== Proof.Spec.lean ====
/-
  The mathematics both programs compute, stated once over plain index types on the extended reals.

  A gate branch takes the spatial mean g of a channel image, applies a 1x1 convolution, a batch normalisation, a
  ReLU, a second 1x1 convolution and a second normalisation, giving a vector v over the 256 channels. A batch
  normalisation with scale s = γ / sqrt(var + ε) and shift t = β - μ s sends y to y s + t. One program applies the
  normalisation after the convolution, ((Σ_k g_k w_jk) + b_j) s_j + t_j (`vecR`); the other folds it into the
  weights first, (Σ_k (w_jk s_j) g_k) + (b_j s_j + t_j) (`vecK`). The two agree when every number involved is a real
  number (`vecK_eq_vecR`): a real factor moves across a finite sum of real products, which fails at an infinity.
  The scale s is real when γ and var are real and var ≥ 0, because ε > 0 keeps the square root positive.
  The outputs then gate the image by 1 + softmax(v) over the channels (`gate`), the low band adding v itself.
-/
import Idealize.ShloMosaic.PureOps.Ideal
import Idealize.ShloMosaic.PureOps.Ideal.Laws
import Idealize.ShloMosaic.Lib.ValueIdx
import proofs.«119149_g2000609679484958_pallasbulk_1271_18_alg».proof.Proof.LibIsReal
import proofs.«119149_g2000609679484958_pallasbulk_1271_18_alg».proof.Proof.LibRealScale

noncomputable section

open scoped BigOperators

namespace Cert.Fdd

open Idealize.ShloMosaic Idealize.ShloMosaic.ValueIdx Cert.EdgeLoss Cert.RealScale

/-! ## The literals, kept as their words -/

/-- The normalisation's ε (the f32 nearest 1e-5). -/
abbrev epsW : EReal := Ideal.ofBits .f32 0x3727C5AC#32
/-- 1 / 4096, the reciprocal of the number of pixels. -/
abbrev invW : EReal := Ideal.ofBits .f32 0x39800000#32
/-- 1.0. -/
abbrev oneW : EReal := Ideal.ofBits .f32 0x3F800000#32
/-- -∞, the value a maximum starts from. -/
abbrev botW : EReal := Ideal.ofBits .f32 0xFF800000#32

/-- ε is a positive real number. -/
theorem epsW_pos : ∃ r : ℝ, 0 < r ∧ epsW = (r : EReal) := by
  refine ⟨(10995116 : ℝ) * (2 : ℝ) ^ (-40 : ℤ), by positivity, ?_⟩
  simp [epsW, Ideal.ofBits, Ideal.ieee, -EReal.coe_mul]

/-! ## One gate branch -/

/-- The parameters of one branch: two 1x1 convolutions (weights, bias) and the two normalisations after them
    (γ, β, running mean μ, running variance v). -/
structure Branch where
  w1 : Fin 16 → Fin 256 → EReal
  b1 : Fin 16 → EReal
  γ1 : Fin 16 → EReal
  β1 : Fin 16 → EReal
  μ1 : Fin 16 → EReal
  v1 : Fin 16 → EReal
  w2 : Fin 256 → Fin 16 → EReal
  b2 : Fin 256 → EReal
  γ2 : Fin 256 → EReal
  β2 : Fin 256 → EReal
  μ2 : Fin 256 → EReal
  v2 : Fin 256 → EReal

/-- The scale γ / sqrt(var + ε) of a normalisation. -/
def bnScale (γ v : EReal) : EReal := Ideal.div γ (Ideal.sqrt (v + epsW))
/-- The shift β - μ s of a normalisation with scale s. -/
def bnShift (β μ s : EReal) : EReal := β - μ * s

def Branch.s1 (B : Branch) (j : Fin 16) : EReal := bnScale (B.γ1 j) (B.v1 j)
def Branch.t1 (B : Branch) (j : Fin 16) : EReal := bnShift (B.β1 j) (B.μ1 j) (B.s1 j)
def Branch.s2 (B : Branch) (c : Fin 256) : EReal := bnScale (B.γ2 c) (B.v2 c)
def Branch.t2 (B : Branch) (c : Fin 256) : EReal := bnShift (B.β2 c) (B.μ2 c) (B.s2 c)

/-- Two affine layers with a ReLU between them, on a vector g over the 256 channels: weights w1 [16, 256], bias b1,
    then weights w2 [256, 16], bias b2. -/
def twoLayer (w1 : Fin 16 → Fin 256 → EReal) (b1 : Fin 16 → EReal) (w2 : Fin 256 → Fin 16 → EReal) (b2 : Fin 256 → EReal)
    (g : Fin 256 → EReal) (c : Fin 256) : EReal :=
  (∑ j : Fin 16, w2 c j * max ((∑ k : Fin 256, w1 j k * g k) + b1 j) 0) + b2 c

/-- The branch with both normalisations folded into the weights and biases. -/
def vecK (B : Branch) (g : Fin 256 → EReal) (c : Fin 256) : EReal :=
  (∑ j : Fin 16, (B.w2 c j * B.s2 c) * max ((∑ k : Fin 256, (B.w1 j k * B.s1 j) * g k) + (B.b1 j * B.s1 j + B.t1 j)) 0)
    + (B.b2 c * B.s2 c + B.t2 c)

/-- The folded branch is the two-layer map at the folded weights and biases. -/
theorem vecK_eq_twoLayer (B : Branch) (g : Fin 256 → EReal) (c : Fin 256) :
    vecK B g c = twoLayer (fun j k => B.w1 j k * B.s1 j) (fun j => B.b1 j * B.s1 j + B.t1 j)
      (fun c j => B.w2 c j * B.s2 c) (fun c => B.b2 c * B.s2 c + B.t2 c) g c := rfl

/-- The branch with each normalisation applied after its convolution. -/
def vecR (B : Branch) (g : Fin 256 → EReal) (c : Fin 256) : EReal :=
  ((∑ j : Fin 16, max (((∑ k : Fin 256, g k * B.w1 j k) + B.b1 j) * B.s1 j + B.t1 j) 0 * B.w2 c j) + B.b2 c) * B.s2 c
    + B.t2 c

/-- Every parameter is a real number and both running variances are non-negative. -/
structure Branch.Ok (B : Branch) : Prop where
  w1 : ∀ j k, IsReal (B.w1 j k)
  b1 : ∀ j, IsReal (B.b1 j)
  γ1 : ∀ j, IsReal (B.γ1 j)
  β1 : ∀ j, IsReal (B.β1 j)
  μ1 : ∀ j, IsReal (B.μ1 j)
  v1 : ∀ j, IsReal (B.v1 j)
  v1_nonneg : ∀ j, 0 ≤ B.v1 j
  w2 : ∀ c j, IsReal (B.w2 c j)
  b2 : ∀ c, IsReal (B.b2 c)
  γ2 : ∀ c, IsReal (B.γ2 c)
  β2 : ∀ c, IsReal (B.β2 c)
  μ2 : ∀ c, IsReal (B.μ2 c)
  v2 : ∀ c, IsReal (B.v2 c)
  v2_nonneg : ∀ c, 0 ≤ B.v2 c

/-- The scale of a normalisation is real when γ and the variance are real and the variance is not negative:
    var + ε is then a positive real, its square root a positive real, and the quotient a product of reals. -/
theorem isReal_bnScale {γ v : EReal} (hγ : IsReal γ) (hv : IsReal v) (h0 : 0 ≤ v) : IsReal (bnScale γ v) := by
  obtain ⟨e, he, hE⟩ := epsW_pos
  obtain ⟨a, rfl⟩ := hγ
  obtain ⟨x, rfl⟩ := hv
  have hx : 0 ≤ x := by exact_mod_cast h0
  have hpos : 0 < x + e := by linarith
  have hs : Real.sqrt (x + e) ≠ 0 := (Real.sqrt_pos.mpr hpos).ne'
  unfold bnScale
  rw [hE, ← EReal.coe_add]
  have : Ideal.sqrt ((x + e : ℝ) : EReal) = ((Real.sqrt (x + e) : ℝ) : EReal) := by
    show (if x + e < 0 then (⊥ : EReal) else (Real.sqrt (x + e) : EReal)) = _
    rw [if_neg (not_lt.mpr hpos.le)]
  rw [this, Ideal.div_coe hs, ← EReal.coe_mul]
  exact isReal_coe _

theorem isReal_bnShift {β μ s : EReal} (hβ : IsReal β) (hμ : IsReal μ) (hs : IsReal s) : IsReal (bnShift β μ s) :=
  hβ.sub (hμ.mul hs)

/-- The larger of a real number and zero is a real number. -/
theorem IsReal.max_zero {x : EReal} (hx : IsReal x) : IsReal (max x 0) := by
  obtain ⟨a, rfl⟩ := hx
  exact ⟨max a 0, by rw [coe_max, EReal.coe_zero]⟩

/-- For real numbers, (A s) + (b s + t) = (A + b) s + t. -/
theorem affine_real {A b s t : EReal} (hA : IsReal A) (hb : IsReal b) (hs : IsReal s) (ht : IsReal t) :
    A * s + (b * s + t) = (A + b) * s + t := by
  obtain ⟨a, rfl⟩ := hA; obtain ⟨b', rfl⟩ := hb; obtain ⟨s', rfl⟩ := hs; obtain ⟨t', rfl⟩ := ht
  simp only [← EReal.coe_mul, ← EReal.coe_add]
  exact congrArg _ (by ring)

/-- Folding the normalisations into the weights changes nothing when every number is real. -/
theorem vecK_eq_vecR (B : Branch) (hB : B.Ok) (g : Fin 256 → EReal) (hg : ∀ k, IsReal (g k)) : vecK B g = vecR B g := by
  funext c
  have hs1 : ∀ j, IsReal (B.s1 j) := fun j => isReal_bnScale (hB.γ1 j) (hB.v1 j) (hB.v1_nonneg j)
  have hs2 : ∀ c, IsReal (B.s2 c) := fun c => isReal_bnScale (hB.γ2 c) (hB.v2 c) (hB.v2_nonneg c)
  have ht1 : ∀ j, IsReal (B.t1 j) := fun j => isReal_bnShift (hB.β1 j) (hB.μ1 j) (hs1 j)
  have ht2 : ∀ c, IsReal (B.t2 c) := fun c => isReal_bnShift (hB.β2 c) (hB.μ2 c) (hs2 c)
  have hdot1 : ∀ j, IsReal (∑ k : Fin 256, B.w1 j k * g k) := fun j =>
    isReal_sum _ _ fun k _ => (hB.w1 j k).mul (hg k)
  -- the hidden layer: the same real number either way
  have hh : ∀ j : Fin 16, max ((∑ k : Fin 256, (B.w1 j k * B.s1 j) * g k) + (B.b1 j * B.s1 j + B.t1 j)) 0
      = max (((∑ k : Fin 256, g k * B.w1 j k) + B.b1 j) * B.s1 j + B.t1 j) 0 := fun j => by
    rw [scale_sum (fun k => B.w1 j k) g (B.s1 j) (hB.w1 j) hg (hs1 j),
      affine_real (hdot1 j) (hB.b1 j) (hs1 j) (ht1 j),
      Finset.sum_congr rfl fun k _ => mul_comm (B.w1 j k) (g k)]
  have hhr : ∀ j : Fin 16, IsReal (max (((∑ k : Fin 256, g k * B.w1 j k) + B.b1 j) * B.s1 j + B.t1 j) 0) := fun j => by
    refine IsReal.max_zero ((((isReal_sum _ _ fun k _ => (hg k).mul (hB.w1 j k)).add (hB.b1 j)).mul (hs1 j)).add (ht1 j))
  unfold vecK vecR
  rw [Finset.sum_congr rfl fun j _ => by rw [hh j]]
  rw [scale_sum (fun j => B.w2 c j) (fun j => max (((∑ k : Fin 256, g k * B.w1 j k) + B.b1 j) * B.s1 j + B.t1 j) 0) (B.s2 c)
      (hB.w2 c) hhr (hs2 c),
    affine_real (isReal_sum _ _ fun j _ => (hB.w2 c j).mul (hhr j)) (hB.b2 c) (hs2 c) (ht2 c),
    Finset.sum_congr rfl fun j _ => mul_comm (B.w2 c j) _]

/-! ## The gate -/

/-- The largest entry of a vector over the channels, as a fold of `max` from -∞. -/
def rowMax (v : Fin 256 → EReal) : EReal := (Finset.univ : Finset (Fin 256)).fold max botW v

/-- 1 + softmax(v) at channel c: exp(v_c - max v) over the sum of those, plus one. -/
def gate (v : Fin 256 → EReal) (c : Fin 256) : EReal :=
  Ideal.div (Ideal.exp (v c - rowMax v)) (∑ c' : Fin 256, Ideal.exp (v c' - rowMax v)) + oneW

/-- The mean of channel k of image n: the sum over the 4096 pixels times 1/4096. -/
def gapOf (X : Fin 32 → Fin 256 → Fin 4096 → EReal) (n : Fin 32) (k : Fin 256) : EReal := (∑ p : Fin 4096, X n k p) * invW

/-- The low band's output: the image gated, plus the branch vector. -/
def loAt (vec : Branch → (Fin 256 → EReal) → Fin 256 → EReal) (B : Branch) (X : Fin 32 → Fin 256 → Fin 4096 → EReal)
    (n : Fin 32) (c : Fin 256) (p : Fin 4096) : EReal :=
  X n c p * gate (vec B (gapOf X n)) c + vec B (gapOf X n) c

/-- The high band's output: the image gated. -/
def hiAt (vec : Branch → (Fin 256 → EReal) → Fin 256 → EReal) (B : Branch) (Y : Fin 32 → Fin 256 → Fin 4096 → EReal)
    (n : Fin 32) (c : Fin 256) (p : Fin 4096) : EReal :=
  Y n c p * gate (vec B (gapOf Y n)) c

/-- The mean of real numbers is real. -/
theorem isReal_gapOf (X : Fin 32 → Fin 256 → Fin 4096 → EReal) (hX : ∀ n k p, IsReal (X n k p)) (n : Fin 32) (k : Fin 256) :
    IsReal (gapOf X n k) := by
  refine (isReal_sum _ _ fun p _ => hX n k p).mul ?_
  refine ⟨(2 : ℝ) ^ (-12 : ℤ), ?_⟩
  simp [invW, Ideal.ofBits, Ideal.ieee, -EReal.coe_mul]
  norm_num

theorem loAt_eq (B : Branch) (hB : B.Ok) (X : Fin 32 → Fin 256 → Fin 4096 → EReal) (hX : ∀ n k p, IsReal (X n k p)) :
    loAt vecK B X = loAt vecR B X := by
  funext n c p
  unfold loAt
  rw [vecK_eq_vecR B hB _ (isReal_gapOf X hX n)]

theorem hiAt_eq (B : Branch) (hB : B.Ok) (Y : Fin 32 → Fin 256 → Fin 4096 → EReal) (hY : ∀ n k p, IsReal (Y n k p)) :
    hiAt vecK B Y = hiAt vecR B Y := by
  funext n c p
  unfold hiAt
  rw [vecK_eq_vecR B hB _ (isReal_gapOf Y hY n)]

/-! ## Arrays from coordinates -/

abbrev S3 : Shape := ⟨3, ![32, 256, 4096]⟩
abbrev S4 : Shape := ⟨4, ![32, 256, 64, 64]⟩

/-- A [32, 256, 4096] array read by its three coordinates. -/
def coords3 (A : S3.Idx → EReal) (n : Fin 32) (c : Fin 256) (p : Fin 4096) : EReal := A (ix3 n c p)

/-- The [32, 256, 4096] array with the given entries. -/
def arr3 (f : Fin 32 → Fin 256 → Fin 4096 → EReal) : S3.Idx → EReal := fun i => f (i 0) (i 1) (i 2)

theorem arr3_apply (f : Fin 32 → Fin 256 → Fin 4096 → EReal) (n : Fin 32) (c : Fin 256) (p : Fin 4096) :
    arr3 f (ix3 n c p) = f n c p := rfl

/-- Two [32, 256, 4096] arrays with the same entries are equal. -/
theorem ext3 {A B : S3.Idx → EReal} (h : ∀ n c p, A (ix3 n c p) = B (ix3 n c p)) : A = B := by
  funext i; rw [eq_ix3 i]; exact h _ _ _

/-- The two reshapes between [32, 256, 64, 64] and [32, 256, 4096] (row-major, so the pixel index is 64 h + w). -/
theorem h43 : S4.ShapeCasts S3 := by decide
theorem h34 : S3.ShapeCasts S4 := by decide
def to3 (a : S4.Idx → EReal) : S3.Idx → EReal := shapeCast S3 a h43
def to4 (A : S3.Idx → EReal) : S4.Idx → EReal := shapeCast S4 A h34

/-- The branch parameters read off six vectors and a matrix per layer. -/
def Branch.ofArrays (w1 : (⟨2, ![16, 256]⟩ : Shape).Idx → EReal) (b1 γ1 β1 μ1 v1 : (⟨1, ![16]⟩ : Shape).Idx → EReal)
    (w2 : (⟨2, ![256, 16]⟩ : Shape).Idx → EReal) (b2 γ2 β2 μ2 v2 : (⟨1, ![256]⟩ : Shape).Idx → EReal) : Branch where
  w1 j k := w1 (ix2 j k)
  b1 j := b1 (ix1 j)
  γ1 j := γ1 (ix1 j)
  β1 j := β1 (ix1 j)
  μ1 j := μ1 (ix1 j)
  v1 j := v1 (ix1 j)
  w2 c j := w2 (ix2 c j)
  b2 c := b2 (ix1 c)
  γ2 c := γ2 (ix1 c)
  β2 c := β2 (ix1 c)
  μ2 c := μ2 (ix1 c)
  v2 c := v2 (ix1 c)

/-- The low band's result array from the argument arrays: reshape the image to [32, 256, 4096], gate it and add the
    branch vector, reshape back. -/
def resLo (vec : Branch → (Fin 256 → EReal) → Fin 256 → EReal) (a : S4.Idx → EReal)
    (w1 : (⟨2, ![16, 256]⟩ : Shape).Idx → EReal) (b1 γ1 β1 μ1 v1 : (⟨1, ![16]⟩ : Shape).Idx → EReal)
    (w2 : (⟨2, ![256, 16]⟩ : Shape).Idx → EReal) (b2 γ2 β2 μ2 v2 : (⟨1, ![256]⟩ : Shape).Idx → EReal) : S4.Idx → EReal :=
  to4 (arr3 (loAt vec (Branch.ofArrays w1 b1 γ1 β1 μ1 v1 w2 b2 γ2 β2 μ2 v2) (coords3 (to3 a))))

/-- The high band's result array from the argument arrays. -/
def resHi (vec : Branch → (Fin 256 → EReal) → Fin 256 → EReal) (a : S4.Idx → EReal)
    (w1 : (⟨2, ![16, 256]⟩ : Shape).Idx → EReal) (b1 γ1 β1 μ1 v1 : (⟨1, ![16]⟩ : Shape).Idx → EReal)
    (w2 : (⟨2, ![256, 16]⟩ : Shape).Idx → EReal) (b2 γ2 β2 μ2 v2 : (⟨1, ![256]⟩ : Shape).Idx → EReal) : S4.Idx → EReal :=
  to4 (arr3 (hiAt vec (Branch.ofArrays w1 b1 γ1 β1 μ1 v1 w2 b2 γ2 β2 μ2 v2) (coords3 (to3 a))))

end Cert.Fdd

end
-- ==== Proof.PreFacts.lean ====
/-
  The precondition, opened. The printed predicate is the conjunction, over the 26 float arrays, of all(|a| < +∞), and,
  for the four running variances, of all(a ≥ 0). On the extended reals |x| = max x (-x) is below +∞ exactly when x is
  neither infinity, that is, when x is a real number; so the claim that the predicate is 1 says every entry of every
  array is a real number and no variance entry is negative: both images are real and both branches' parameters are
  `Branch.Ok`.
-/
import proofs.«119149_g2000609679484958_pallasbulk_1271_18_alg».proof.Pre_finite_inputs
import proofs.«119149_g2000609679484958_pallasbulk_1271_18_alg».proof.Proof.Gen.Pre_finite_inputs
import proofs.«119149_g2000609679484958_pallasbulk_1271_18_alg».proof.Proof.Spec
import Idealize.ShloMosaic.Lib.ReduceAll
import Idealize.ShloMosaic.PureOps.Ideal

noncomputable section

namespace Cert.PreFacts

open Idealize.ShloMosaic Idealize.ShloMosaic.ValueIdx Cert.EdgeLoss

open Cert.Pre_finite_inputs (S_)

/-- A rank-0 array has one index. -/
instance : Subsingleton S_.Idx := ⟨fun _ _ => funext fun d => d.elim0⟩

/-- The word 0x7F800000 is +∞. -/
theorem infW : Ideal.ofBits .f32 0x7F800000#32 = (⊤ : EReal) := by simp [Ideal.ofBits, Ideal.ieee]

theorem ofBool_eq_one {b : Bool} : BitVec.ofBool b = 1#1 ↔ b = true := by cases b <;> decide

/-- An extended real whose absolute value, the larger of x and -x, is below +∞ is neither infinity: it is a real
    number. -/
theorem isReal_of_abs_lt_top {x : EReal}
    (h : Ideal.cmp .olt (max x (-x)) (Ideal.ofBits .f32 0x7F800000#32) = 1#1) : IsReal x := by
  rw [infW] at h
  simp only [Ideal.cmp, ofBool_eq_one, decide_eq_true_eq] at h
  induction x using EReal.rec with
  | bot => simp at h
  | coe r => exact ⟨r, rfl⟩
  | top => simp at h

/-- An extended real that compares at or above the zero word is not negative. -/
theorem nonneg_of_ge_zero {x : EReal}
    (h : Ideal.cmp .oge x (Ideal.ofBits .f32 0x00000000#32) = 1#1) : 0 ≤ x := by
  rw [Ideal.ofBits_zero_f32] at h
  simpa only [Ideal.cmp, ofBool_eq_one, decide_eq_true_eq] using h

/-- all(|a| < +∞), read back: every entry of a is a real number. -/
theorem finite_of_all {s : Shape} {axes : List (Fin s.rank)} (a : FVec Ideal s .f32)
    (bc : S_.BroadcastsInDim s (![] : Fin 0 → Fin s.rank)) (red : s.ReducesTo axes S_) (hu : 0 < S_.numel)
    (e : Host.reduce IntOp.andi (cmpf .olt (Host.absf a) (broadcastInDim s ![] bc (constant S_ .f32 0x7F800000#32)))
        (constantI S_ 1 1#1) red hu ix0 = 1#1) (i : s.Idx) : IsReal (a i) :=
  isReal_of_abs_lt_top (Host.reduce_andi_all _ _ red hu _ e i)

/-- all(a ≥ 0), read back: no entry of a is negative. -/
theorem nonneg_of_all {s : Shape} {axes : List (Fin s.rank)} (a : FVec Ideal s .f32)
    (bc : S_.BroadcastsInDim s (![] : Fin 0 → Fin s.rank)) (red : s.ReducesTo axes S_) (hu : 0 < S_.numel)
    (e : Host.reduce IntOp.andi (cmpf .oge a (broadcastInDim s ![] bc (constant S_ .f32 0x00000000#32)))
        (constantI S_ 1 1#1) red hu ix0 = 1#1) (i : s.Idx) : 0 ≤ a i :=
  nonneg_of_ge_zero (Host.reduce_andi_all _ _ red hu _ e i)

/-- The precondition gives: both images real, both branches' parameters real with variances not negative. -/
theorem facts_of_pre [Cert.Pre_finite_inputs.Facts]
    (a0 a1 : FVec Ideal Cert.Pre_finite_inputs.S32x256x64x64 .f32) (a2 : FVec Ideal Cert.Pre_finite_inputs.S16x256 .f32)
    (a3 a4 a5 a6 a7 : FVec Ideal Cert.Pre_finite_inputs.S16 .f32) (a8 : FVec Ideal Cert.Pre_finite_inputs.S256x16 .f32)
    (a9 a10 a11 a12 a13 : FVec Ideal Cert.Pre_finite_inputs.S256 .f32) (a14 : FVec Ideal Cert.Pre_finite_inputs.S16x256 .f32)
    (a15 a16 a17 a18 a19 : FVec Ideal Cert.Pre_finite_inputs.S16 .f32) (a20 : FVec Ideal Cert.Pre_finite_inputs.S256x16 .f32)
    (a21 a22 a23 a24 a25 : FVec Ideal Cert.Pre_finite_inputs.S256 .f32)
    (h : Cert.Pre_finite_inputs.fn (F := Ideal) a0 a1 a2 a3 a4 a5 a6 a7 a8 a9 a10 a11 a12 a13 a14 a15 a16 a17 a18 a19 a20 a21 a22 a23 a24 a25 = fun _ => 1#1) :
    (∀ i, Cert.EdgeLoss.IsReal (a0 i)) ∧ (∀ i, Cert.EdgeLoss.IsReal (a1 i))
      ∧ (Cert.Fdd.Branch.ofArrays a2 a3 a4 a5 a6 a7 a8 a9 a10 a11 a12 a13).Ok
      ∧ (Cert.Fdd.Branch.ofArrays a14 a15 a16 a17 a18 a19 a20 a21 a22 a23 a24 a25).Ok := by
  -- the claim at the one index of the rank-0 result
  have e := congrFun h ix0
  -- the printed chain, opened: a left-nested conjunction of thirty reductions by "and"
  dsimp only [Cert.Pre_finite_inputs.fn, Cert.Pre_finite_inputs.fn_part1, Cert.Pre_finite_inputs.fn_part2, Cert.Pre_finite_inputs.fn_part3, Cert.Pre_finite_inputs.fn_part4,
    Cert.Pre_finite_inputs.fn_part5, Cert.Pre_finite_inputs.fn_part6, Cert.Pre_finite_inputs.fn_part7, Cert.Pre_finite_inputs.fn_part8, andi] at e
  simp only [IntOp.andi_eq_one] at e
  -- c0 … c25: all(|a_k| < +∞); c26 … c29: all(a ≥ 0) for the four running variances a7, a13, a19, a25
  obtain ⟨⟨⟨⟨⟨⟨⟨⟨⟨⟨⟨⟨⟨⟨⟨⟨⟨⟨⟨⟨⟨⟨⟨⟨⟨⟨⟨⟨⟨c0, c1⟩, c2⟩, c3⟩, c4⟩, c5⟩, c6⟩, c7⟩, c8⟩, c9⟩, c10⟩, c11⟩, c12⟩, c13⟩, c14⟩, c15⟩, c16⟩, c17⟩, c18⟩, c19⟩, c20⟩, c21⟩, c22⟩, c23⟩, c24⟩, c25⟩, c26⟩, c27⟩, c28⟩, c29⟩ := e
  refine ⟨finite_of_all a0 _ _ _ c0, finite_of_all a1 _ _ _ c1, ?_, ?_⟩
  · exact
    { w1 := fun _ _ => finite_of_all a2 _ _ _ c2 _
      b1 := fun _ => finite_of_all a3 _ _ _ c3 _
      γ1 := fun _ => finite_of_all a4 _ _ _ c4 _
      β1 := fun _ => finite_of_all a5 _ _ _ c5 _
      μ1 := fun _ => finite_of_all a6 _ _ _ c6 _
      v1 := fun _ => finite_of_all a7 _ _ _ c7 _
      v1_nonneg := fun _ => nonneg_of_all a7 _ _ _ c26 _
      w2 := fun _ _ => finite_of_all a8 _ _ _ c8 _
      b2 := fun _ => finite_of_all a9 _ _ _ c9 _
      γ2 := fun _ => finite_of_all a10 _ _ _ c10 _
      β2 := fun _ => finite_of_all a11 _ _ _ c11 _
      μ2 := fun _ => finite_of_all a12 _ _ _ c12 _
      v2 := fun _ => finite_of_all a13 _ _ _ c13 _
      v2_nonneg := fun _ => nonneg_of_all a13 _ _ _ c27 _ }
  · exact
    { w1 := fun _ _ => finite_of_all a14 _ _ _ c14 _
      b1 := fun _ => finite_of_all a15 _ _ _ c15 _
      γ1 := fun _ => finite_of_all a16 _ _ _ c16 _
      β1 := fun _ => finite_of_all a17 _ _ _ c17 _
      μ1 := fun _ => finite_of_all a18 _ _ _ c18 _
      v1 := fun _ => finite_of_all a19 _ _ _ c19 _
      v1_nonneg := fun _ => nonneg_of_all a19 _ _ _ c28 _
      w2 := fun _ _ => finite_of_all a20 _ _ _ c20 _
      b2 := fun _ => finite_of_all a21 _ _ _ c21 _
      γ2 := fun _ => finite_of_all a22 _ _ _ c22 _
      β2 := fun _ => finite_of_all a23 _ _ _ c23 _
      μ2 := fun _ => finite_of_all a24 _ _ _ c24 _
      v2 := fun _ => finite_of_all a25 _ _ _ c25 _
      v2_nonneg := fun _ => nonneg_of_all a25 _ _ _ c29 _ }

end Cert.PreFacts

end
-- ==== Proof.KernelStages.lean ====
/-
  The arrays the fused kernel is launched on, as functions of the argument arrays: the two images reshaped to
  [32, 256, 4096], and per branch the convolution weights and biases with the normalisation's scale s and shift t
  folded in (w s, b s + t), laid out as [16, 256], [16, 1], [256, 16], [256, 1].
-/
import proofs.«119149_g2000609679484958_pallasbulk_1271_18_alg».proof.Proof.Gen.KernelIdeal.Frame
import proofs.«119149_g2000609679484958_pallasbulk_1271_18_alg».proof.Proof.Spec
import Idealize.ShloMosaic.Lib.Pipeline.Value

noncomputable section

open scoped BigOperators

namespace Cert.KernelIdeal.KStages

open Idealize.ShloMosaic Idealize.ShloMosaic.TcCoe Idealize.ShloMosaic.ValueIdx Idealize.SL.Sem
open Cert.KernelIdeal Cert.KernelIdeal.Gen Cert.Fdd

/-! ## Broadcasts and the folded parameters read at an entry -/

section Laws
variable {n p : ℕ}

/-- A vector broadcast to a one-column matrix keeps its entries. -/
theorem bcastCol_apply (h : (⟨1, ![n]⟩ : Shape).BroadcastsInDim ⟨2, ![n, 1]⟩ ![0]) (x : FVec Ideal ⟨1, ![n]⟩ .f32) (j : Fin n) :
    broadcastInDim ⟨2, ![n, 1]⟩ ![0] h x (ix2 j 0) = x (ix1 j) :=
  broadcastInDim_apply _ _ _ (ix2 j 0) (ix1 j) fun a => match a with
    | ⟨0, _⟩ => by
      show j.val = if n = 1 then 0 else j.val
      split_ifs with h1
      · subst h1; exact Fin.val_eq_zero j
      · rfl

/-- A one-column matrix broadcast along the rows reads its column entry. -/
theorem bcastRow_apply (h : (⟨2, ![n, 1]⟩ : Shape).BroadcastsInDim ⟨2, ![n, p]⟩ ![0, 1]) (x : FVec Ideal ⟨2, ![n, 1]⟩ .f32)
    (j : Fin n) (k : Fin p) : broadcastInDim ⟨2, ![n, p]⟩ ![0, 1] h x (ix2 j k) = x (ix2 j 0) :=
  broadcastInDim_apply _ _ _ (ix2 j k) (ix2 j 0) fun a => match a with
    | ⟨0, _⟩ => by
      show j.val = if n = 1 then 0 else j.val
      split_ifs with h1
      · subst h1; exact Fin.val_eq_zero j
      · rfl
    | ⟨1, _⟩ => (if_pos rfl).symm

/-- The normalisation's scale vector γ / sqrt(var + ε), read at an entry. -/
theorem scale_apply (hb : (⟨0, ![]⟩ : Shape).BroadcastsInDim ⟨1, ![n]⟩ ![]) (γ v : FVec Ideal ⟨1, ![n]⟩ .f32) (j : Fin n) :
    Host.divf (F := Ideal) γ (Host.sqrt (F := Ideal) (addf v (broadcastInDim ⟨1, ![n]⟩ ![] hb (constant (F := Ideal) ⟨0, ![]⟩ .f32 0x3727C5AC#32)))) (ix1 j)
      = bnScale (γ (ix1 j)) (v (ix1 j)) := rfl

/-- The folded weights w s, read at an entry. -/
theorem foldW_apply (hb : (⟨0, ![]⟩ : Shape).BroadcastsInDim ⟨1, ![n]⟩ ![])
    (h1 : (⟨1, ![n]⟩ : Shape).BroadcastsInDim ⟨2, ![n, 1]⟩ ![0]) (h2 : (⟨2, ![n, 1]⟩ : Shape).BroadcastsInDim ⟨2, ![n, p]⟩ ![0, 1])
    (w : FVec Ideal ⟨2, ![n, p]⟩ .f32) (γ v : FVec Ideal ⟨1, ![n]⟩ .f32) (j : Fin n) (k : Fin p) :
    mulf w (broadcastInDim ⟨2, ![n, p]⟩ ![0, 1] h2 (broadcastInDim ⟨2, ![n, 1]⟩ ![0] h1
      (Host.divf (F := Ideal) γ (Host.sqrt (F := Ideal) (addf v (broadcastInDim ⟨1, ![n]⟩ ![] hb (constant (F := Ideal) ⟨0, ![]⟩ .f32 0x3727C5AC#32))))))) (ix2 j k)
      = w (ix2 j k) * bnScale (γ (ix1 j)) (v (ix1 j)) := by
  rw [mulf_apply, bcastRow_apply, bcastCol_apply, scale_apply]

/-- The folded bias b s + (β - μ s), read at an entry. -/
theorem foldB_apply (hb : (⟨0, ![]⟩ : Shape).BroadcastsInDim ⟨1, ![n]⟩ ![])
    (h1 : (⟨1, ![n]⟩ : Shape).BroadcastsInDim ⟨2, ![n, 1]⟩ ![0]) (b γ β μ v : FVec Ideal ⟨1, ![n]⟩ .f32) (j : Fin n) :
    broadcastInDim ⟨2, ![n, 1]⟩ ![0] h1
      (addf (mulf b (Host.divf (F := Ideal) γ (Host.sqrt (F := Ideal) (addf v (broadcastInDim ⟨1, ![n]⟩ ![] hb (constant (F := Ideal) ⟨0, ![]⟩ .f32 0x3727C5AC#32))))))
        (subf β (mulf μ (Host.divf (F := Ideal) γ (Host.sqrt (F := Ideal) (addf v (broadcastInDim ⟨1, ![n]⟩ ![] hb (constant (F := Ideal) ⟨0, ![]⟩ .f32 0x3727C5AC#32))))))))
      (ix2 j 0)
      = b (ix1 j) * bnScale (γ (ix1 j)) (v (ix1 j)) + bnShift (β (ix1 j)) (μ (ix1 j)) (bnScale (γ (ix1 j)) (v (ix1 j))) := by
  rw [bcastCol_apply, addf_apply, mulf_apply, subf_apply, mulf_apply, scale_apply]
  rfl

end Laws

/-! ## The ten arrays -/

variable (m : (ℓ : Loc nD τ sig) → Buf (Elt Ideal) ℓ) (c : Dev nD)

/-- The low branch's parameters, read off the argument arrays. -/
def BL : Branch := Branch.ofArrays (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
/-- The high branch's parameters. -/
def BH : Branch := Branch.ofArrays (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25))

theorem V_v0 : (V m c main_v0 : S32x256x4096.Idx → EReal) = to3 (m ((c : Thread nD τ).loc main_arg0)) := by
  show StableHlo.after hostOps0 (fun b => m (c, b)) (Proc.devRef .tc main_v0) = _
  after_results_simp
  rfl
theorem V_v1 : (V m c main_v1 : S32x256x4096.Idx → EReal) = to3 (m ((c : Thread nD τ).loc main_arg1)) := by
  show StableHlo.after hostOps0 (fun b => m (c, b)) (Proc.devRef .tc main_v1) = _
  after_results_simp
  rfl
theorem V_v16 (j : Fin 16) (k : Fin 256) : (V m c main_v16 : S16x256.Idx → EReal) (ix2 j k) = (BL m c).w1 j k * (BL m c).s1 j := by
  show StableHlo.after hostOps0 (fun b => m (c, b)) (Proc.devRef .tc main_v16) (ix2 j k) = _
  after_results_simp
  exact foldW_apply _ _ _ _ _ _ j k
theorem V_v19 (j : Fin 16) : (V m c main_v19 : S16x1.Idx → EReal) (ix2 j 0) = (BL m c).b1 j * (BL m c).s1 j + (BL m c).t1 j := by
  show StableHlo.after hostOps0 (fun b => m (c, b)) (Proc.devRef .tc main_v19) (ix2 j 0) = _
  after_results_simp
  exact foldB_apply _ _ _ _ _ _ _ j
theorem V_v22 (d : Fin 256) (j : Fin 16) : (V m c main_v22 : S256x16.Idx → EReal) (ix2 d j) = (BL m c).w2 d j * (BL m c).s2 d := by
  show StableHlo.after hostOps0 (fun b => m (c, b)) (Proc.devRef .tc main_v22) (ix2 d j) = _
  after_results_simp
  exact foldW_apply _ _ _ _ _ _ d j
theorem V_v25 (d : Fin 256) : (V m c main_v25 : S256x1.Idx → EReal) (ix2 d 0) = (BL m c).b2 d * (BL m c).s2 d + (BL m c).t2 d := by
  show StableHlo.after hostOps0 (fun b => m (c, b)) (Proc.devRef .tc main_v25) (ix2 d 0) = _
  after_results_simp
  exact foldB_apply _ _ _ _ _ _ _ d
theorem V_v40 (j : Fin 16) (k : Fin 256) : (V m c main_v40 : S16x256.Idx → EReal) (ix2 j k) = (BH m c).w1 j k * (BH m c).s1 j := by
  show StableHlo.after hostOps0 (fun b => m (c, b)) (Proc.devRef .tc main_v40) (ix2 j k) = _
  after_results_simp
  exact foldW_apply _ _ _ _ _ _ j k
theorem V_v43 (j : Fin 16) : (V m c main_v43 : S16x1.Idx → EReal) (ix2 j 0) = (BH m c).b1 j * (BH m c).s1 j + (BH m c).t1 j := by
  show StableHlo.after hostOps0 (fun b => m (c, b)) (Proc.devRef .tc main_v43) (ix2 j 0) = _
  after_results_simp
  exact foldB_apply _ _ _ _ _ _ _ j
theorem V_v46 (d : Fin 256) (j : Fin 16) : (V m c main_v46 : S256x16.Idx → EReal) (ix2 d j) = (BH m c).w2 d j * (BH m c).s2 d := by
  show StableHlo.after hostOps0 (fun b => m (c, b)) (Proc.devRef .tc main_v46) (ix2 d j) = _
  after_results_simp
  exact foldW_apply _ _ _ _ _ _ d j
theorem V_v49 (d : Fin 256) : (V m c main_v49 : S256x1.Idx → EReal) (ix2 d 0) = (BH m c).b2 d * (BH m c).s2 d + (BH m c).t2 d := by
  show StableHlo.after hostOps0 (fun b => m (c, b)) (Proc.devRef .tc main_v49) (ix2 d 0) = _
  after_results_simp
  exact foldB_apply _ _ _ _ _ _ _ d

end Cert.KernelIdeal.KStages

end
-- ==== Proof.KernelBody.lean ====
/-
  What the fused kernel's body leaves in its two output blocks, entry by entry, from its input blocks: the channel
  means of the image block, the two affine layers with a ReLU between them, and the image gated by one plus the
  softmax of the resulting vector over the channels (the low band also adds the vector).
-/
import Idealize.ShloMosaic.Lib.ValueLayout
import proofs.«119149_g2000609679484958_pallasbulk_1271_18_alg».proof.Proof.Gen.KernelIdeal.Frame
import proofs.«119149_g2000609679484958_pallasbulk_1271_18_alg».proof.Proof.Spec

noncomputable section

open scoped BigOperators

namespace Cert.KernelIdeal.KBody

open Idealize.ShloMosaic Idealize.ShloMosaic.TcCoe Idealize.ShloMosaic.ValueIdx Idealize.SL.Sem
open Cert.KernelIdeal Cert.KernelIdeal.Gen Cert.Fdd

/-- The mean of channel k of a [1, 256, 4096] image block. -/
def blkGap (x : Vec Ideal S1x256x4096 .f32) (k : Fin 256) : EReal := (∑ p : Fin 4096, x (ix3 0 k p)) * invW

/-- The branch vector the body computes from an image block and the four folded parameter blocks. -/
def blkVec (x : Vec Ideal S1x256x4096 .f32) (w1 : Vec Ideal S16x256 .f32) (b1 : Vec Ideal S16x1 .f32)
    (w2 : Vec Ideal S256x16 .f32) (b2 : Vec Ideal S256x1 .f32) : Fin 256 → EReal :=
  twoLayer (fun j k => w1 (ix2 j k)) (fun j => b1 (ix2 j 0)) (fun d j => w2 (ix2 d j)) (fun d => b2 (ix2 d 0)) (blkGap x)

section Layout
variable {α : Type}

/-- A vector [a] cast to a column [a, 1] reads, at (i, u), the vector at i. -/
private theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast along the lanes to [a, b] reads, at (i, j), the column at (i, 0). -/
private theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Layout

section Reduce

/-- The lane sum of a [a, b] array at row i is the sum over the b lanes. -/
private theorem laneSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (i : Fin a) :
    multiReduction .add [1] ⟨1, ![a]⟩ src 0x00000000#32 h hφ hacc (ix1 i) = ∑ p : Fin b, src (ix2 i p) := by
  refine (Ideal.multiReduction_add_single src _ h hφ hacc (ix1 i)).trans ?_
  show ∑ p : Fin b, src (h.lift (ix1 i) p) = _
  refine Finset.sum_congr rfl fun p _ => congrArg src (funext fun ax => Fin.ext ?_)
  match ax with
  | ⟨0, _⟩ => rfl
  | ⟨1, _⟩ => rfl

/-- The sum down a column [a, 1] is the sum over the a rows. -/
private theorem colSum_apply {a : ℕ} (src : FVec Ideal ⟨2, ![a, 1]⟩ .f32) (h : (⟨2, ![a, 1]⟩ : Shape).Reduces [0] ⟨1, ![1]⟩)
    (hφ : FKind.Formats .f32) (hacc : (0x00000000#32 : BitVec 32) = FKind.add.neutral .f32 hφ) (u : Fin 1) :
    multiReduction .add [0] ⟨1, ![1]⟩ src 0x00000000#32 h hφ hacc (ix1 u) = ∑ c : Fin a, src (ix2 c (0 : Fin 1)) := by
  refine (Ideal.multiReduction_add_single src _ h hφ hacc (ix1 u)).trans ?_
  show ∑ c : Fin a, src (h.lift (ix1 u) c) = _
  refine Finset.sum_congr rfl fun c _ => congrArg src (funext fun ax => Fin.ext ?_)
  match ax with
  | ⟨0, _⟩ => rfl
  | ⟨1, _⟩ => show u.val = 0; omega

/-- The maximum down a column [a, 1], started from the word w, is the fold of max over the a rows. -/
private theorem colMax_apply {a : ℕ} (src : FVec Ideal ⟨2, ![a, 1]⟩ .f32) (w : BitVec 32) (h : (⟨2, ![a, 1]⟩ : Shape).Reduces [0] ⟨1, ![1]⟩)
    (hφ : FKind.Formats .f32) (hacc : w = FKind.maximumf.neutral .f32 hφ) (u : Fin 1) :
    multiReduction .maximumf [0] ⟨1, ![1]⟩ src w h hφ hacc (ix1 u)
      = (Finset.univ : Finset (Fin a)).fold max (Ideal.ofBits .f32 w) (fun c => src (ix2 c (0 : Fin 1))) := by
  refine (Ideal.multiReduction_maximumf_single src w h hφ hacc (ix1 u)).trans ?_
  show (Finset.univ : Finset (Fin a)).fold max (Ideal.ofBits .f32 w) (fun c => src (h.lift (ix1 u) c)) = _
  refine congrArg (fun f => (Finset.univ : Finset (Fin a)).fold max (Ideal.ofBits .f32 w) f) (funext fun c => congrArg src (funext fun ax => Fin.ext ?_))
  match ax with
  | ⟨0, _⟩ => rfl
  | ⟨1, _⟩ => show u.val = 0; omega

end Reduce

section Matmul

/-- An [m, k] by [k, n] product into the zero accumulator reads, at (i, j), the sum over the k contracted coordinates of the
    products of the entries. -/
private theorem matmul_zero_apply {m k n : ℕ} (w : DotDims.WF ⟨2, ![m, k]⟩ ⟨2, ![k, n]⟩ ⟨2, ![m, n]⟩ [1] [0] [0] [1] [] [])
    (prec : Option ContractPrecision) (A : FVec Ideal ⟨2, ![m, k]⟩ .f32) (B : FVec Ideal ⟨2, ![k, n]⟩ .f32) (i : Fin m) (j : Fin n) :
    matmul (F := Ideal) (⟨[1], [0], [0], [1], [], [], w⟩ : DotDims _ _ _) prec A B (constant ⟨2, ![m, n]⟩ .f32 0x00000000#32) (ix2 i j)
      = ∑ c : Fin k, A (ix2 i c) * B (ix2 c j) := by
  show FloatOps.matmul _ prec A B _ (ix2 i j) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 i j)
      ((contrEquiv1 _ k rfl rfl).symm c) = ix2 i c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 i j)
      ((contrEquiv1 _ k rfl rfl).symm c) = ix2 c j := by
    funext ax; apply Fin.ext
    match ax with
    | ⟨0, _⟩ => simp [DotDims.rhsIdx]; exact c2
    | ⟨1, _⟩ => simp [DotDims.rhsIdx]; rfl
  rw [l2, r2]

end Matmul

section Payload

/-- The image block with its unit axis dropped. -/
theorem pay2_apply (v0 : Vec Ideal S1x256x4096 .f32) (d : Fin 256) (p : Fin 4096) :
    k0_pay2 (F := Ideal) v0 (ix2 d p) = v0 (ix3 0 d p) :=
  shapeCast_1ab_ab_apply v0 _ d p

theorem pay3_apply (v2 : Vec Ideal S1x256x4096 .f32) (d : Fin 256) (p : Fin 4096) :
    k0_pay3 (F := Ideal) v2 (ix2 d p) = v2 (ix3 0 d p) :=
  shapeCast_1ab_ab_apply v2 _ d p

/-- The channel means as a column: the lane sum, cast to a column, times 1/4096. -/
theorem mean_apply (x : FVec Ideal S256x4096 .f32) (k : Fin 256) (u : Fin 1) :
    mulf (shapeCast S256x1 (multiReduction .add [1] S256 x 0x00000000#32 reduces_S256x4096_S256 (.inl rfl) rfl) shapeCasts_S256_S256x1)
        (broadcast S256x1 (Scalar.ofBits (F := Ideal) .f32 0x39800000#32)) (ix2 k u)
      = (∑ p : Fin 4096, x (ix2 k p)) * invW := by
  show shapeCast S256x1 _ shapeCasts_S256_S256x1 (ix2 k u) * _ = _
  refine congrArg₂ (· * ·) ?_ rfl
  refine (shapeCast_a_a1_apply _ _ k u).trans ?_
  exact laneSum_apply x _ _ _ k

/-- The first affine layer on a column: the [16, 256] weights times the column into the zero accumulator, plus the bias. -/
theorem layer1_apply (w : Vec Ideal S16x256 .f32) (g : FVec Ideal S256x1 .f32) (b : Vec Ideal S16x1 .f32) (j : Fin 16) (u : Fin 1) :
    addf (matmul (F := Ideal) dot_S16x256_S256x1_S16x1_1_0_0_1_n_n none (shapeCast S16x256 w shapeCasts_S16x256_S16x256 : FVec Ideal S16x256 .f32) g
          (constant S16x1 .f32 0x00000000#32)) (shapeCast S16x1 b shapeCasts_S16x1_S16x1 : FVec Ideal S16x1 .f32) (ix2 j u)
      = (∑ k : Fin 256, w (ix2 j k) * g (ix2 k u)) + b (ix2 j u) := by
  rw [shapeCast_self, shapeCast_self]
  show matmul (F := Ideal) _ none w g _ (ix2 j u) + b (ix2 j u) = _
  refine congrArg₂ (· + ·) ?_ rfl
  exact matmul_zero_apply _ none w g j u

/-- The second affine layer on a column: the [256, 16] weights times the column into the zero accumulator, plus the bias. -/
theorem layer2_apply (w : Vec Ideal S256x16 .f32) (h : FVec Ideal S16x1 .f32) (b : Vec Ideal S256x1 .f32) (d : Fin 256) (u : Fin 1) :
    addf (matmul (F := Ideal) dot_S256x16_S16x1_S256x1_1_0_0_1_n_n none (shapeCast S256x16 w shapeCasts_S256x16_S256x16 : FVec Ideal S256x16 .f32) h
          (constant S256x1 .f32 0x00000000#32)) (shapeCast S256x1 b shapeCasts_S256x1_S256x1 : FVec Ideal S256x1 .f32) (ix2 d u)
      = (∑ j : Fin 16, w (ix2 d j) * h (ix2 j u)) + b (ix2 d u) := by
  rw [shapeCast_self, shapeCast_self]
  show matmul (F := Ideal) _ none w h _ (ix2 d u) + b (ix2 d u) = _
  refine congrArg₂ (· + ·) ?_ rfl
  exact matmul_zero_apply _ none w h d u

/-- The larger of a column and the zero splat. -/
theorem relu_apply (h : FVec Ideal S16x1 .f32) (z : Ideal .f32) (hz : z = Ideal.ofBits .f32 0x00000000#32) (j : Fin 16) (u : Fin 1) :
    maximumf h (broadcast S16x1 z) (ix2 j u) = max (h (ix2 j u)) 0 := by
  show max (h (ix2 j u)) z = _
  rw [hz, Ideal.ofBits_zero_f32]

/-- The branch vector of the low band, as a column. -/
theorem pay4_apply (v0 : Vec Ideal S1x256x4096 .f32) (v12 : Vec Ideal S16x256 .f32) (v15 : Vec Ideal S16x1 .f32)
    (v20 : Vec Ideal S256x16 .f32) (v23 : Vec Ideal S256x1 .f32) (d : Fin 256) :
    k0_pay4 (F := Ideal) v0 v12 v15 v20 v23 (ix2 d 0) = blkVec v0 v12 v15 v20 v23 d := by
  unfold k0_pay4 blkVec twoLayer
  refine (layer2_apply v20 _ v23 d 0).trans ?_
  refine congrArg₂ (· + ·) (Finset.sum_congr rfl fun j _ => congrArg₂ (· * ·) rfl ?_) rfl
  refine (relu_apply _ _ rfl j 0).trans ?_
  refine congrArg₂ max ?_ rfl
  refine (layer1_apply v12 _ v15 j 0).trans ?_
  refine congrArg₂ (· + ·) (Finset.sum_congr rfl fun k _ => congrArg₂ (· * ·) rfl ?_) rfl
  refine (mean_apply (k0_pay2 v0) k 0).trans ?_
  unfold blkGap
  refine congrArg₂ (· * ·) (Finset.sum_congr rfl fun p _ => pay2_apply v0 k p) rfl

/-- exp(v - max v) on a column, as the body computes it: the column's maximum from -∞, broadcast back, subtracted, exponentiated. -/
abbrev expCol (v : FVec Ideal S256x1 .f32) : FVec Ideal S256x1 .f32 :=
  exp (subf v (broadcastTo S256x1 (shapeCast S1x1 (multiReduction .maximumf [0] S1 v 0xFF800000#32 reduces_S256x1_S1 (.inl rfl) rfl : FVec Ideal S1 .f32)
    shapeCasts_S1_S1x1 : FVec Ideal S1x1 .f32) broadcasts_S1x1_S256x1))

/-- One plus the softmax of a column, as the body computes it. -/
abbrev gateCol (v : FVec Ideal S256x1 .f32) : FVec Ideal S256x1 .f32 :=
  addf (divf (expCol v) (broadcastTo S256x1 (shapeCast S1x1 (multiReduction .add [0] S1 (expCol v) 0x00000000#32 reduces_S256x1_S1 (.inl rfl) rfl : FVec Ideal S1 .f32)
    shapeCasts_S1_S1x1 : FVec Ideal S1x1 .f32) broadcasts_S1x1_S256x1)) (broadcast S256x1 (Scalar.ofBits (F := Ideal) .f32 0x3F800000#32))

/-- The column's maximum, broadcast back over the column, is the fold of max from -∞ over the channels. -/
theorem colMaxB_apply (v : FVec Ideal S256x1 .f32) (c : Fin 256) (u : Fin 1) :
    broadcastTo S256x1 (shapeCast S1x1 (multiReduction .maximumf [0] S1 v 0xFF800000#32 reduces_S256x1_S1 (.inl rfl) rfl : FVec Ideal S1 .f32)
      shapeCasts_S1_S1x1 : FVec Ideal S1x1 .f32) broadcasts_S1x1_S256x1 (ix2 c u) = rowMax (fun c' => v (ix2 c' 0)) := by
  refine (broadcastTo_1b_ab_apply _ _ c u).trans ?_
  refine (shapeCast_a_1a_apply _ _ 0 u).trans ?_
  exact colMax_apply v _ _ _ _ u

theorem expCol_apply (v : FVec Ideal S256x1 .f32) (c : Fin 256) :
    expCol v (ix2 c 0) = Ideal.exp (v (ix2 c 0) - rowMax (fun c' => v (ix2 c' 0))) :=
  congrArg (fun m => Ideal.exp (v (ix2 c 0) - m)) (colMaxB_apply v c 0)

/-- The column's sum, broadcast back over the column. -/
theorem colSumB_apply (e : FVec Ideal S256x1 .f32) (c : Fin 256) (u : Fin 1) :
    broadcastTo S256x1 (shapeCast S1x1 (multiReduction .add [0] S1 e 0x00000000#32 reduces_S256x1_S1 (.inl rfl) rfl : FVec Ideal S1 .f32)
      shapeCasts_S1_S1x1 : FVec Ideal S1x1 .f32) broadcasts_S1x1_S256x1 (ix2 c u) = ∑ c' : Fin 256, e (ix2 c' 0) := by
  refine (broadcastTo_1b_ab_apply _ _ c u).trans ?_
  refine (shapeCast_a_1a_apply _ _ 0 u).trans ?_
  exact colSum_apply e _ _ _ u

theorem gateCol_apply (v : FVec Ideal S256x1 .f32) (d : Fin 256) :
    gateCol v (ix2 d 0) = gate (fun c => v (ix2 c 0)) d := by
  unfold gate
  show Ideal.div (expCol v (ix2 d 0)) _ + Ideal.ofBits .f32 0x3F800000#32 = _
  refine congrArg₂ (· + ·) (congrArg₂ Ideal.div (expCol_apply v d) ?_) rfl
  refine (colSumB_apply (expCol v) d 0).trans ?_
  exact Finset.sum_congr rfl fun c _ => expCol_apply v c

/-- The low band's stored block: the image times the gate, plus the branch vector, along every lane. -/
theorem pay6_apply (v1 : FVec Ideal S256x4096 .f32) (v25 : FVec Ideal S256x1 .f32) (d : Fin 256) (p : Fin 4096) :
    k0_pay6 (F := Ideal) v1 v25 (ix3 0 d p) = v1 (ix2 d p) * gate (fun c => v25 (ix2 c 0)) d + v25 (ix2 d 0) := by
  unfold k0_pay6
  refine (shapeCast_ab_1ab_apply _ _ 0 d p).trans ?_
  show v1 (ix2 d p) * broadcastTo S256x4096 (gateCol v25) broadcasts_S256x1_S256x4096 (ix2 d p)
      + broadcastTo S256x4096 v25 broadcasts_S256x1_S256x4096 (ix2 d p) = _
  refine congrArg₂ (· + ·) (congrArg₂ (· * ·) rfl ?_) ?_
  · exact (broadcastTo_a1_ab_apply _ _ d p).trans (gateCol_apply v25 d)
  · exact broadcastTo_a1_ab_apply _ _ d p

/-- The high band's hidden layer before the ReLU, as a column. -/
theorem pay5_apply (v2 : Vec Ideal S1x256x4096 .f32) (v26 : Vec Ideal S16x256 .f32) (v29 : Vec Ideal S16x1 .f32) (j : Fin 16) :
    k0_pay5 (F := Ideal) v2 v26 v29 (ix2 j 0) = (∑ k : Fin 256, v26 (ix2 j k) * blkGap v2 k) + v29 (ix2 j 0) := by
  unfold k0_pay5
  refine (layer1_apply v26 _ v29 j 0).trans ?_
  refine congrArg₂ (· + ·) (Finset.sum_congr rfl fun k _ => congrArg₂ (· * ·) rfl ?_) rfl
  refine (mean_apply (k0_pay3 v2) k 0).trans ?_
  unfold blkGap
  exact congrArg₂ (· * ·) (Finset.sum_congr rfl fun p _ => pay3_apply v2 k p) rfl

/-- The high band's stored values before the unit axis is put back: the image times the gate of the second layer's column. -/
theorem pay7_apply (v3 : FVec Ideal S256x4096 .f32) (v31 : FVec Ideal S16x1 .f32) (z : Ideal .f32)
    (hz : z = Ideal.ofBits .f32 0x00000000#32) (v34 : Vec Ideal S256x16 .f32) (v37 : Vec Ideal S256x1 .f32) (d : Fin 256) (p : Fin 4096) :
    k0_pay7 (F := Ideal) v3 v31 z v34 v37 (ix2 d p)
      = v3 (ix2 d p) * gate (fun c => (∑ j : Fin 16, v34 (ix2 c j) * max (v31 (ix2 j 0)) 0) + v37 (ix2 c 0)) d := by
  unfold k0_pay7
  show v3 (ix2 d p) * broadcastTo S256x4096 (gateCol _) broadcasts_S256x1_S256x4096 (ix2 d p) = _
  refine congrArg₂ (· * ·) rfl ?_
  refine (broadcastTo_a1_ab_apply _ _ d p).trans ?_
  refine (gateCol_apply _ d).trans ?_
  refine congrArg (fun v => gate v d) (funext fun c => ?_)
  refine (layer2_apply v34 _ v37 c 0).trans ?_
  exact congrArg₂ (· + ·) (Finset.sum_congr rfl fun j _ => congrArg₂ (· * ·) rfl (relu_apply v31 z hz j 0)) rfl

/-- The high band's stored block: the unit axis put back. -/
theorem pay1_apply (v72 : FVec Ideal S256x4096 .bf16) (d : Fin 256) (p : Fin 4096) :
    k0_pay1 (F := Ideal) v72 (ix3 0 d p) = v72 (ix2 d p) :=
  shapeCast_ab_1ab_apply v72 _ 0 d p

end Payload

section Frame

/-- The zero offsets of a whole rectangle, however they are spelt. -/
private theorem hz3 : (![0, 0, 0] : Fin 3 → Nat) = fun _ => 0 := funext fun a => by fin_cases a <;> rfl
private theorem hz2 : (![0, 0] : Fin 2 → Nat) = fun _ => 0 := funext fun a => by fin_cases a <;> rfl

end Frame

theorem out10_apply (x0 x1 : Vec Ideal S1x256x4096 .f32) (x2 : Vec Ideal S16x256 .f32) (x3 : Vec Ideal S16x1 .f32)
    (x4 : Vec Ideal S256x16 .f32) (x5 : Vec Ideal S256x1 .f32) (x6 : Vec Ideal S16x256 .f32) (x7 : Vec Ideal S16x1 .f32)
    (x8 : Vec Ideal S256x16 .f32) (x9 : Vec Ideal S256x1 .f32) (d : Fin 256) (p : Fin 4096) :
    out0_10 x0 x1 x2 x3 x4 x5 x6 x7 x8 x9 (ix3 0 d p)
      = x0 (ix3 0 d p) * gate (blkVec x0 x2 x3 x4 x5) d + blkVec x0 x2 x3 x4 x5 d := by
  unfold out0_10
  rw [View.canon_unit_zero hz3]
  simp only [View.ld_unit_zero (S := S1x256x4096) hz3, View.ld_unit_zero (S := S16x256) hz2, View.ld_unit_zero (S := S16x1) hz2,
    View.ld_unit_zero (S := S256x16) hz2, View.ld_unit_zero (S := S256x1) hz2]
  refine (pay6_apply _ _ d p).trans ?_
  have hv : (fun c => k0_pay4 (F := Ideal) x0 x2 x3 x4 x5 (ix2 c 0)) = blkVec x0 x2 x3 x4 x5 :=
    funext fun c => pay4_apply x0 x2 x3 x4 x5 c
  rw [hv, pay2_apply, pay4_apply]

theorem out11_apply (x0 x1 : Vec Ideal S1x256x4096 .f32) (x2 : Vec Ideal S16x256 .f32) (x3 : Vec Ideal S16x1 .f32)
    (x4 : Vec Ideal S256x16 .f32) (x5 : Vec Ideal S256x1 .f32) (x6 : Vec Ideal S16x256 .f32) (x7 : Vec Ideal S16x1 .f32)
    (x8 : Vec Ideal S256x16 .f32) (x9 : Vec Ideal S256x1 .f32) (d : Fin 256) (p : Fin 4096) :
    out0_11 x0 x1 x2 x3 x4 x5 x6 x7 x8 x9 (ix3 0 d p)
      = x1 (ix3 0 d p) * gate (blkVec x1 x6 x7 x8 x9) d := by
  unfold out0_11
  rw [View.canon_unit_zero hz3]
  simp only [View.ld_unit_zero (S := S1x256x4096) hz3, View.ld_unit_zero (S := S16x256) hz2, View.ld_unit_zero (S := S16x1) hz2,
    View.ld_unit_zero (S := S256x16) hz2, View.ld_unit_zero (S := S256x1) hz2]
  refine (pay1_apply _ d p).trans ?_
  refine (pay7_apply _ _ _ rfl x8 x9 d p).trans ?_
  have hv : (fun c => (∑ j : Fin 16, x8 (ix2 c j) * max (k0_pay5 (F := Ideal) x1 x6 x7 (ix2 j 0)) 0) + x9 (ix2 c 0))
      = blkVec x1 x6 x7 x8 x9 :=
    funext fun c => by
      unfold blkVec twoLayer
      exact congrArg₂ (· + ·) (Finset.sum_congr rfl fun j _ => congrArg₂ (· * ·) rfl
        (congrArg₂ max (pay5_apply x1 x6 x7 j) rfl)) rfl
  rw [hv, pay3_apply]

end Cert.KernelIdeal.KBody

end
-- ==== Proof.KernelTail.lean ====
/-
  The host operations after the fused kernel's launch: each bf16 result array is reshaped from [32, 256, 4096] to
  [32, 256, 64, 64] and widened to f32. At the extended reals a change of float format is the identity, so each
  program result is the reshape of the array the launch leaves.
-/
import proofs.«119149_g2000609679484958_pallasbulk_1271_18_alg».proof.Proof.Gen.KernelIdeal.Frame
import proofs.«119149_g2000609679484958_pallasbulk_1271_18_alg».proof.Proof.Spec
import Idealize.ShloMosaic.Lib.Pipeline.Value
import Idealize.ShloMosaic.Lib.Tactic

noncomputable section

namespace Cert.KernelIdeal.KTail

open Idealize.ShloMosaic Idealize.ShloMosaic.TcCoe Idealize.ShloMosaic.ValueIdx Idealize.SL.Sem
open Cert.KernelIdeal Cert.KernelIdeal.Gen Cert.Fdd

variable (m : (ℓ : Loc nD τ sig) → Buf (Elt Ideal) ℓ)

theorem tail52 (c : Dev nD) (G : S3.Idx → EReal) (hG : ((dats m 0 c).arrAt 10 cfg0.N : S3.Idx → EReal) = G) :
    (Pipeline.afterTail₀ cfgs (dats m) 0 (V0 m) [hostOps1] c main_v52 : S4.Idx → EReal) = to4 G := by
  unfold Pipeline.afterTail₀
  show StableHlo.after hostOps1 _ (Proc.devRef .tc main_v52) = _
  after_results
  subst hG
  refine Eq.trans ?_ (congrArg to4 (Pipeline.withArrays_arr spec0 launch0.win.arr_inj c (V0 m c) (fun w => (dats m 0 c).arrAt w cfg0.N) 10))
  rfl

theorem tail54 (c : Dev nD) (G : S3.Idx → EReal) (hG : ((dats m 0 c).arrAt 11 cfg0.N : S3.Idx → EReal) = G) :
    (Pipeline.afterTail₀ cfgs (dats m) 0 (V0 m) [hostOps1] c main_v54 : S4.Idx → EReal) = to4 G := by
  unfold Pipeline.afterTail₀
  show StableHlo.after hostOps1 _ (Proc.devRef .tc main_v54) = _
  after_results
  subst hG
  refine Eq.trans ?_ (congrArg to4 (Pipeline.withArrays_arr spec0 launch0.win.arr_inj c (V0 m c) (fun w => (dats m 0 c).arrAt w cfg0.N) 11))
  rfl

end Cert.KernelIdeal.KTail

end
-- ==== Proof.KernelBlocks.lean ====
/-
  How the fused kernel's windows sit on their arrays. The grid has one point per image. At point t the two image
  windows and the two result windows are block (t, 0, 0) of a [32, 256, 4096] array, so entry (0, d, p) of the block is
  entry (t, d, p) of the array; the eight parameter windows are block (0, 0) of an array of the block's own size, so
  the block is the whole array. Every entry (n, d, p) of a result array lies in the block of point n.
-/
import proofs.«119149_g2000609679484958_pallasbulk_1271_18_alg».proof.Proof.Gen.KernelIdeal.Frame
import proofs.«119149_g2000609679484958_pallasbulk_1271_18_alg».proof.Proof.Spec
import Idealize.ShloMosaic.Lib.Pipeline.Value
import Idealize.ShloMosaic.Lib.Tactic

noncomputable section

open scoped BigOperators

namespace Cert.KernelIdeal.KBlocks

open Idealize.ShloMosaic Idealize.ShloMosaic.TcCoe Idealize.ShloMosaic.ValueIdx Idealize.SL.Sem
open Idealize.ShloMosaic.Pipeline (Dat)
open Cert.KernelIdeal Cert.KernelIdeal.Gen Cert.Fdd

variable (m : (ℓ : Loc nD τ sig) → Buf (Elt Ideal) ℓ) (c : Dev nD)

/-- The image a grid point works on. -/
def img (t : Fin cfg0.N) : Fin 32 := Fin.cast N_0 t

theorem img_val (t : Fin cfg0.N) : (img t).val = t.val := rfl

/-- The grid point that works on image n. -/
def pt (n : Fin 32) : Fin cfg0.N := Fin.cast N_0.symm n

theorem pt_val (n : Fin 32) : (pt n).val = n.val := rfl

theorem lt32 (t : Fin cfg0.N) : t.val < 32 := by
  have h := t.isLt
  have hN : cfg0.N = 32 := N_0
  omega

/-- Window 0's block at point t is block (t, 0, 0): its index map returns the grid coordinate and two zeros. -/
theorem idx0 (t : Fin cfg0.N) :
    win0_0.index t (0 : Fin 3) = t.val ∧ win0_0.index t (1 : Fin 3) = 0 ∧ win0_0.index t (2 : Fin 3) = 0 := by
  have ht : t.val < 32 := lt32 t
  refine ⟨?_, rfl, rfl⟩
  show (BitVec.ofNat 32 (t.val / 1 % 32)).toNat = t.val
  rw [BitVec.toNat_ofNat, Nat.div_one, Nat.mod_eq_of_lt ht, Nat.mod_eq_of_lt (by omega)]

/-- Window 1's block at point t is block (t, 0, 0): its index map returns the grid coordinate and two zeros. -/
theorem idx1 (t : Fin cfg0.N) :
    win0_1.index t (0 : Fin 3) = t.val ∧ win0_1.index t (1 : Fin 3) = 0 ∧ win0_1.index t (2 : Fin 3) = 0 := by
  have ht : t.val < 32 := lt32 t
  refine ⟨?_, rfl, rfl⟩
  show (BitVec.ofNat 32 (t.val / 1 % 32)).toNat = t.val
  rw [BitVec.toNat_ofNat, Nat.div_one, Nat.mod_eq_of_lt ht, Nat.mod_eq_of_lt (by omega)]

/-- Window 10's block at point t is block (t, 0, 0): its index map returns the grid coordinate and two zeros. -/
theorem idx10 (t : Fin cfg0.N) :
    win0_10.index t (0 : Fin 3) = t.val ∧ win0_10.index t (1 : Fin 3) = 0 ∧ win0_10.index t (2 : Fin 3) = 0 := by
  have ht : t.val < 32 := lt32 t
  refine ⟨?_, rfl, rfl⟩
  show (BitVec.ofNat 32 (t.val / 1 % 32)).toNat = t.val
  rw [BitVec.toNat_ofNat, Nat.div_one, Nat.mod_eq_of_lt ht, Nat.mod_eq_of_lt (by omega)]

/-- Window 11's block at point t is block (t, 0, 0): its index map returns the grid coordinate and two zeros. -/
theorem idx11 (t : Fin cfg0.N) :
    win0_11.index t (0 : Fin 3) = t.val ∧ win0_11.index t (1 : Fin 3) = 0 ∧ win0_11.index t (2 : Fin 3) = 0 := by
  have ht : t.val < 32 := lt32 t
  refine ⟨?_, rfl, rfl⟩
  show (BitVec.ofNat 32 (t.val / 1 % 32)).toNat = t.val
  rw [BitVec.toNat_ofNat, Nat.div_one, Nat.mod_eq_of_lt ht, Nat.mod_eq_of_lt (by omega)]

theorem idx2 (t : Fin cfg0.N) : win0_2.index t (0 : Fin 2) = 0 ∧ win0_2.index t (1 : Fin 2) = 0 := ⟨rfl, rfl⟩

theorem idx3 (t : Fin cfg0.N) : win0_3.index t (0 : Fin 2) = 0 ∧ win0_3.index t (1 : Fin 2) = 0 := ⟨rfl, rfl⟩

theorem idx4 (t : Fin cfg0.N) : win0_4.index t (0 : Fin 2) = 0 ∧ win0_4.index t (1 : Fin 2) = 0 := ⟨rfl, rfl⟩

theorem idx5 (t : Fin cfg0.N) : win0_5.index t (0 : Fin 2) = 0 ∧ win0_5.index t (1 : Fin 2) = 0 := ⟨rfl, rfl⟩

theorem idx6 (t : Fin cfg0.N) : win0_6.index t (0 : Fin 2) = 0 ∧ win0_6.index t (1 : Fin 2) = 0 := ⟨rfl, rfl⟩

theorem idx7 (t : Fin cfg0.N) : win0_7.index t (0 : Fin 2) = 0 ∧ win0_7.index t (1 : Fin 2) = 0 := ⟨rfl, rfl⟩

theorem idx8 (t : Fin cfg0.N) : win0_8.index t (0 : Fin 2) = 0 ∧ win0_8.index t (1 : Fin 2) = 0 := ⟨rfl, rfl⟩

theorem idx9 (t : Fin cfg0.N) : win0_9.index t (0 : Fin 2) = 0 ∧ win0_9.index t (1 : Fin 2) = 0 := ⟨rfl, rfl⟩

/-- Two [1, 256, 4096] blocks with the same entries are equal. -/
theorem ext_blk {f g : S1x256x4096.Idx → EReal} (h : ∀ d p, f (ix3 0 d p) = g (ix3 0 d p)) : f = g := by
  funext i
  obtain ⟨a, d, p, rfl⟩ : ∃ (a : Fin 1) (d : Fin 256) (p : Fin 4096), i = ix3 a d p := ⟨i 0, i 1, i 2, eq_ix3 i⟩
  obtain rfl : a = 0 := Fin.eq_zero a
  exact h d p

/-- Entry (0, d, p) of point t's block of window 0 is entry (t, d, p) of the array the window is over. -/
theorem iblk0_apply (t : Fin cfg0.N) (d : Fin 256) (p : Fin 4096) :
    (iblk m c 0 t : Vec Ideal S1x256x4096 .f32) (ix3 0 d p) = (V m c main_v0 : S32x256x4096.Idx → EReal) (ix3 (img t) d p) := by
  obtain ⟨h0, h1, h2⟩ := idx0 t
  unfold iblk
  rw [View.read_apply]
  show V m c main_v0 _ = V m c main_v0 _
  refine congrArg (V m c main_v0 : S32x256x4096.Idx → EReal) ?_
  funext a
  apply Fin.ext
  match a with
  | ⟨0, _⟩ => show win0_0.index t (0 : Fin 3) * 1 + 1 * (0 : Fin 1).val = t.val; rw [h0]; simp
  | ⟨1, _⟩ => show win0_0.index t (1 : Fin 3) * 256 + 1 * d.val = d.val; rw [h1]; omega
  | ⟨2, _⟩ => show win0_0.index t (2 : Fin 3) * 4096 + 1 * p.val = p.val; rw [h2]; omega

/-- Entry (0, d, p) of point t's block of window 1 is entry (t, d, p) of the array the window is over. -/
theorem iblk1_apply (t : Fin cfg0.N) (d : Fin 256) (p : Fin 4096) :
    (iblk m c 1 t : Vec Ideal S1x256x4096 .f32) (ix3 0 d p) = (V m c main_v1 : S32x256x4096.Idx → EReal) (ix3 (img t) d p) := by
  obtain ⟨h0, h1, h2⟩ := idx1 t
  unfold iblk
  rw [View.read_apply]
  show V m c main_v1 _ = V m c main_v1 _
  refine congrArg (V m c main_v1 : S32x256x4096.Idx → EReal) ?_
  funext a
  apply Fin.ext
  match a with
  | ⟨0, _⟩ => show win0_1.index t (0 : Fin 3) * 1 + 1 * (0 : Fin 1).val = t.val; rw [h0]; simp
  | ⟨1, _⟩ => show win0_1.index t (1 : Fin 3) * 256 + 1 * d.val = d.val; rw [h1]; omega
  | ⟨2, _⟩ => show win0_1.index t (2 : Fin 3) * 4096 + 1 * p.val = p.val; rw [h2]; omega

/-- Window 2's block at any point is the whole array it is over. -/
theorem iblk2_eq (t : Fin cfg0.N) : (iblk m c 2 t : Vec Ideal S16x256 .f32) = (V m c main_v16 : S16x256.Idx → EReal) := by
  obtain ⟨h0, h1⟩ := idx2 t
  funext j
  unfold iblk
  rw [View.read_apply]
  show V m c main_v16 _ = V m c main_v16 _
  refine congrArg (V m c main_v16 : S16x256.Idx → EReal) ?_
  funext a
  apply Fin.ext
  match a with
  | ⟨0, _⟩ => show win0_2.index t (0 : Fin 2) * 16 + 1 * (j 0).val = (j 0).val; rw [h0]; omega
  | ⟨1, _⟩ => show win0_2.index t (1 : Fin 2) * 256 + 1 * (j 1).val = (j 1).val; rw [h1]; omega

/-- Window 3's block at any point is the whole array it is over. -/
theorem iblk3_eq (t : Fin cfg0.N) : (iblk m c 3 t : Vec Ideal S16x1 .f32) = (V m c main_v19 : S16x1.Idx → EReal) := by
  obtain ⟨h0, h1⟩ := idx3 t
  funext j
  unfold iblk
  rw [View.read_apply]
  show V m c main_v19 _ = V m c main_v19 _
  refine congrArg (V m c main_v19 : S16x1.Idx → EReal) ?_
  funext a
  apply Fin.ext
  match a with
  | ⟨0, _⟩ => show win0_3.index t (0 : Fin 2) * 16 + 1 * (j 0).val = (j 0).val; rw [h0]; omega
  | ⟨1, _⟩ => show win0_3.index t (1 : Fin 2) * 1 + 1 * (j 1).val = (j 1).val; rw [h1]; omega

/-- Window 4's block at any point is the whole array it is over. -/
theorem iblk4_eq (t : Fin cfg0.N) : (iblk m c 4 t : Vec Ideal S256x16 .f32) = (V m c main_v22 : S256x16.Idx → EReal) := by
  obtain ⟨h0, h1⟩ := idx4 t
  funext j
  unfold iblk
  rw [View.read_apply]
  show V m c main_v22 _ = V m c main_v22 _
  refine congrArg (V m c main_v22 : S256x16.Idx → EReal) ?_
  funext a
  apply Fin.ext
  match a with
  | ⟨0, _⟩ => show win0_4.index t (0 : Fin 2) * 256 + 1 * (j 0).val = (j 0).val; rw [h0]; omega
  | ⟨1, _⟩ => show win0_4.index t (1 : Fin 2) * 16 + 1 * (j 1).val = (j 1).val; rw [h1]; omega

/-- Window 5's block at any point is the whole array it is over. -/
theorem iblk5_eq (t : Fin cfg0.N) : (iblk m c 5 t : Vec Ideal S256x1 .f32) = (V m c main_v25 : S256x1.Idx → EReal) := by
  obtain ⟨h0, h1⟩ := idx5 t
  funext j
  unfold iblk
  rw [View.read_apply]
  show V m c main_v25 _ = V m c main_v25 _
  refine congrArg (V m c main_v25 : S256x1.Idx → EReal) ?_
  funext a
  apply Fin.ext
  match a with
  | ⟨0, _⟩ => show win0_5.index t (0 : Fin 2) * 256 + 1 * (j 0).val = (j 0).val; rw [h0]; omega
  | ⟨1, _⟩ => show win0_5.index t (1 : Fin 2) * 1 + 1 * (j 1).val = (j 1).val; rw [h1]; omega

/-- Window 6's block at any point is the whole array it is over. -/
theorem iblk6_eq (t : Fin cfg0.N) : (iblk m c 6 t : Vec Ideal S16x256 .f32) = (V m c main_v40 : S16x256.Idx → EReal) := by
  obtain ⟨h0, h1⟩ := idx6 t
  funext j
  unfold iblk
  rw [View.read_apply]
  show V m c main_v40 _ = V m c main_v40 _
  refine congrArg (V m c main_v40 : S16x256.Idx → EReal) ?_
  funext a
  apply Fin.ext
  match a with
  | ⟨0, _⟩ => show win0_6.index t (0 : Fin 2) * 16 + 1 * (j 0).val = (j 0).val; rw [h0]; omega
  | ⟨1, _⟩ => show win0_6.index t (1 : Fin 2) * 256 + 1 * (j 1).val = (j 1).val; rw [h1]; omega

/-- Window 7's block at any point is the whole array it is over. -/
theorem iblk7_eq (t : Fin cfg0.N) : (iblk m c 7 t : Vec Ideal S16x1 .f32) = (V m c main_v43 : S16x1.Idx → EReal) := by
  obtain ⟨h0, h1⟩ := idx7 t
  funext j
  unfold iblk
  rw [View.read_apply]
  show V m c main_v43 _ = V m c main_v43 _
  refine congrArg (V m c main_v43 : S16x1.Idx → EReal) ?_
  funext a
  apply Fin.ext
  match a with
  | ⟨0, _⟩ => show win0_7.index t (0 : Fin 2) * 16 + 1 * (j 0).val = (j 0).val; rw [h0]; omega
  | ⟨1, _⟩ => show win0_7.index t (1 : Fin 2) * 1 + 1 * (j 1).val = (j 1).val; rw [h1]; omega

/-- Window 8's block at any point is the whole array it is over. -/
theorem iblk8_eq (t : Fin cfg0.N) : (iblk m c 8 t : Vec Ideal S256x16 .f32) = (V m c main_v46 : S256x16.Idx → EReal) := by
  obtain ⟨h0, h1⟩ := idx8 t
  funext j
  unfold iblk
  rw [View.read_apply]
  show V m c main_v46 _ = V m c main_v46 _
  refine congrArg (V m c main_v46 : S256x16.Idx → EReal) ?_
  funext a
  apply Fin.ext
  match a with
  | ⟨0, _⟩ => show win0_8.index t (0 : Fin 2) * 256 + 1 * (j 0).val = (j 0).val; rw [h0]; omega
  | ⟨1, _⟩ => show win0_8.index t (1 : Fin 2) * 16 + 1 * (j 1).val = (j 1).val; rw [h1]; omega

/-- Window 9's block at any point is the whole array it is over. -/
theorem iblk9_eq (t : Fin cfg0.N) : (iblk m c 9 t : Vec Ideal S256x1 .f32) = (V m c main_v49 : S256x1.Idx → EReal) := by
  obtain ⟨h0, h1⟩ := idx9 t
  funext j
  unfold iblk
  rw [View.read_apply]
  show V m c main_v49 _ = V m c main_v49 _
  refine congrArg (V m c main_v49 : S256x1.Idx → EReal) ?_
  funext a
  apply Fin.ext
  match a with
  | ⟨0, _⟩ => show win0_9.index t (0 : Fin 2) * 256 + 1 * (j 0).val = (j 0).val; rw [h0]; omega
  | ⟨1, _⟩ => show win0_9.index t (1 : Fin 2) * 1 + 1 * (j 1).val = (j 1).val; rw [h1]; omega

/-- An index of the array is in point t's block of window 10 iff each coordinate is in the block's range on its axis. -/
theorem mem_blk10 (t : Fin cfg0.N) (i : S32x256x4096.Idx) :
    i ∈ ((cfg0.win 10).blk t).view.set ↔ ∀ a : Fin 3, win0_10.index t a * S1x256x4096.size a ≤ (i a).val ∧ (i a).val < win0_10.index t a * S1x256x4096.size a + S1x256x4096.size a := by
  show i ∈ ((View.whole main_v50_0).slice (win0_10.rect t)).set ↔ _
  rw [View.set_slice_whole, Rect.mem_set_unit]
  exact Iff.rfl

/-- Every entry of the array is in the block of the point that works on its image. -/
theorem cover10 (i : S32x256x4096.Idx) :
    ∃ t : Fin cfg0.N, (cfg0.win 10).flush t = true ∧ i ∈ ((cfg0.win 10).blk t).view.set := by
  obtain ⟨n, d, p, rfl⟩ : ∃ (n : Fin 32) (d : Fin 256) (p : Fin 4096), i = ix3 n d p := ⟨i 0, i 1, i 2, eq_ix3 i⟩
  refine ⟨pt n, flush0_10 _, ?_⟩
  rw [mem_blk10]
  obtain ⟨h0, h1, h2⟩ := idx10 (pt n)
  have hd : d.val < 256 := d.isLt
  have hp : p.val < 4096 := p.isLt
  intro a
  match a with
  | ⟨0, _⟩ => show win0_10.index (pt n) (0 : Fin 3) * 1 ≤ n.val ∧ n.val < win0_10.index (pt n) (0 : Fin 3) * 1 + 1; rw [h0, pt_val]; omega
  | ⟨1, _⟩ => show win0_10.index (pt n) (1 : Fin 3) * 256 ≤ d.val ∧ d.val < win0_10.index (pt n) (1 : Fin 3) * 256 + 256; rw [h1]; omega
  | ⟨2, _⟩ => show win0_10.index (pt n) (2 : Fin 3) * 4096 ≤ p.val ∧ p.val < win0_10.index (pt n) (2 : Fin 3) * 4096 + 4096; rw [h2]; omega

/-- Entry (0, d, p) of point t's block of window 10 sits at entry (t, d, p) of the array. -/
theorem emb10 (t : Fin cfg0.N) (d : Fin 256) (p : Fin 4096) :
    (((cfg0.win 10).blk t).view.emb (ix3 (0 : Fin 1) d p : S1x256x4096.Idx) : S32x256x4096.Idx) = ix3 (img t) d p := by
  obtain ⟨h0, h1, h2⟩ := idx10 t
  funext a
  apply Fin.ext
  match a with
  | ⟨0, _⟩ => show win0_10.index t (0 : Fin 3) * 1 + 1 * (0 : Fin 1).val = t.val; rw [h0]; simp
  | ⟨1, _⟩ => show win0_10.index t (1 : Fin 3) * 256 + 1 * d.val = d.val; rw [h1]; omega
  | ⟨2, _⟩ => show win0_10.index t (2 : Fin 3) * 4096 + 1 * p.val = p.val; rw [h2]; omega

/-- An index of the array is in point t's block of window 11 iff each coordinate is in the block's range on its axis. -/
theorem mem_blk11 (t : Fin cfg0.N) (i : S32x256x4096.Idx) :
    i ∈ ((cfg0.win 11).blk t).view.set ↔ ∀ a : Fin 3, win0_11.index t a * S1x256x4096.size a ≤ (i a).val ∧ (i a).val < win0_11.index t a * S1x256x4096.size a + S1x256x4096.size a := by
  show i ∈ ((View.whole main_v50_1).slice (win0_11.rect t)).set ↔ _
  rw [View.set_slice_whole, Rect.mem_set_unit]
  exact Iff.rfl

/-- Every entry of the array is in the block of the point that works on its image. -/
theorem cover11 (i : S32x256x4096.Idx) :
    ∃ t : Fin cfg0.N, (cfg0.win 11).flush t = true ∧ i ∈ ((cfg0.win 11).blk t).view.set := by
  obtain ⟨n, d, p, rfl⟩ : ∃ (n : Fin 32) (d : Fin 256) (p : Fin 4096), i = ix3 n d p := ⟨i 0, i 1, i 2, eq_ix3 i⟩
  refine ⟨pt n, flush0_11 _, ?_⟩
  rw [mem_blk11]
  obtain ⟨h0, h1, h2⟩ := idx11 (pt n)
  have hd : d.val < 256 := d.isLt
  have hp : p.val < 4096 := p.isLt
  intro a
  match a with
  | ⟨0, _⟩ => show win0_11.index (pt n) (0 : Fin 3) * 1 ≤ n.val ∧ n.val < win0_11.index (pt n) (0 : Fin 3) * 1 + 1; rw [h0, pt_val]; omega
  | ⟨1, _⟩ => show win0_11.index (pt n) (1 : Fin 3) * 256 ≤ d.val ∧ d.val < win0_11.index (pt n) (1 : Fin 3) * 256 + 256; rw [h1]; omega
  | ⟨2, _⟩ => show win0_11.index (pt n) (2 : Fin 3) * 4096 ≤ p.val ∧ p.val < win0_11.index (pt n) (2 : Fin 3) * 4096 + 4096; rw [h2]; omega

/-- Entry (0, d, p) of point t's block of window 11 sits at entry (t, d, p) of the array. -/
theorem emb11 (t : Fin cfg0.N) (d : Fin 256) (p : Fin 4096) :
    (((cfg0.win 11).blk t).view.emb (ix3 (0 : Fin 1) d p : S1x256x4096.Idx) : S32x256x4096.Idx) = ix3 (img t) d p := by
  obtain ⟨h0, h1, h2⟩ := idx11 t
  funext a
  apply Fin.ext
  match a with
  | ⟨0, _⟩ => show win0_11.index t (0 : Fin 3) * 1 + 1 * (0 : Fin 1).val = t.val; rw [h0]; simp
  | ⟨1, _⟩ => show win0_11.index t (1 : Fin 3) * 256 + 1 * d.val = d.val; rw [h1]; omega
  | ⟨2, _⟩ => show win0_11.index t (2 : Fin 3) * 4096 + 1 * p.val = p.val; rw [h2]; omega

end Cert.KernelIdeal.KBlocks

end
-- ==== Proof.KernelFinal.lean ====
/-
  What the two result buffers hold after the lines that follow the kernel, as functions of the argument arrays.
  At point t the body's branch vector, computed from the image block and the folded parameter blocks, is the folded
  branch at the channel means of image t; so what the point writes back is block t of one whole-array function (the
  image gated by one plus the softmax of that vector, the low band adding the vector). The blocks cover the arrays, so
  the arrays end as those functions; the lines after the kernel reshape them to [32, 256, 64, 64].
-/
import proofs.«119149_g2000609679484958_pallasbulk_1271_18_alg».proof.Proof.Gen.KernelIdeal.Frame
import proofs.«119149_g2000609679484958_pallasbulk_1271_18_alg».proof.Proof.Spec
import proofs.«119149_g2000609679484958_pallasbulk_1271_18_alg».proof.Proof.KernelStages
import proofs.«119149_g2000609679484958_pallasbulk_1271_18_alg».proof.Proof.KernelBody
import proofs.«119149_g2000609679484958_pallasbulk_1271_18_alg».proof.Proof.KernelTail
import proofs.«119149_g2000609679484958_pallasbulk_1271_18_alg».proof.Proof.KernelBlocks
import Idealize.ShloMosaic.Lib.Pipeline.Value
import Idealize.ShloMosaic.Lib.Tactic

noncomputable section

open scoped BigOperators

namespace Cert.KernelIdeal.KFinal

open Idealize.ShloMosaic Idealize.ShloMosaic.TcCoe Idealize.ShloMosaic.ValueIdx Idealize.SL.Sem
open Idealize.ShloMosaic.Pipeline (Dat)
open Cert.KernelIdeal Cert.KernelIdeal.Gen Cert.Fdd Cert.KernelIdeal.KStages Cert.KernelIdeal.KBody Cert.KernelIdeal.KBlocks

variable (m : (ℓ : Loc nD τ sig) → Buf (Elt Ideal) ℓ) (c : Dev nD)

/-- The body's branch vector from blocks that hold the folded parameters is the folded branch at the block's channel means. -/
theorem blkVec_eq (x : Vec Ideal S1x256x4096 .f32) (w1 : Vec Ideal S16x256 .f32) (b1 : Vec Ideal S16x1 .f32)
    (w2 : Vec Ideal S256x16 .f32) (b2 : Vec Ideal S256x1 .f32) (B : Branch) (g : Fin 256 → EReal)
    (hw1 : ∀ j k, w1 (ix2 j k) = B.w1 j k * B.s1 j) (hb1 : ∀ j, b1 (ix2 j 0) = B.b1 j * B.s1 j + B.t1 j)
    (hw2 : ∀ d j, w2 (ix2 d j) = B.w2 d j * B.s2 d) (hb2 : ∀ d, b2 (ix2 d 0) = B.b2 d * B.s2 d + B.t2 d)
    (hg : blkGap x = g) : blkVec x w1 b1 w2 b2 = vecK B g := by
  funext d
  rw [vecK_eq_twoLayer]
  unfold blkVec
  rw [hg]
  simp only [hw1, hb1, hw2, hb2]

/-- The channel means of a block that holds image n of X are the channel means of image n. -/
theorem blkGap_eq (x : Vec Ideal S1x256x4096 .f32) (X : Fin 32 → Fin 256 → Fin 4096 → EReal) (n : Fin 32)
    (hx : ∀ k p, x (ix3 0 k p) = X n k p) : blkGap x = gapOf X n := by
  funext k
  unfold blkGap gapOf
  rw [Finset.sum_congr rfl fun p _ => hx k p]

/-- The first image window's block at point t holds image t of the first argument, reshaped. -/
theorem blk0_at (t : Fin cfg0.N) (d : Fin 256) (p : Fin 4096) :
    (iblk m c 0 t : Vec Ideal S1x256x4096 .f32) (ix3 0 d p) = coords3 (to3 (m ((c : Thread nD τ).loc main_arg0))) (img t) d p :=
  (iblk0_apply m c t d p).trans (congrFun (V_v0 m c) (ix3 (img t) d p))

theorem blk1_at (t : Fin cfg0.N) (d : Fin 256) (p : Fin 4096) :
    (iblk m c 1 t : Vec Ideal S1x256x4096 .f32) (ix3 0 d p) = coords3 (to3 (m ((c : Thread nD τ).loc main_arg1))) (img t) d p :=
  (iblk1_apply m c t d p).trans (congrFun (V_v1 m c) (ix3 (img t) d p))

/-- At point t the body's low branch vector is the folded low branch at the channel means of image t. -/
theorem vecLo (t : Fin cfg0.N) :
    blkVec (iblk m c 0 t) (iblk m c 2 t) (iblk m c 3 t) (iblk m c 4 t) (iblk m c 5 t)
      = vecK (BL m c) (gapOf (coords3 (to3 (m ((c : Thread nD τ).loc main_arg0)))) (img t)) :=
  blkVec_eq (iblk m c 0 t) (iblk m c 2 t) (iblk m c 3 t) (iblk m c 4 t) (iblk m c 5 t) (BL m c)
    (gapOf (coords3 (to3 (m ((c : Thread nD τ).loc main_arg0)))) (img t))
    (fun j k => (congrFun (iblk2_eq m c t) (ix2 j k)).trans (V_v16 m c j k))
    (fun j => (congrFun (iblk3_eq m c t) (ix2 j 0)).trans (V_v19 m c j))
    (fun d j => (congrFun (iblk4_eq m c t) (ix2 d j)).trans (V_v22 m c d j))
    (fun d => (congrFun (iblk5_eq m c t) (ix2 d 0)).trans (V_v25 m c d))
    (blkGap_eq (iblk m c 0 t) (coords3 (to3 (m ((c : Thread nD τ).loc main_arg0)))) (img t) (fun k p => blk0_at m c t k p))

/-- At point t the body's high branch vector is the folded high branch at the channel means of image t. -/
theorem vecHi (t : Fin cfg0.N) :
    blkVec (iblk m c 1 t) (iblk m c 6 t) (iblk m c 7 t) (iblk m c 8 t) (iblk m c 9 t)
      = vecK (BH m c) (gapOf (coords3 (to3 (m ((c : Thread nD τ).loc main_arg1)))) (img t)) :=
  blkVec_eq (iblk m c 1 t) (iblk m c 6 t) (iblk m c 7 t) (iblk m c 8 t) (iblk m c 9 t) (BH m c)
    (gapOf (coords3 (to3 (m ((c : Thread nD τ).loc main_arg1)))) (img t))
    (fun j k => (congrFun (iblk6_eq m c t) (ix2 j k)).trans (V_v40 m c j k))
    (fun j => (congrFun (iblk7_eq m c t) (ix2 j 0)).trans (V_v43 m c j))
    (fun d j => (congrFun (iblk8_eq m c t) (ix2 d j)).trans (V_v46 m c d j))
    (fun d => (congrFun (iblk9_eq m c t) (ix2 d 0)).trans (V_v49 m c d))
    (blkGap_eq (iblk m c 1 t) (coords3 (to3 (m ((c : Thread nD τ).loc main_arg1)))) (img t) (fun k p => blk1_at m c t k p))

/-- What the low band's array ends holding: every image gated by one plus the softmax of its folded branch vector, plus that vector. -/
def G10 : S3.Idx → EReal := arr3 (loAt vecK (BL m c) (coords3 (to3 (m ((c : Thread nD τ).loc main_arg0)))))

/-- What the high band's array ends holding: every image gated by one plus the softmax of its folded branch vector. -/
def G11 : S3.Idx → EReal := arr3 (hiAt vecK (BH m c) (coords3 (to3 (m ((c : Thread nD τ).loc main_arg1)))))

/-- What point t writes back to the low band's array is that array's block t. -/
theorem flushed10_eq (t : Fin cfg0.N) :
    (dats m 0 c).flushed 10 t = ((cfg0.win 10).blk t).view.read (Elt Ideal) (G10 m c) := by
  show (cfg0.win 10).cut (grid0.coords t) ((dats m 0 c).after 10 t) = _
  rw [after0_10]
  refine ext_blk fun d p => ?_
  show out0_10 (iblk m c 0 t) (iblk m c 1 t) (iblk m c 2 t) (iblk m c 3 t) (iblk m c 4 t) (iblk m c 5 t) (iblk m c 6 t) (iblk m c 7 t) (iblk m c 8 t) (iblk m c 9 t) (ix3 (0 : Fin 1) d p)
    = G10 m c (((cfg0.win 10).blk t).view.emb (ix3 (0 : Fin 1) d p))
  refine (out10_apply (iblk m c 0 t) (iblk m c 1 t) (iblk m c 2 t) (iblk m c 3 t) (iblk m c 4 t) (iblk m c 5 t) (iblk m c 6 t) (iblk m c 7 t) (iblk m c 8 t) (iblk m c 9 t) d p).trans ?_
  refine Eq.trans ?_ (congrArg (G10 m c) (emb10 t d p)).symm
  rw [vecLo, blk0_at]
  rfl

/-- What point t writes back to the high band's array is that array's block t. -/
theorem flushed11_eq (t : Fin cfg0.N) :
    (dats m 0 c).flushed 11 t = ((cfg0.win 11).blk t).view.read (Elt Ideal) (G11 m c) := by
  show (cfg0.win 11).cut (grid0.coords t) ((dats m 0 c).after 11 t) = _
  rw [after0_11]
  refine ext_blk fun d p => ?_
  show out0_11 (iblk m c 0 t) (iblk m c 1 t) (iblk m c 2 t) (iblk m c 3 t) (iblk m c 4 t) (iblk m c 5 t) (iblk m c 6 t) (iblk m c 7 t) (iblk m c 8 t) (iblk m c 9 t) (ix3 (0 : Fin 1) d p)
    = G11 m c (((cfg0.win 11).blk t).view.emb (ix3 (0 : Fin 1) d p))
  refine (out11_apply (iblk m c 0 t) (iblk m c 1 t) (iblk m c 2 t) (iblk m c 3 t) (iblk m c 4 t) (iblk m c 5 t) (iblk m c 6 t) (iblk m c 7 t) (iblk m c 8 t) (iblk m c 9 t) d p).trans ?_
  refine Eq.trans ?_ (congrArg (G11 m c) (emb11 t d p)).symm
  rw [vecHi, blk1_at]
  rfl

/-- The blocks cover the array, so the low band's array ends as G10. -/
theorem final10 : ((dats m 0 c).arrAt 10 cfg0.N : S3.Idx → EReal) = G10 m c :=
  (dats m 0 c).arrAt_eq_of_cover 10 (G10 m c) (fun t _ => flushed10_eq m c t) cover10

theorem final11 : ((dats m 0 c).arrAt 11 cfg0.N : S3.Idx → EReal) = G11 m c :=
  (dats m 0 c).arrAt_eq_of_cover 11 (G11 m c) (fun t _ => flushed11_eq m c t) cover11

theorem val52 : (Pipeline.afterTail₀ cfgs (dats m) 0 (V0 m) [hostOps1] c main_v52 : S4.Idx → EReal)
    = resLo vecK (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) :=
  (KTail.tail52 m c (G10 m c) (final10 m c)).trans rfl

theorem val54 : (Pipeline.afterTail₀ cfgs (dats m) 0 (V0 m) [hostOps1] c main_v54 : S4.Idx → EReal)
    = resHi vecK (m ((c.tc : Thread nD τ).loc main_arg1)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) :=
  (KTail.tail54 m c (G11 m c) (final11 m c)).trans rfl

end Cert.KernelIdeal.KFinal

end
-- ==== Proof.KernelValue.lean ====
/-
  The fused kernel's run, with its two results named: every weakly fair execution ends with the low result at the
  image gated by one plus the softmax of the folded branch vector, plus that vector, and the high result at its
  image gated likewise, both as functions of the argument arrays (Cert.Fdd.resLo / resHi at vecK); the arguments
  end unchanged.
-/
import proofs.«119149_g2000609679484958_pallasbulk_1271_18_alg».proof.Proof.Gen.KernelIdeal.Frame
import proofs.«119149_g2000609679484958_pallasbulk_1271_18_alg».proof.Proof.Spec
import proofs.«119149_g2000609679484958_pallasbulk_1271_18_alg».proof.Proof.KernelFinal

noncomputable section

open scoped BigOperators

namespace Cert.KernelIdeal.KValue

open Idealize.ShloMosaic Idealize.ShloMosaic.TcCoe Idealize.ShloMosaic.ValueIdx Idealize.SL.Sem
open Cert.KernelIdeal Cert.KernelIdeal.Gen Cert.Fdd

variable (m : (ℓ : Loc nD τ sig) → Buf (Elt Ideal) ℓ) (ρ : Dev nD → PrngReg)

set_option maxHeartbeats 1560000 in
theorem run : θ_run (defs (F := Ideal)) (onTc (τ := τ) (main (F := Ideal))) ⟨m, fun _ => 0, ρ⟩ (fun r => ∀ c : Dev nD,
      r.2.mem ((c.tc : Thread nD τ).loc main_v52) = resLo vecK (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_v54) = resHi vecK (m ((c.tc : Thread nD τ).loc main_arg1)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun r h c => ⟨
      ((h c).2 main_v52 (Pipeline.mem_restRefs_of main_v52 (by decide) (by decide))).trans (KFinal.val52 m c),
      ((h c).2 main_v54 (Pipeline.mem_restRefs_of main_v54 (by decide) (by decide))).trans (KFinal.val54 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c),
      ((h c).2 main_arg14 (Pipeline.mem_restRefs_of main_arg14 (by decide) (by decide))).trans (W_main_arg14 m (dats m) c),
      ((h c).2 main_arg15 (Pipeline.mem_restRefs_of main_arg15 (by decide) (by decide))).trans (W_main_arg15 m (dats m) c),
      ((h c).2 main_arg16 (Pipeline.mem_restRefs_of main_arg16 (by decide) (by decide))).trans (W_main_arg16 m (dats m) c),
      ((h c).2 main_arg17 (Pipeline.mem_restRefs_of main_arg17 (by decide) (by decide))).trans (W_main_arg17 m (dats m) c),
      ((h c).2 main_arg18 (Pipeline.mem_restRefs_of main_arg18 (by decide) (by decide))).trans (W_main_arg18 m (dats m) c),
      ((h c).2 main_arg19 (Pipeline.mem_restRefs_of main_arg19 (by decide) (by decide))).trans (W_main_arg19 m (dats m) c),
      ((h c).2 main_arg20 (Pipeline.mem_restRefs_of main_arg20 (by decide) (by decide))).trans (W_main_arg20 m (dats m) c),
      ((h c).2 main_arg21 (Pipeline.mem_restRefs_of main_arg21 (by decide) (by decide))).trans (W_main_arg21 m (dats m) c),
      ((h c).2 main_arg22 (Pipeline.mem_restRefs_of main_arg22 (by decide) (by decide))).trans (W_main_arg22 m (dats m) c),
      ((h c).2 main_arg23 (Pipeline.mem_restRefs_of main_arg23 (by decide) (by decide))).trans (W_main_arg23 m (dats m) c),
      ((h c).2 main_arg24 (Pipeline.mem_restRefs_of main_arg24 (by decide) (by decide))).trans (W_main_arg24 m (dats m) c),
      ((h c).2 main_arg25 (Pipeline.mem_restRefs_of main_arg25 (by decide) (by decide))).trans (W_main_arg25 m (dats m) c)⟩)
    (run_main (F := Ideal) m ρ)

end Cert.KernelIdeal.KValue

end
-- ==== Proof.RefGapBody.lean ====
/-
  One grid point of the first region, read as arithmetic. The body keeps two [1, 256, 1] blocks of running sums, one
  per band. At the first of the four points of an image it zeroes them; at every point it adds to each block, channel
  by channel, the sum over the 1024 lanes of that band's [1, 256, 1024] tile. So at channel k a block ends at
  (what it held, or zero at the first point) + Σ_{p < 1024} tile (0, k, p).
-/
import proofs.«119149_g2000609679484958_pallasbulk_1271_18_alg».proof.Proof.Gen.ReferenceIdeal.Frame
import Idealize.ShloMosaic.PureOps.Ideal.Laws
import Idealize.ShloMosaic.Lib.ValueIdx
import Idealize.ShloMosaic.Lib.Pipeline.Value
import Idealize.ShloMosaic.Lib.Tactic

noncomputable section

open scoped BigOperators

namespace Cert.ReferenceIdeal.RGap

open Idealize.ShloMosaic Idealize.ShloMosaic.TcCoe Idealize.ShloMosaic.ValueIdx Idealize.SL.Sem
open Cert.ReferenceIdeal Cert.ReferenceIdeal.Gen

variable (c : Dev nD)

/-! ## What one grid point leaves in a sum block -/

theorem hz3 : (![0, 0, 0] : Fin 3 → Nat) = fun _ => 0 := funext fun a => by fin_cases a <;> rfl

/-- At a later point of an image the low band's block ends at the body's sum payload of what it held and the tile. -/
theorem outB2 (i : grid0.Coords) (a2 : Memref sig .tc .vmem S1x256x1024 .f32) (h2 : a2.IsWhole)
    (a3 : Memref sig .tc .vmem S1x256x1024 .f32) (h3 : a3.IsWhole) (a4 : Memref sig .tc .vmem S1x256x1 .f32) (h4 : a4.IsWhole)
    (a5 : Memref sig .tc .vmem S1x256x1 .f32) (h5 : a5.IsWhole) (hc : ¬cond0_0 i)
    (x0 x1 : Vec Ideal S1x256x1024 .f32) (xo2 xo3 : Vec Ideal S1x256x1 .f32) :
    out0_B_2 c i a2 h2 a3 h3 a4 h4 a5 h5 hc x0 x1 xo2 xo3 = k0_pay3 xo2 x0 := by
  unfold out0_B_2
  rw [View.read_writes_eq_canon _ _ _ (cover0_B_2 c i a2 h2 a3 h3 a4 h4 a5 h5 hc x0 x1 xo2 xo3)]
  unfold kernelRun0_B
  dsimp only
  rw [View.canon_unit_zero hz3]
  simp only [View.readAt_eq_ld, h2.read_unread, h4.read_unread, View.ld_unit_zero (S := S1x256x1) hz3,
    View.ld_unit_zero (S := S1x256x1024) hz3]

/-- At the first point of an image the block is zeroed first, so it ends at the payload of the zero block and the tile. -/
theorem outA2 (i : grid0.Coords) (a2 : Memref sig .tc .vmem S1x256x1024 .f32) (h2 : a2.IsWhole)
    (a3 : Memref sig .tc .vmem S1x256x1024 .f32) (h3 : a3.IsWhole) (a4 : Memref sig .tc .vmem S1x256x1 .f32) (h4 : a4.IsWhole)
    (a5 : Memref sig .tc .vmem S1x256x1 .f32) (h5 : a5.IsWhole) (hc : cond0_0 i)
    (x0 x1 : Vec Ideal S1x256x1024 .f32) :
    out0_A_2 c i a2 h2 a3 h3 a4 h4 a5 h5 hc x0 x1 = k0_pay3 (k0_pay1 (F := Ideal)) x0 := by
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S1x256x1) hz3, View.readCov_unit_zero (S := S1x256x1) _ hz3]
  simp only [View.readAt_eq_ld, h2.read_unread, View.ld_unit_zero (S := S1x256x1) hz3,
    View.ld_unit_zero (S := S1x256x1024) hz3]

/-- The same two for the high band. -/
theorem outB3 (i : grid0.Coords) (a2 : Memref sig .tc .vmem S1x256x1024 .f32) (h2 : a2.IsWhole)
    (a3 : Memref sig .tc .vmem S1x256x1024 .f32) (h3 : a3.IsWhole) (a4 : Memref sig .tc .vmem S1x256x1 .f32) (h4 : a4.IsWhole)
    (a5 : Memref sig .tc .vmem S1x256x1 .f32) (h5 : a5.IsWhole) (hc : ¬cond0_0 i)
    (x0 x1 : Vec Ideal S1x256x1024 .f32) (xo2 xo3 : Vec Ideal S1x256x1 .f32) :
    out0_B_3 c i a2 h2 a3 h3 a4 h4 a5 h5 hc x0 x1 xo2 xo3 = k0_pay4 xo3 x1 := by
  unfold out0_B_3
  rw [View.read_writes_eq_canon _ _ _ (cover0_B_3 c i a2 h2 a3 h3 a4 h4 a5 h5 hc x0 x1 xo2 xo3)]
  unfold kernelRun0_B
  dsimp only
  rw [View.canon_unit_zero hz3]
  simp only [View.readAt_eq_ld, h3.read_unread, h5.read_unread, View.ld_unit_zero (S := S1x256x1) hz3,
    View.ld_unit_zero (S := S1x256x1024) hz3]

theorem outA3 (i : grid0.Coords) (a2 : Memref sig .tc .vmem S1x256x1024 .f32) (h2 : a2.IsWhole)
    (a3 : Memref sig .tc .vmem S1x256x1024 .f32) (h3 : a3.IsWhole) (a4 : Memref sig .tc .vmem S1x256x1 .f32) (h4 : a4.IsWhole)
    (a5 : Memref sig .tc .vmem S1x256x1 .f32) (h5 : a5.IsWhole) (hc : cond0_0 i)
    (x0 x1 : Vec Ideal S1x256x1024 .f32) :
    out0_A_3 c i a2 h2 a3 h3 a4 h4 a5 h5 hc x0 x1 = k0_pay4 (k0_pay2 (F := Ideal)) x1 := by
  unfold out0_A_3
  rw [View.read_writes_eq_canon _ _ _ (cover0_A_3 c i a2 h2 a3 h3 a4 h4 a5 h5 hc x0 x1)]
  unfold kernelRun0_A
  dsimp only
  sl_unfold_words
  rw [View.canon_cons_unit_zero (S := S1x256x1) hz3, View.readCov_unit_zero (S := S1x256x1) _ hz3]
  simp only [View.readAt_eq_ld, h3.read_unread, View.ld_unit_zero (S := S1x256x1) hz3,
    View.ld_unit_zero (S := S1x256x1024) hz3]

/-! ## The body's arithmetic at a channel -/

/-- Over result index (0, k) of the lane sum the source indices are (0, k, p). -/
theorem lift_eq (k : Fin 256) (p : Fin 1024) :
    reduces_S1x256x1024_S1x256.lift (ix2 (0 : Fin 1) k) p = ix3 (0 : Fin 1) k p := by
  funext a
  apply Fin.ext
  match a with
  | ⟨0, _⟩ => rfl
  | ⟨1, _⟩ => rfl
  | ⟨2, _⟩ => rfl

/-- The lane sum of a [1, 256, 1024] tile, stored as a [1, 256, 1] column, is at channel k the sum over the 1024 lanes. -/
theorem lanesum_apply (x : Vec Ideal S1x256x1024 .f32) (hφ : FKind.Formats .f32) (hacc : (0x00000000#32 : BitVec 32) = 0x00000000#32)
    (k : Fin 256) :
    shapeCast S1x256x1 (multiReduction (F := Ideal) .add [2] S1x256 x 0x00000000#32 reduces_S1x256x1024_S1x256 hφ hacc)
        shapeCasts_S1x256_S1x256x1 (ix3 (0 : Fin 1) k (0 : Fin 1))
      = ∑ p : Fin 1024, x (ix3 (0 : Fin 1) k p) := by
  refine (shapeCast_apply _ _ (ix3 (0 : Fin 1) k (0 : Fin 1)) (ix2 (0 : Fin 1) k) ?_).trans ?_
  · rw [Shape.rowMajor_val_two, Shape.rowMajor_val_three]
    show (0 : ℕ) * 256 + k.val = (0 * 256 + k.val) * 1 + 0
    omega
  refine (Ideal.multiReduction_add_single x 0x00000000#32 reduces_S1x256x1024_S1x256 hφ hacc (ix2 (0 : Fin 1) k)).trans ?_
  exact Finset.sum_congr rfl fun p _ => congrArg x (lift_eq k p)

/-- The low band's payload at channel k: what the block held there plus the tile's lane sum. -/
theorem pay3_apply (v : Vec Ideal S1x256x1 .f32) (x : Vec Ideal S1x256x1024 .f32) (k : Fin 256) :
    k0_pay3 (F := Ideal) v x (ix3 (0 : Fin 1) k (0 : Fin 1)) = v (ix3 (0 : Fin 1) k (0 : Fin 1)) + ∑ p : Fin 1024, x (ix3 (0 : Fin 1) k p) := by
  unfold k0_pay3
  dsimp only
  refine (addf_apply _ _ _).trans ?_
  refine congrArg₂ (· + ·) (congrFun (shapeCast_self v _) _) ?_
  refine Eq.trans ?_ (lanesum_apply x (.inl rfl) rfl k)
  exact congrArg (fun z => shapeCast S1x256x1 (multiReduction (F := Ideal) .add [2] S1x256 z 0x00000000#32 reduces_S1x256x1024_S1x256 (.inl rfl) rfl)
        shapeCasts_S1x256_S1x256x1 (ix3 (0 : Fin 1) k (0 : Fin 1))) (shapeCast_self x _)

/-- The high band's payload at channel k. -/
theorem pay4_apply (v : Vec Ideal S1x256x1 .f32) (x : Vec Ideal S1x256x1024 .f32) (k : Fin 256) :
    k0_pay4 (F := Ideal) v x (ix3 (0 : Fin 1) k (0 : Fin 1)) = v (ix3 (0 : Fin 1) k (0 : Fin 1)) + ∑ p : Fin 1024, x (ix3 (0 : Fin 1) k p) := by
  unfold k0_pay4
  dsimp only
  refine (addf_apply _ _ _).trans ?_
  refine congrArg₂ (· + ·) (congrFun (shapeCast_self v _) _) ?_
  refine Eq.trans ?_ (lanesum_apply x (.inl rfl) rfl k)
  exact congrArg (fun z => shapeCast S1x256x1 (multiReduction (F := Ideal) .add [2] S1x256 z 0x00000000#32 reduces_S1x256x1024_S1x256 (.inl rfl) rfl)
        shapeCasts_S1x256_S1x256x1 (ix3 (0 : Fin 1) k (0 : Fin 1))) (shapeCast_self x _)

/-- The zero block reads zero. -/
theorem pay1_apply (j : S1x256x1.Idx) : k0_pay1 (F := Ideal) j = 0 := by
  unfold k0_pay1
  exact Ideal.ofBits_zero_f32
theorem pay2_apply (j : S1x256x1.Idx) : k0_pay2 (F := Ideal) j = 0 := by
  unfold k0_pay2
  exact Ideal.ofBits_zero_f32

end Cert.ReferenceIdeal.RGap

end
-- ==== Proof.RefGap.lean ====
/-
  The first region of the two-pass program: for every image n and channel k it adds up the 4096 pixels in four
  tiles of 1024, the running sum kept in a [32, 256, 1] array across the four grid points of an image (zeroed at
  the first). What it leaves is the sum over all 4096 pixels.

  Point t of the 32 x 4 grid works on image t / 4 and reads the (t % 4)-th quarter of its pixels. By induction on
  the point, after point t the block holds at channel k the sum of the first 1024 (t % 4 + 1) pixels; the block is
  written back after the image's last point, t = 4 n + 3, into row n of the array, and those rows cover it.
-/
import proofs.«119149_g2000609679484958_pallasbulk_1271_18_alg».proof.Proof.Gen.ReferenceIdeal.Frame
import proofs.«119149_g2000609679484958_pallasbulk_1271_18_alg».proof.Proof.Spec
import proofs.«119149_g2000609679484958_pallasbulk_1271_18_alg».proof.Proof.RefGapBody
import Idealize.ShloMosaic.Lib.Pipeline.Value
import Idealize.ShloMosaic.Lib.StableHlo.Run
import Idealize.ShloMosaic.Lib.Tactic

noncomputable section

open scoped BigOperators

namespace Cert.ReferenceIdeal.RGap

open Idealize.ShloMosaic Idealize.ShloMosaic.TcCoe Idealize.ShloMosaic.ValueIdx Idealize.SL.Sem
open Idealize.ShloMosaic.Pipeline (Dat)
open Cert.ReferenceIdeal Cert.ReferenceIdeal.Gen Cert.Fdd

variable (m : (ℓ : Loc nD τ sig) → Buf (Elt Ideal) ℓ) (ρ : Dev nD → PrngReg) (c : Dev nD)

/-- The first region is entered with the two images reshaped to [32, 256, 4096]. -/
theorem W1_v0 : (W1 m ρ c (Proc.devRef .tc main_v0) : S32x256x4096.Idx → EReal) = to3 (m ((c : Thread nD τ).loc main_arg0)) := by
  show StableHlo.after hostOps0 (W0 m ρ c) (Proc.devRef .tc main_v0) = _
  after_results
  rfl
theorem W1_v1 : (W1 m ρ c (Proc.devRef .tc main_v1) : S32x256x4096.Idx → EReal) = to3 (m ((c : Thread nD τ).loc main_arg1)) := by
  show StableHlo.after hostOps0 (W0 m ρ c) (Proc.devRef .tc main_v1) = _
  after_results
  rfl

/-! ## Where a block sits in its array -/

/-- The index maps over the grid: point t works on image t / 4; an input tile is the (t % 4)-th quarter of the pixels;
    a sum block is the image's row of the [32, 256, 1] array. -/
theorem idx_facts : ∀ t : Fin cfg0.N,
    win0_0.index t (0 : Fin 3) = t.val / 4 ∧ win0_0.index t (1 : Fin 3) = 0 ∧ win0_0.index t (2 : Fin 3) = t.val % 4
    ∧ win0_1.index t (0 : Fin 3) = t.val / 4 ∧ win0_1.index t (1 : Fin 3) = 0 ∧ win0_1.index t (2 : Fin 3) = t.val % 4
    ∧ win0_2.index t (0 : Fin 3) = t.val / 4 ∧ win0_2.index t (1 : Fin 3) = 0 ∧ win0_2.index t (2 : Fin 3) = 0
    ∧ win0_3.index t (0 : Fin 3) = t.val / 4 ∧ win0_3.index t (1 : Fin 3) = 0 ∧ win0_3.index t (2 : Fin 3) = 0 :=
  (by decide +kernel : ∀ t : Fin grid0.N, _)

/-- Entry (n, k, q) of a [32, 256, 4096] array by natural-number image and pixel coordinates, zero outside the array:
    the running pixelSums below are pixelSums of these over ranges of pixels. -/
def entryAt (A : S32x256x4096.Idx → EReal) (n : ℕ) (k : Fin 256) (q : ℕ) : EReal :=
  if h : n < 32 ∧ q < 4096 then A (ix3 (⟨n, h.1⟩ : Fin 32) k (⟨q, h.2⟩ : Fin 4096)) else 0

/-- The [32, 256, 1] array of whole-image pixelSums. -/
def pixelSums (A : S32x256x4096.Idx → EReal) : S32x256x1.Idx → EReal :=
  fun i => ∑ q ∈ Finset.range 4096, entryAt A (i 0).val (i 1) q

theorem pixelSums_apply (A : S32x256x4096.Idx → EReal) (n : Fin 32) (k : Fin 256) :
    pixelSums A (ix3 n k (0 : Fin 1)) = ∑ p : Fin 4096, A (ix3 n k p) := by
  show ∑ q ∈ Finset.range 4096, entryAt A n.val k q = _
  rw [← Fin.sum_univ_eq_sum_range (fun q => entryAt A n.val k q) 4096]
  refine Finset.sum_congr rfl fun p _ => ?_
  unfold entryAt
  rw [dif_pos ⟨n.isLt, p.isLt⟩]

section Region
variable (V : (c : Dev nD) → (b : Ref sig .tc) → Buf (Elt Ideal) ((c : Thread nD τ).loc b))

/-! ### Window 2: the pixelSums of `main_v0` -/

/-- The tile of point t holds, at (0, k, p), pixel 1024 (t % 4) + p of channel k of image t / 4. -/
theorem iblk0_apply (t : Fin cfg0.N) (k : Fin 256) (p : Fin 1024) (x : Vec Ideal S1x256x1024 .f32) (hx : x = iblk0 V c 0 t) :
    x (ix3 (0 : Fin 1) k p) = entryAt (V c main_v0) (t.val / 4) k (1024 * (t.val % 4) + p.val) := by
  subst hx
  have hN : t.val < 128 := lt_of_lt_of_eq t.isLt (show cfg0.N = 128 from N_0)
  have hp : p.val < 1024 := p.isLt
  obtain ⟨e0, e1, e2, -⟩ := idx_facts t
  unfold entryAt
  rw [dif_pos ⟨by omega, by omega⟩]
  unfold iblk0
  rw [View.read_apply]
  show V c main_v0 _ = V c main_v0 _
  congr 1
  funext a
  apply Fin.ext
  match a with
  | ⟨0, _⟩ => show win0_0.index t (0 : Fin 3) * 1 + 1 * 0 = t.val / 4; rw [e0]; omega
  | ⟨1, _⟩ => show win0_0.index t (1 : Fin 3) * 256 + 1 * k.val = k.val; rw [e1]; omega
  | ⟨2, _⟩ => show win0_0.index t (2 : Fin 3) * 1024 + 1 * p.val = 1024 * (t.val % 4) + p.val; rw [e2]; omega

/-- So the tile's lane sum at channel k is the sum of that quarter of the pixels. -/
theorem tile0_sum (t : Fin cfg0.N) (k : Fin 256) (x : Vec Ideal S1x256x1024 .f32) (hx : x = iblk0 V c 0 t) :
    ∑ p : Fin 1024, x (ix3 (0 : Fin 1) k p)
      = ∑ p ∈ Finset.range 1024, entryAt (V c main_v0) (t.val / 4) k (1024 * (t.val % 4) + p) :=
  (Finset.sum_congr rfl fun p _ => iblk0_apply c V t k p x hx).trans
    (Fin.sum_univ_eq_sum_range (fun p => entryAt (V c main_v0) (t.val / 4) k (1024 * (t.val % 4) + p)) 1024)

/-- At an image's first point the block ends at the first quarter's sum. -/
theorem first2 (n : ℕ) (h : n < cfg0.N) (h0 : n % 4 = 0) (k : Fin 256) :
    ((outsAt0 V c n h).1 : S1x256x1.Idx → EReal) (ix3 (0 : Fin 1) k (0 : Fin 1))
      = ∑ p ∈ Finset.range 1024, entryAt (V c main_v0) (n / 4) k (1024 * (n % 4) + p) := by
  refine (congrArg (fun z : Vec Ideal S1x256x1 .f32 × Vec Ideal S1x256x1 .f32 => z.1 (ix3 (0 : Fin 1) k (0 : Fin 1)))
    (outsAt0_A V c ⟨n, h⟩ h0)).trans ?_
  dsimp only
  refine (congrFun (outA2 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩)
    (ms0_3 ⟨n, h⟩) (hs0_3 ⟨n, h⟩) ((hcond0_0 ⟨n, h⟩).mpr h0) (iblk0 V c 0 ⟨n, h⟩) (iblk0 V c 1 ⟨n, h⟩)) (ix3 (0 : Fin 1) k (0 : Fin 1))).trans ?_
  refine (pay3_apply (k0_pay1 (F := Ideal)) (iblk0 V c 0 ⟨n, h⟩) k).trans ?_
  rw [pay1_apply, zero_add]
  exact tile0_sum c V ⟨n, h⟩ k (iblk0 V c 0 ⟨n, h⟩) rfl

/-- At a later point it ends at what the point before left plus this quarter's sum. -/
theorem later2 (n : ℕ) (h : n + 1 < cfg0.N) (h0 : ¬(n + 1) % 4 = 0) (k : Fin 256) :
    ((outsAt0 V c (n + 1) h).1 : S1x256x1.Idx → EReal) (ix3 (0 : Fin 1) k (0 : Fin 1))
      = ((outsAt0 V c n (Nat.lt_of_succ_lt h)).1 : S1x256x1.Idx → EReal) (ix3 (0 : Fin 1) k (0 : Fin 1))
        + ∑ p ∈ Finset.range 1024, entryAt (V c main_v0) ((n + 1) / 4) k (1024 * ((n + 1) % 4) + p) := by
  refine (congrArg (fun z : Vec Ideal S1x256x1 .f32 × Vec Ideal S1x256x1 .f32 => z.1 (ix3 (0 : Fin 1) k (0 : Fin 1)))
    (outsAt0_B V c ⟨n + 1, h⟩ h0)).trans ?_
  dsimp only
  refine (congrFun (outB2 c (grid0.coords ⟨n + 1, h⟩) (ms0_0 ⟨n + 1, h⟩) (hs0_0 ⟨n + 1, h⟩) (ms0_1 ⟨n + 1, h⟩) (hs0_1 ⟨n + 1, h⟩)
    (ms0_2 ⟨n + 1, h⟩) (hs0_2 ⟨n + 1, h⟩) (ms0_3 ⟨n + 1, h⟩) (hs0_3 ⟨n + 1, h⟩) (fun hh => h0 ((hcond0_0 ⟨n + 1, h⟩).mp hh))
    (iblk0 V c 0 ⟨n + 1, h⟩) (iblk0 V c 1 ⟨n + 1, h⟩) (outsAt0 V c n (Nat.lt_of_succ_lt h)).1 (outsAt0 V c n (Nat.lt_of_succ_lt h)).2)
    (ix3 (0 : Fin 1) k (0 : Fin 1))).trans ?_
  refine (pay3_apply (outsAt0 V c n (Nat.lt_of_succ_lt h)).1 (iblk0 V c 0 ⟨n + 1, h⟩) k).trans ?_
  exact congrArg (fun z : EReal => ((outsAt0 V c n (Nat.lt_of_succ_lt h)).1 : S1x256x1.Idx → EReal) (ix3 (0 : Fin 1) k (0 : Fin 1)) + z)
    (tile0_sum c V ⟨n + 1, h⟩ k (iblk0 V c 0 ⟨n + 1, h⟩) rfl)

/-- THE RUNNING SUM: after point n the block holds, at channel k, the sum of the first 1024 (n % 4 + 1) pixels of
    image n / 4 — by induction on the point. -/
theorem running2 : ∀ (n : ℕ) (h : n < cfg0.N) (k : Fin 256),
    ((outsAt0 V c n h).1 : S1x256x1.Idx → EReal) (ix3 (0 : Fin 1) k (0 : Fin 1))
      = ∑ q ∈ Finset.range (1024 * (n % 4 + 1)), entryAt (V c main_v0) (n / 4) k q
  | 0, h, k => by
    refine (first2 c V 0 h rfl k).trans ?_
    refine Finset.sum_congr rfl fun p _ => ?_
    rw [show 1024 * (0 % 4) + p = p from by omega]
  | n + 1, h, k => by
    by_cases h0 : (n + 1) % 4 = 0
    · refine (first2 c V (n + 1) h h0 k).trans ?_
      rw [h0]
      refine Finset.sum_congr rfl fun p _ => ?_
      rw [show 1024 * 0 + p = p from by omega]
    · refine (later2 c V n h h0 k).trans ?_
      rw [running2 n (Nat.lt_of_succ_lt h) k]
      have e1 : n / 4 = (n + 1) / 4 := by omega
      have e2 : n % 4 + 1 = (n + 1) % 4 := by omega
      rw [e1, e2, show 1024 * ((n + 1) % 4 + 1) = 1024 * ((n + 1) % 4) + 1024 from by omega, Finset.sum_range_add]

/-- What the last point of an image writes back is that image's row of the whole-image pixelSums. -/
theorem flushed2 (t : Fin cfg0.N) (hf : (cfg0.win 2).flush t = true) :
    (dat0 V c).flushed 2 t = ((cfg0.win 2).blk t).view.read (Elt Ideal) (pixelSums (V c main_v0)) := by
  have h3 : t.val % 4 = 3 := (flush0_2 t).mp hf
  have hN : t.val < 128 := lt_of_lt_of_eq t.isLt (show cfg0.N = 128 from N_0)
  obtain ⟨-, -, -, -, -, -, e0, e1, e2, -⟩ := idx_facts t
  show (cfg0.win 2).cut (grid0.coords t) ((dat0 V c).after 2 t) = _
  rw [after0_2]
  refine funext fun (j : S1x256x1.Idx) => ?_
  obtain ⟨z, k, z', rfl⟩ : ∃ (z : Fin 1) (k : Fin 256) (z' : Fin 1), j = ix3 z k z' := ⟨j 0, j 1, j 2, eq_ix3 j⟩
  obtain rfl : z = 0 := Subsingleton.elim _ _
  obtain rfl : z' = 0 := Subsingleton.elim _ _
  have hemb : ((cfg0.win 2).blk t).view.emb (ix3 (0 : Fin 1) k (0 : Fin 1)) = ix3 (⟨t.val / 4, by omega⟩ : Fin 32) k (0 : Fin 1) := by
    funext a
    apply Fin.ext
    match a with
    | ⟨0, _⟩ => show win0_2.index t (0 : Fin 3) * 1 + 1 * 0 = t.val / 4; rw [e0]; omega
    | ⟨1, _⟩ => show win0_2.index t (1 : Fin 3) * 256 + 1 * k.val = k.val; rw [e1]; omega
    | ⟨2, _⟩ => show win0_2.index t (2 : Fin 3) * 1 + 1 * 0 = 0; rw [e2]
  show ((outsAt0 V c t.val t.isLt).1 : S1x256x1.Idx → EReal) (ix3 (0 : Fin 1) k (0 : Fin 1))
    = pixelSums (V c main_v0) (((cfg0.win 2).blk t).view.emb (ix3 (0 : Fin 1) k (0 : Fin 1)))
  rw [hemb, running2 c V t.val t.isLt k, h3]
  rfl

/-- Every row of the [32, 256, 1] array is written back by the last point of its image. -/
theorem cover2 (i : S32x256x1.Idx) :
    ∃ t : Fin cfg0.N, (cfg0.win 2).flush t = true ∧ i ∈ ((cfg0.win 2).blk t).view.set := by
  have h0 : (i 0).val < 32 := (i 0).isLt
  have h1 : (i 1).val < 256 := (i 1).isLt
  have h2 : (i 2).val < 1 := (i 2).isLt
  obtain ⟨t, ht⟩ : ∃ t : Fin cfg0.N, t.val = 4 * (i 0).val + 3 :=
    ⟨⟨4 * (i 0).val + 3, lt_of_lt_of_eq (by omega : 4 * (i 0).val + 3 < 128) (N_0).symm⟩, rfl⟩
  refine ⟨t, (flush0_2 t).mpr (by omega), ?_⟩
  obtain ⟨-, -, -, -, -, -, e0, e1, e2, -⟩ := idx_facts t
  show i ∈ ((View.whole main_v2_0).slice (win0_2.rect t)).set
  rw [View.set_slice_whole, Rect.mem_set_unit]
  intro a
  match a with
  | ⟨0, _⟩ =>
    show win0_2.index t (0 : Fin 3) * 1 ≤ (i 0).val ∧ (i 0).val < win0_2.index t (0 : Fin 3) * 1 + 1
    rw [e0]; omega
  | ⟨1, _⟩ =>
    show win0_2.index t (1 : Fin 3) * 256 ≤ (i 1).val ∧ (i 1).val < win0_2.index t (1 : Fin 3) * 256 + 256
    rw [e1]; omega
  | ⟨2, _⟩ =>
    show win0_2.index t (2 : Fin 3) * 1 ≤ (i 2).val ∧ (i 2).val < win0_2.index t (2 : Fin 3) * 1 + 1
    rw [e2]; omega

/-- So the array ends holding the whole-image pixelSums. -/
theorem final2 : (dat0 V c).arrAt 2 cfg0.N = pixelSums (V c main_v0) :=
  (dat0 V c).arrAt_eq_of_cover 2 (pixelSums (V c main_v0)) (flushed2 c V) (cover2)

/-! ### Window 3: the pixelSums of `main_v1` -/

/-- The tile of point t holds, at (0, k, p), pixel 1024 (t % 4) + p of channel k of image t / 4. -/
theorem iblk1_apply (t : Fin cfg0.N) (k : Fin 256) (p : Fin 1024) (x : Vec Ideal S1x256x1024 .f32) (hx : x = iblk0 V c 1 t) :
    x (ix3 (0 : Fin 1) k p) = entryAt (V c main_v1) (t.val / 4) k (1024 * (t.val % 4) + p.val) := by
  subst hx
  have hN : t.val < 128 := lt_of_lt_of_eq t.isLt (show cfg0.N = 128 from N_0)
  have hp : p.val < 1024 := p.isLt
  obtain ⟨-, -, -, e0, e1, e2, -⟩ := idx_facts t
  unfold entryAt
  rw [dif_pos ⟨by omega, by omega⟩]
  unfold iblk0
  rw [View.read_apply]
  show V c main_v1 _ = V c main_v1 _
  congr 1
  funext a
  apply Fin.ext
  match a with
  | ⟨0, _⟩ => show win0_1.index t (0 : Fin 3) * 1 + 1 * 0 = t.val / 4; rw [e0]; omega
  | ⟨1, _⟩ => show win0_1.index t (1 : Fin 3) * 256 + 1 * k.val = k.val; rw [e1]; omega
  | ⟨2, _⟩ => show win0_1.index t (2 : Fin 3) * 1024 + 1 * p.val = 1024 * (t.val % 4) + p.val; rw [e2]; omega

/-- So the tile's lane sum at channel k is the sum of that quarter of the pixels. -/
theorem tile1_sum (t : Fin cfg0.N) (k : Fin 256) (x : Vec Ideal S1x256x1024 .f32) (hx : x = iblk0 V c 1 t) :
    ∑ p : Fin 1024, x (ix3 (0 : Fin 1) k p)
      = ∑ p ∈ Finset.range 1024, entryAt (V c main_v1) (t.val / 4) k (1024 * (t.val % 4) + p) :=
  (Finset.sum_congr rfl fun p _ => iblk1_apply c V t k p x hx).trans
    (Fin.sum_univ_eq_sum_range (fun p => entryAt (V c main_v1) (t.val / 4) k (1024 * (t.val % 4) + p)) 1024)

/-- At an image's first point the block ends at the first quarter's sum. -/
theorem first3 (n : ℕ) (h : n < cfg0.N) (h0 : n % 4 = 0) (k : Fin 256) :
    ((outsAt0 V c n h).2 : S1x256x1.Idx → EReal) (ix3 (0 : Fin 1) k (0 : Fin 1))
      = ∑ p ∈ Finset.range 1024, entryAt (V c main_v1) (n / 4) k (1024 * (n % 4) + p) := by
  refine (congrArg (fun z : Vec Ideal S1x256x1 .f32 × Vec Ideal S1x256x1 .f32 => z.2 (ix3 (0 : Fin 1) k (0 : Fin 1)))
    (outsAt0_A V c ⟨n, h⟩ h0)).trans ?_
  dsimp only
  refine (congrFun (outA3 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩)
    (ms0_3 ⟨n, h⟩) (hs0_3 ⟨n, h⟩) ((hcond0_0 ⟨n, h⟩).mpr h0) (iblk0 V c 0 ⟨n, h⟩) (iblk0 V c 1 ⟨n, h⟩)) (ix3 (0 : Fin 1) k (0 : Fin 1))).trans ?_
  refine (pay4_apply (k0_pay2 (F := Ideal)) (iblk0 V c 1 ⟨n, h⟩) k).trans ?_
  rw [pay2_apply, zero_add]
  exact tile1_sum c V ⟨n, h⟩ k (iblk0 V c 1 ⟨n, h⟩) rfl

/-- At a later point it ends at what the point before left plus this quarter's sum. -/
theorem later3 (n : ℕ) (h : n + 1 < cfg0.N) (h0 : ¬(n + 1) % 4 = 0) (k : Fin 256) :
    ((outsAt0 V c (n + 1) h).2 : S1x256x1.Idx → EReal) (ix3 (0 : Fin 1) k (0 : Fin 1))
      = ((outsAt0 V c n (Nat.lt_of_succ_lt h)).2 : S1x256x1.Idx → EReal) (ix3 (0 : Fin 1) k (0 : Fin 1))
        + ∑ p ∈ Finset.range 1024, entryAt (V c main_v1) ((n + 1) / 4) k (1024 * ((n + 1) % 4) + p) := by
  refine (congrArg (fun z : Vec Ideal S1x256x1 .f32 × Vec Ideal S1x256x1 .f32 => z.2 (ix3 (0 : Fin 1) k (0 : Fin 1)))
    (outsAt0_B V c ⟨n + 1, h⟩ h0)).trans ?_
  dsimp only
  refine (congrFun (outB3 c (grid0.coords ⟨n + 1, h⟩) (ms0_0 ⟨n + 1, h⟩) (hs0_0 ⟨n + 1, h⟩) (ms0_1 ⟨n + 1, h⟩) (hs0_1 ⟨n + 1, h⟩)
    (ms0_2 ⟨n + 1, h⟩) (hs0_2 ⟨n + 1, h⟩) (ms0_3 ⟨n + 1, h⟩) (hs0_3 ⟨n + 1, h⟩) (fun hh => h0 ((hcond0_0 ⟨n + 1, h⟩).mp hh))
    (iblk0 V c 0 ⟨n + 1, h⟩) (iblk0 V c 1 ⟨n + 1, h⟩) (outsAt0 V c n (Nat.lt_of_succ_lt h)).1 (outsAt0 V c n (Nat.lt_of_succ_lt h)).2)
    (ix3 (0 : Fin 1) k (0 : Fin 1))).trans ?_
  refine (pay4_apply (outsAt0 V c n (Nat.lt_of_succ_lt h)).2 (iblk0 V c 1 ⟨n + 1, h⟩) k).trans ?_
  exact congrArg (fun z : EReal => ((outsAt0 V c n (Nat.lt_of_succ_lt h)).2 : S1x256x1.Idx → EReal) (ix3 (0 : Fin 1) k (0 : Fin 1)) + z)
    (tile1_sum c V ⟨n + 1, h⟩ k (iblk0 V c 1 ⟨n + 1, h⟩) rfl)

/-- THE RUNNING SUM: after point n the block holds, at channel k, the sum of the first 1024 (n % 4 + 1) pixels of
    image n / 4 — by induction on the point. -/
theorem running3 : ∀ (n : ℕ) (h : n < cfg0.N) (k : Fin 256),
    ((outsAt0 V c n h).2 : S1x256x1.Idx → EReal) (ix3 (0 : Fin 1) k (0 : Fin 1))
      = ∑ q ∈ Finset.range (1024 * (n % 4 + 1)), entryAt (V c main_v1) (n / 4) k q
  | 0, h, k => by
    refine (first3 c V 0 h rfl k).trans ?_
    refine Finset.sum_congr rfl fun p _ => ?_
    rw [show 1024 * (0 % 4) + p = p from by omega]
  | n + 1, h, k => by
    by_cases h0 : (n + 1) % 4 = 0
    · refine (first3 c V (n + 1) h h0 k).trans ?_
      rw [h0]
      refine Finset.sum_congr rfl fun p _ => ?_
      rw [show 1024 * 0 + p = p from by omega]
    · refine (later3 c V n h h0 k).trans ?_
      rw [running3 n (Nat.lt_of_succ_lt h) k]
      have e1 : n / 4 = (n + 1) / 4 := by omega
      have e2 : n % 4 + 1 = (n + 1) % 4 := by omega
      rw [e1, e2, show 1024 * ((n + 1) % 4 + 1) = 1024 * ((n + 1) % 4) + 1024 from by omega, Finset.sum_range_add]

/-- What the last point of an image writes back is that image's row of the whole-image pixelSums. -/
theorem flushed3 (t : Fin cfg0.N) (hf : (cfg0.win 3).flush t = true) :
    (dat0 V c).flushed 3 t = ((cfg0.win 3).blk t).view.read (Elt Ideal) (pixelSums (V c main_v1)) := by
  have h3 : t.val % 4 = 3 := (flush0_3 t).mp hf
  have hN : t.val < 128 := lt_of_lt_of_eq t.isLt (show cfg0.N = 128 from N_0)
  obtain ⟨-, -, -, -, -, -, -, -, -, e0, e1, e2⟩ := idx_facts t
  show (cfg0.win 3).cut (grid0.coords t) ((dat0 V c).after 3 t) = _
  rw [after0_3]
  refine funext fun (j : S1x256x1.Idx) => ?_
  obtain ⟨z, k, z', rfl⟩ : ∃ (z : Fin 1) (k : Fin 256) (z' : Fin 1), j = ix3 z k z' := ⟨j 0, j 1, j 2, eq_ix3 j⟩
  obtain rfl : z = 0 := Subsingleton.elim _ _
  obtain rfl : z' = 0 := Subsingleton.elim _ _
  have hemb : ((cfg0.win 3).blk t).view.emb (ix3 (0 : Fin 1) k (0 : Fin 1)) = ix3 (⟨t.val / 4, by omega⟩ : Fin 32) k (0 : Fin 1) := by
    funext a
    apply Fin.ext
    match a with
    | ⟨0, _⟩ => show win0_3.index t (0 : Fin 3) * 1 + 1 * 0 = t.val / 4; rw [e0]; omega
    | ⟨1, _⟩ => show win0_3.index t (1 : Fin 3) * 256 + 1 * k.val = k.val; rw [e1]; omega
    | ⟨2, _⟩ => show win0_3.index t (2 : Fin 3) * 1 + 1 * 0 = 0; rw [e2]
  show ((outsAt0 V c t.val t.isLt).2 : S1x256x1.Idx → EReal) (ix3 (0 : Fin 1) k (0 : Fin 1))
    = pixelSums (V c main_v1) (((cfg0.win 3).blk t).view.emb (ix3 (0 : Fin 1) k (0 : Fin 1)))
  rw [hemb, running3 c V t.val t.isLt k, h3]
  rfl

/-- Every row of the [32, 256, 1] array is written back by the last point of its image. -/
theorem cover3 (i : S32x256x1.Idx) :
    ∃ t : Fin cfg0.N, (cfg0.win 3).flush t = true ∧ i ∈ ((cfg0.win 3).blk t).view.set := by
  have h0 : (i 0).val < 32 := (i 0).isLt
  have h1 : (i 1).val < 256 := (i 1).isLt
  have h2 : (i 2).val < 1 := (i 2).isLt
  obtain ⟨t, ht⟩ : ∃ t : Fin cfg0.N, t.val = 4 * (i 0).val + 3 :=
    ⟨⟨4 * (i 0).val + 3, lt_of_lt_of_eq (by omega : 4 * (i 0).val + 3 < 128) (N_0).symm⟩, rfl⟩
  refine ⟨t, (flush0_3 t).mpr (by omega), ?_⟩
  obtain ⟨-, -, -, -, -, -, -, -, -, e0, e1, e2⟩ := idx_facts t
  show i ∈ ((View.whole main_v2_1).slice (win0_3.rect t)).set
  rw [View.set_slice_whole, Rect.mem_set_unit]
  intro a
  match a with
  | ⟨0, _⟩ =>
    show win0_3.index t (0 : Fin 3) * 1 ≤ (i 0).val ∧ (i 0).val < win0_3.index t (0 : Fin 3) * 1 + 1
    rw [e0]; omega
  | ⟨1, _⟩ =>
    show win0_3.index t (1 : Fin 3) * 256 ≤ (i 1).val ∧ (i 1).val < win0_3.index t (1 : Fin 3) * 256 + 256
    rw [e1]; omega
  | ⟨2, _⟩ =>
    show win0_3.index t (2 : Fin 3) * 1 ≤ (i 2).val ∧ (i 2).val < win0_3.index t (2 : Fin 3) * 1 + 1
    rw [e2]; omega

/-- So the array ends holding the whole-image pixelSums. -/
theorem final3 : (dat0 V c).arrAt 3 cfg0.N = pixelSums (V c main_v1) :=
  (dat0 V c).arrAt_eq_of_cover 3 (pixelSums (V c main_v1)) (flushed3 c V) (cover3)

end Region

/-- After the region, the low band's sum array holds at (n, k, 0) the sum of channel k of image n over its pixels. -/
theorem lsum_apply (n : Fin 32) (k : Fin 256) :
    ((dat0 (V1 m ρ) c).arrAt 2 cfg0.N : S32x256x1.Idx → EReal) (ix3 n k 0)
      = ∑ p : Fin 4096, to3 (m ((c : Thread nD τ).loc main_arg0)) (ix3 n k p) := by
  refine (congrFun (final2 c (V1 m ρ)) (ix3 n k 0)).trans ?_
  refine (pixelSums_apply _ n k).trans ?_
  exact Finset.sum_congr rfl fun p _ => congrFun (W1_v0 m ρ c) (ix3 n k p)
/-- The same for the high band. -/
theorem hsum_apply (n : Fin 32) (k : Fin 256) :
    ((dat0 (V1 m ρ) c).arrAt 3 cfg0.N : S32x256x1.Idx → EReal) (ix3 n k 0)
      = ∑ p : Fin 4096, to3 (m ((c : Thread nD τ).loc main_arg1)) (ix3 n k p) := by
  refine (congrFun (final3 c (V1 m ρ)) (ix3 n k 0)).trans ?_
  refine (pixelSums_apply _ n k).trans ?_
  exact Finset.sum_congr rfl fun p _ => congrFun (W1_v1 m ρ c) (ix3 n k p)
/-- The region leaves its two input arrays as it found them. -/
theorem in0_kept : ((dat0 (V1 m ρ) c).arrAt 0 cfg0.N : S32x256x4096.Idx → EReal) = to3 (m ((c : Thread nD τ).loc main_arg0)) := by
  rw [(dat0 (V1 m ρ) c).arrAt_in 0 rfl _, A_eq0]
  exact W1_v0 m ρ c
theorem in1_kept : ((dat0 (V1 m ρ) c).arrAt 1 cfg0.N : S32x256x4096.Idx → EReal) = to3 (m ((c : Thread nD τ).loc main_arg1)) := by
  rw [(dat0 (V1 m ρ) c).arrAt_in 1 rfl _, A_eq0]
  exact W1_v1 m ρ c

end Cert.ReferenceIdeal.RGap

end
-- ==== Proof.RefHostDefs.lean ====
/-
  The host operations between the two regions, as functions of their operands: the scaling of the channel sums to
  means, the two normalisation vectors (scale and shift), the two affine layers with the ReLU between them, and one
  plus the softmax over the channels. Stated here once, for both branches.
-/
import proofs.«119149_g2000609679484958_pallasbulk_1271_18_alg».proof.Proof.Gen.ReferenceIdeal
import proofs.«119149_g2000609679484958_pallasbulk_1271_18_alg».proof.Proof.Spec
import Idealize.ShloMosaic.Lib.IdealHost
import Idealize.ShloMosaic.Lib.ValueLayout

noncomputable section

open scoped BigOperators

namespace Cert.ReferenceIdeal.RHost

open Idealize.ShloMosaic Idealize.ShloMosaic.ValueIdx
open Cert.ReferenceIdeal Cert.Fdd
open Facts₀ Facts

/-! ## The operations as functions of their operands -/

/-- The channel sums, reshaped to [32, 256] and multiplied by 1/4096. -/
def meanT (L : FVec Ideal S32x256x1 .f32) : FVec Ideal S32x256 .f32 :=
  mulf (fun i => shapeCast S32x256 L shapeCasts_S32x256x1_S32x256 i)
    (broadcastInDim S32x256 ![] bcast_S_S32x256 (constant (F := Ideal) S_ .f32 0x39800000#32))

/-- The first normalisation's scale γ / sqrt(var + ε), over the 16 hidden units. -/
def s1T (γ v : FVec Ideal S16 .f32) : FVec Ideal S16 .f32 :=
  Host.divf (F := Ideal) γ (Host.sqrt (F := Ideal) (addf v (broadcastInDim S16 ![] bcast_S_S16 (constant (F := Ideal) S_ .f32 0x3727C5AC#32))))
/-- The first normalisation's shift β - μ s. -/
def t1T (β μ s : FVec Ideal S16 .f32) : FVec Ideal S16 .f32 := subf β (mulf μ s)
/-- The second normalisation's scale, over the 256 channels. -/
def s2T (γ v : FVec Ideal S256 .f32) : FVec Ideal S256 .f32 :=
  Host.divf (F := Ideal) γ (Host.sqrt (F := Ideal) (addf v (broadcastInDim S256 ![] bcast_S_S256 (constant (F := Ideal) S_ .f32 0x3727C5AC#32))))
/-- The second normalisation's shift. -/
def t2T (β μ s : FVec Ideal S256 .f32) : FVec Ideal S256 .f32 := subf β (mulf μ s)

/-- A vector over the 16 hidden units copied into each of the 32 rows. -/
def bc16 (x : FVec Ideal S16 .f32) : FVec Ideal S32x16 .f32 :=
  broadcastInDim S32x16 ![0, 1] bcast_S1x16_S32x16_0_1 (broadcastInDim S1x16 ![1] bcast_S16_S1x16_1 x)
/-- A vector over the 256 channels copied into each of the 32 rows. -/
def bc256 (x : FVec Ideal S256 .f32) : FVec Ideal S32x256 .f32 :=
  broadcastInDim S32x256 ![0, 1] bcast_S1x256_S32x256_0_1 (broadcastInDim S1x256 ![1] bcast_S256_S1x256_1 x)
/-- A vector over the 32 rows copied along each row's 256 channels. -/
def bcRow (r : FVec Ideal S32 .f32) : FVec Ideal S32x256 .f32 :=
  broadcastInDim S32x256 ![0, 1] bcast_S32x1_S32x256_0_1 (broadcastInDim S32x1 ![0] bcast_S32_S32x1_0 r)

/-- The hidden layer: the first convolution, its bias, its normalisation, and the ReLU. -/
def hidT (g : FVec Ideal S32x256 .f32) (w1 : FVec Ideal S16x256 .f32) (b1 s1 t1 : FVec Ideal S16 .f32) : FVec Ideal S32x16 .f32 :=
  maximumf
    (addf (mulf (addf (Host.dotGeneral (F := Ideal) dot_S32x256_S256x16_S32x16_1_0_0_1_n_n none g (transpose S256x16 [1, 0] w1 transposes_S16x256_S256x16_1_0))
      (bc16 b1)) (bc16 s1)) (bc16 t1))
    (broadcastInDim S32x16 ![] bcast_S_S32x16 (constant (F := Ideal) S_ .f32 0x00000000#32))

/-- The output layer: the second convolution, its bias and its normalisation. -/
def outT (h : FVec Ideal S32x16 .f32) (w2 : FVec Ideal S256x16 .f32) (b2 s2 t2 : FVec Ideal S256 .f32) : FVec Ideal S32x256 .f32 :=
  addf (mulf (addf (Host.dotGeneral (F := Ideal) dot_S32x16_S16x256_S32x256_1_0_0_1_n_n none h (transpose S16x256 [1, 0] w2 transposes_S256x16_S16x256_1_0))
    (bc256 b2)) (bc256 s2)) (bc256 t2)

/-- One whole branch, from the channel sums and the twelve parameter arrays. -/
def branchT (L : FVec Ideal S32x256x1 .f32) (a2 : FVec Ideal S16x256 .f32) (a3 a4 a5 a6 a7 : FVec Ideal S16 .f32)
    (a8 : FVec Ideal S256x16 .f32) (a9 a10 a11 a12 a13 : FVec Ideal S256 .f32) : FVec Ideal S32x256 .f32 :=
  outT (hidT (meanT L) a2 a3 (s1T a4 a7) (t1T a5 a6 (s1T a4 a7))) a8 a9 (s2T a10 a13) (t2T a11 a12 (s2T a10 a13))

/-- Each row's largest entry, from -∞ (the reduction, then its maximum with a -∞ splat). -/
def rowMaxT (V : FVec Ideal S32x256 .f32) : FVec Ideal S32 .f32 :=
  maximumf (broadcastInDim S32 ![] bcast_S_S32 (constant (F := Ideal) S_ .f32 0xFF800000#32))
    (Host.reduce FloatOps.maximumf V (constant (F := Ideal) S_ .f32 0xFF800000#32) reducesTo_S32x256_S32_d1 h_S_)
/-- The exponentials of each row's entries less the row's largest. -/
def expT (V : FVec Ideal S32x256 .f32) : FVec Ideal S32x256 .f32 :=
  Host.exp (F := Ideal) (subf V (bcRow (rowMaxT V)))
/-- One plus the softmax along each row. -/
def softT (V : FVec Ideal S32x256 .f32) : FVec Ideal S32x256 .f32 :=
  addf (Host.divf (F := Ideal) (expT V)
      (bcRow (Host.reduceAdd (F := Ideal) (expT V) (constant (F := Ideal) S_ .f32 0x00000000#32) reducesTo_S32x256_S32_d1 h_S_)))
    (broadcastInDim S32x256 ![] bcast_S_S32x256 (constant (F := Ideal) S_ .f32 0x3F800000#32))
/-- A [32, 256] array laid out as [32, 256, 1]. -/
def col3T (X : FVec Ideal S32x256 .f32) : FVec Ideal S32x256x1 .f32 :=
  fun i => shapeCast S32x256x1 X shapeCasts_S32x256_S32x256x1 i

end Cert.ReferenceIdeal.RHost

end
-- ==== Proof.RefHostMath.lean ====
/-
  The host operations between the two regions, read at an index: the means, the normalisation vectors, the two
  affine layers and the softmax, each identified with the shared specification's formula.
-/
import proofs.«119149_g2000609679484958_pallasbulk_1271_18_alg».proof.Proof.RefHostDefs

noncomputable section

open scoped BigOperators

namespace Cert.ReferenceIdeal.RHost

open Idealize.ShloMosaic Idealize.ShloMosaic.ValueIdx
open Cert.ReferenceIdeal Cert.Fdd
open Facts₀ Facts

/-! ## The layout operations at an index -/

/-- A vector over the hidden units copied into every row reads the vector at the column. -/
theorem bc16_apply (x : FVec Ideal S16 .f32) (n : Fin 32) (j : Fin 16) : bc16 x (ix2 n j) = x (ix1 j) := by
  unfold bc16
  refine (broadcastInDim_apply _ _ _ (ix2 n j) (ix2 (0 : Fin 1) j) (fun a => match a with | ⟨0, _⟩ => rfl | ⟨1, _⟩ => rfl)).trans ?_
  exact broadcastInDim_apply _ _ _ (ix2 (0 : Fin 1) j) (ix1 j) (fun a => match a with | ⟨0, _⟩ => rfl)

/-- A vector over the channels copied into every row reads the vector at the column. -/
theorem bc256_apply (x : FVec Ideal S256 .f32) (n : Fin 32) (d : Fin 256) : bc256 x (ix2 n d) = x (ix1 d) := by
  unfold bc256
  refine (broadcastInDim_apply _ _ _ (ix2 n d) (ix2 (0 : Fin 1) d) (fun a => match a with | ⟨0, _⟩ => rfl | ⟨1, _⟩ => rfl)).trans ?_
  exact broadcastInDim_apply _ _ _ (ix2 (0 : Fin 1) d) (ix1 d) (fun a => match a with | ⟨0, _⟩ => rfl)

/-- A vector over the rows copied along every row reads the vector at the row. -/
theorem bcRow_apply (r : FVec Ideal S32 .f32) (n : Fin 32) (d : Fin 256) : bcRow r (ix2 n d) = r (ix1 n) := by
  unfold bcRow
  refine (broadcastInDim_apply _ _ _ (ix2 n d) (ix2 n (0 : Fin 1)) (fun a => match a with | ⟨0, _⟩ => rfl | ⟨1, _⟩ => rfl)).trans ?_
  exact broadcastInDim_apply _ _ _ (ix2 n (0 : Fin 1)) (ix1 n) (fun a => match a with | ⟨0, _⟩ => rfl)

/-- A [32, 256] array laid out as [32, 256, 1] has the same entries. -/
theorem col3T_apply (X : FVec Ideal S32x256 .f32) (n : Fin 32) (d : Fin 256) : col3T X (ix3 n d 0) = X (ix2 n d) := by
  unfold col3T
  exact shapeCast_apply X _ (ix3 n d (0 : Fin 1)) (ix2 n d) (by
    rw [Shape.rowMajor_val_two, Shape.rowMajor_val_three]
    show n.val * 256 + d.val = (n.val * 256 + d.val) * 1 + 0
    omega)

/-! ## The means and the normalisation vectors -/

/-- The mean of channel k of image n: the sum times 1/4096. -/
theorem meanT_apply (L : FVec Ideal S32x256x1 .f32) (n : Fin 32) (k : Fin 256) : meanT L (ix2 n k) = L (ix3 n k 0) * invW := by
  unfold meanT
  rw [mulf_apply, broadcastInDim_scalar_apply, constant_apply]
  congr 1
  exact shapeCast_apply L _ (ix2 n k) (ix3 n k (0 : Fin 1)) (by
    rw [Shape.rowMajor_val_three, Shape.rowMajor_val_two]
    show (n.val * 256 + k.val) * 1 + 0 = n.val * 256 + k.val
    omega)

theorem s1T_apply (γ v : FVec Ideal S16 .f32) (j : Fin 16) : s1T γ v (ix1 j) = bnScale (γ (ix1 j)) (v (ix1 j)) := by
  unfold s1T bnScale
  rw [hostDivf_apply]
  show Ideal.div _ (Ideal.sqrt (v (ix1 j) + broadcastInDim S16 ![] bcast_S_S16 (constant (F := Ideal) S_ .f32 0x3727C5AC#32) (ix1 j))) = _
  rw [broadcastInDim_scalar_apply, constant_apply]

theorem s2T_apply (γ v : FVec Ideal S256 .f32) (d : Fin 256) : s2T γ v (ix1 d) = bnScale (γ (ix1 d)) (v (ix1 d)) := by
  unfold s2T bnScale
  rw [hostDivf_apply]
  show Ideal.div _ (Ideal.sqrt (v (ix1 d) + broadcastInDim S256 ![] bcast_S_S256 (constant (F := Ideal) S_ .f32 0x3727C5AC#32) (ix1 d))) = _
  rw [broadcastInDim_scalar_apply, constant_apply]

theorem t1T_apply (β μ s : FVec Ideal S16 .f32) (j : Fin 16) : t1T β μ s (ix1 j) = bnShift (β (ix1 j)) (μ (ix1 j)) (s (ix1 j)) := rfl
theorem t2T_apply (β μ s : FVec Ideal S256 .f32) (d : Fin 256) : t2T β μ s (ix1 d) = bnShift (β (ix1 d)) (μ (ix1 d)) (s (ix1 d)) := rfl

/-! ## The two contractions -/

/-- The first convolution: row n of the means against row j of the weights, the weights read through their transpose. -/
theorem dot1_apply (g : FVec Ideal S32x256 .f32) (w : FVec Ideal S256x16 .f32) (n : Fin 32) (j : Fin 16) :
    Host.dotGeneral (F := Ideal) dot_S32x256_S256x16_S32x16_1_0_0_1_n_n none g w (ix2 n j) = ∑ k : Fin 256, g (ix2 n k) * w (ix2 k j) := by
  simp only [Host.dotGeneral]
  rw [Ideal.dotGeneral_apply, ← Equiv.sum_comp (contrEquiv1 dot_S32x256_S256x16_S32x16_1_0_0_1_n_n 256 rfl rfl).symm]
  refine Finset.sum_congr rfl fun k _ => ?_
  have hl : dot_S32x256_S256x16_S32x16_1_0_0_1_n_n.lhsIdx (ix2 n j) ((contrEquiv1 dot_S32x256_S256x16_S32x16_1_0_0_1_n_n 256 rfl rfl).symm k) = ix2 n k := by
    funext a
    match a with
    | ⟨0, _⟩ => exact Fin.ext rfl
    | ⟨1, _⟩ => exact Fin.ext ((DotDims.lhsIdx_val_of_single _ rfl _ _).trans (contrEquiv1_symm_val _ 256 rfl rfl k))
  have hr : dot_S32x256_S256x16_S32x16_1_0_0_1_n_n.rhsIdx (ix2 n j) ((contrEquiv1 dot_S32x256_S256x16_S32x16_1_0_0_1_n_n 256 rfl rfl).symm k) = ix2 k j := by
    funext a
    match a with
    | ⟨0, _⟩ => exact Fin.ext ((DotDims.rhsIdx_val_of_single _ rfl _ _).trans (contrEquiv1_symm_val _ 256 rfl rfl k))
    | ⟨1, _⟩ => exact Fin.ext rfl
  rw [hl, hr]

/-- The second convolution: row n of the hidden layer against row c of the weights. -/
theorem dot2_apply (h : FVec Ideal S32x16 .f32) (w : FVec Ideal S16x256 .f32) (n : Fin 32) (d : Fin 256) :
    Host.dotGeneral (F := Ideal) dot_S32x16_S16x256_S32x256_1_0_0_1_n_n none h w (ix2 n d) = ∑ j : Fin 16, h (ix2 n j) * w (ix2 j d) := by
  simp only [Host.dotGeneral]
  rw [Ideal.dotGeneral_apply, ← Equiv.sum_comp (contrEquiv1 dot_S32x16_S16x256_S32x256_1_0_0_1_n_n 16 rfl rfl).symm]
  refine Finset.sum_congr rfl fun k _ => ?_
  have hl : dot_S32x16_S16x256_S32x256_1_0_0_1_n_n.lhsIdx (ix2 n d) ((contrEquiv1 dot_S32x16_S16x256_S32x256_1_0_0_1_n_n 16 rfl rfl).symm k) = ix2 n k := by
    funext a
    match a with
    | ⟨0, _⟩ => exact Fin.ext rfl
    | ⟨1, _⟩ => exact Fin.ext ((DotDims.lhsIdx_val_of_single _ rfl _ _).trans (contrEquiv1_symm_val _ 16 rfl rfl k))
  have hr : dot_S32x16_S16x256_S32x256_1_0_0_1_n_n.rhsIdx (ix2 n d) ((contrEquiv1 dot_S32x16_S16x256_S32x256_1_0_0_1_n_n 16 rfl rfl).symm k) = ix2 k d := by
    funext a
    match a with
    | ⟨0, _⟩ => exact Fin.ext ((DotDims.rhsIdx_val_of_single _ rfl _ _).trans (contrEquiv1_symm_val _ 16 rfl rfl k))
    | ⟨1, _⟩ => exact Fin.ext rfl
  rw [hl, hr]

/-! ## The two layers and the branch -/

theorem hidT_apply (g : FVec Ideal S32x256 .f32) (w1 : FVec Ideal S16x256 .f32) (b1 s1 t1 : FVec Ideal S16 .f32) (n : Fin 32) (j : Fin 16) :
    hidT g w1 b1 s1 t1 (ix2 n j)
      = max (((∑ k : Fin 256, g (ix2 n k) * w1 (ix2 j k)) + b1 (ix1 j)) * s1 (ix1 j) + t1 (ix1 j)) 0 := by
  unfold hidT
  rw [maximumf_apply, addf_apply, mulf_apply, addf_apply, dot1_apply, bc16_apply, bc16_apply, bc16_apply,
    broadcastInDim_scalar_apply, constant_apply, Ideal.ofBits_zero_f32]
  have ht : ∀ k : Fin 256, transpose S256x16 [1, 0] w1 transposes_S16x256_S256x16_1_0 (ix2 k j) = w1 (ix2 j k) :=
    fun k => transpose_ix2_apply w1 _ k j
  simp only [ht]

theorem outT_apply (h : FVec Ideal S32x16 .f32) (w2 : FVec Ideal S256x16 .f32) (b2 s2 t2 : FVec Ideal S256 .f32) (n : Fin 32) (d : Fin 256) :
    outT h w2 b2 s2 t2 (ix2 n d) = ((∑ j : Fin 16, h (ix2 n j) * w2 (ix2 d j)) + b2 (ix1 d)) * s2 (ix1 d) + t2 (ix1 d) := by
  unfold outT
  rw [addf_apply, mulf_apply, addf_apply, dot2_apply, bc256_apply, bc256_apply, bc256_apply]
  have ht : ∀ j : Fin 16, transpose S16x256 [1, 0] w2 transposes_S256x16_S16x256_1_0 (ix2 j d) = w2 (ix2 d j) :=
    fun j => transpose_ix2_apply w2 _ j d
  simp only [ht]

/-- One branch at (n, d) is the specification's vector of the branch at the means of image n. -/
theorem branchT_apply (L : FVec Ideal S32x256x1 .f32) (a2 : FVec Ideal S16x256 .f32) (a3 a4 a5 a6 a7 : FVec Ideal S16 .f32)
    (a8 : FVec Ideal S256x16 .f32) (a9 a10 a11 a12 a13 : FVec Ideal S256 .f32) (n : Fin 32) (d : Fin 256) :
    branchT L a2 a3 a4 a5 a6 a7 a8 a9 a10 a11 a12 a13 (ix2 n d)
      = vecR (Branch.ofArrays a2 a3 a4 a5 a6 a7 a8 a9 a10 a11 a12 a13) (fun k => L (ix3 n k 0) * invW) d := by
  unfold branchT
  rw [outT_apply]
  simp only [hidT_apply, meanT_apply, s1T_apply, t1T_apply, s2T_apply, t2T_apply]
  rfl

/-! ## The softmax -/

/-- The index over row n with channel d inserted is (n, d). -/
theorem lift_row (h : S32x256.Reduces [1] S32) (n : Fin 32) (d : Fin 256) : h.lift (ix1 n) d = ix2 n d := by
  funext a
  match a with
  | ⟨0, _⟩ => exact Fin.ext rfl
  | ⟨1, _⟩ => exact Fin.ext rfl

theorem reduces_row : S32x256.Reduces [1] S32 := by decide

/-- Each row's largest entry: the maximum with the -∞ splat changes nothing, the fold already starting from -∞. -/
theorem rowMaxT_apply (V : FVec Ideal S32x256 .f32) (n : Fin 32) : rowMaxT V (ix1 n) = rowMax (fun d => V (ix2 n d)) := by
  unfold rowMaxT rowMax
  rw [maximumf_apply, broadcastInDim_scalar_apply, constant_apply,
    Host.reduce_eq_fold_single FloatOps.maximumf V _ reducesTo_S32x256_S32_d1 reduces_row h_S_ (ix1 n)]
  show max botW ((Finset.univ : Finset (Fin 256)).fold max botW (V ∘ reduces_row.lift (ix1 n))) = _
  rw [show (V ∘ reduces_row.lift (ix1 n)) = fun d => V (ix2 n d) from funext fun d => congrArg V (lift_row reduces_row n d)]
  exact max_eq_right ((Finset.le_fold_max _).mpr (Or.inl le_rfl))

theorem expT_apply (V : FVec Ideal S32x256 .f32) (n : Fin 32) (d : Fin 256) :
    expT V (ix2 n d) = Ideal.exp (V (ix2 n d) - rowMax (fun d' => V (ix2 n d'))) := by
  unfold expT
  show Ideal.exp (V (ix2 n d) - bcRow (rowMaxT V) (ix2 n d)) = _
  rw [bcRow_apply, rowMaxT_apply]

/-- One plus the softmax along row n, at channel d: the reduction's initial zero adds nothing. -/
theorem softT_apply (V : FVec Ideal S32x256 .f32) (n : Fin 32) (d : Fin 256) :
    softT V (ix2 n d) = gate (fun d' => V (ix2 n d')) d := by
  unfold softT gate
  rw [addf_apply, hostDivf_apply, bcRow_apply, broadcastInDim_scalar_apply, constant_apply, hostReduceAdd_apply,
    Ideal.hostReduceAdd_single reducesTo_S32x256_S32_d1 reduces_row, constant_apply, Ideal.ofBits_zero_f32, zero_add, expT_apply]
  show Ideal.div _ (∑ k : Fin 256, expT V (reduces_row.lift (ix1 n) k)) + _ = _
  simp only [lift_row, expT_apply]

end Cert.ReferenceIdeal.RHost

end
-- ==== Proof.RefHostLow.lean ====
/-
  The low branch's host operations, composed: what the buffers that the second region reads hold after the host
  operations between the regions, as the branch and softmax functions of the first region's sums and the parameter
  arrays. Each buffer's contents are computed by walking the operations' results back to the operands.
-/
import proofs.«119149_g2000609679484958_pallasbulk_1271_18_alg».proof.Proof.Gen.ReferenceIdeal.Frame
import proofs.«119149_g2000609679484958_pallasbulk_1271_18_alg».proof.Proof.RefHostDefs

noncomputable section

open scoped BigOperators

namespace Cert.ReferenceIdeal.RHost

open Idealize.ShloMosaic Idealize.ShloMosaic.TcCoe Idealize.ShloMosaic.ValueIdx Idealize.SL.Sem
open Cert.ReferenceIdeal Cert.ReferenceIdeal.Gen Cert.Fdd

variable (m : (ℓ : Loc nD τ sig) → Buf (Elt Ideal) ℓ) (ρ : Dev nD → PrngReg) (c : Dev nD)

set_option maxHeartbeats 40000000 in
/-- The low branch's vector over the first region's sums and the parameter arrays. -/
theorem W3_v44_eq : (W3 m ρ c (Proc.devRef .tc main_v44) : S32x256.Idx → EReal)
    = branchT (W2 m ρ c (Proc.devRef .tc main_v2_0)) (W2 m ρ c (Proc.devRef .tc main_arg2)) (W2 m ρ c (Proc.devRef .tc main_arg3)) (W2 m ρ c (Proc.devRef .tc main_arg4)) (W2 m ρ c (Proc.devRef .tc main_arg5))
        (W2 m ρ c (Proc.devRef .tc main_arg6)) (W2 m ρ c (Proc.devRef .tc main_arg7)) (W2 m ρ c (Proc.devRef .tc main_arg8)) (W2 m ρ c (Proc.devRef .tc main_arg9))
        (W2 m ρ c (Proc.devRef .tc main_arg10)) (W2 m ρ c (Proc.devRef .tc main_arg11)) (W2 m ρ c (Proc.devRef .tc main_arg12)) (W2 m ρ c (Proc.devRef .tc main_arg13)) := by
  show StableHlo.after hostOps1 (W2 m ρ c) (Proc.devRef .tc main_v44) = _
  unfold branchT outT hidT meanT s1T t1T s2T t2T bc16 bc256
  after_results_simp
  rfl

set_option maxHeartbeats 40000000 in
/-- The low branch's vector laid out as [32, 256, 1]. -/
theorem W3_v109_eq : (W3 m ρ c (Proc.devRef .tc main_v109) : S32x256x1.Idx → EReal)
    = col3T (W3 m ρ c (Proc.devRef .tc main_v44)) := by
  show StableHlo.after hostOps1 (W2 m ρ c) (Proc.devRef .tc main_v109)
    = col3T (StableHlo.after hostOps1 (W2 m ρ c) (Proc.devRef .tc main_v44))
  unfold col3T
  after_results_simp
  rfl

set_option maxHeartbeats 40000000 in
/-- One plus the softmax of the low branch's vector, laid out as [32, 256, 1]. -/
theorem W3_v94_eq : (W3 m ρ c (Proc.devRef .tc main_v94) : S32x256x1.Idx → EReal)
    = col3T (softT (W3 m ρ c (Proc.devRef .tc main_v44))) := by
  show StableHlo.after hostOps1 (W2 m ρ c) (Proc.devRef .tc main_v94)
    = col3T (softT (StableHlo.after hostOps1 (W2 m ρ c) (Proc.devRef .tc main_v44)))
  unfold col3T softT expT rowMaxT bcRow
  after_results_simp
  rfl

end Cert.ReferenceIdeal.RHost

end
-- ==== Proof.RefHostHigh.lean ====
/-
  The high branch's host operations, composed: what the buffer that the second region reads holds after the host
  operations between the regions, as the branch and softmax functions of the first region's sums and the parameter
  arrays.
-/
import proofs.«119149_g2000609679484958_pallasbulk_1271_18_alg».proof.Proof.Gen.ReferenceIdeal.Frame
import proofs.«119149_g2000609679484958_pallasbulk_1271_18_alg».proof.Proof.RefHostDefs

noncomputable section

open scoped BigOperators

namespace Cert.ReferenceIdeal.RHost

open Idealize.ShloMosaic Idealize.ShloMosaic.TcCoe Idealize.ShloMosaic.ValueIdx Idealize.SL.Sem
open Cert.ReferenceIdeal Cert.ReferenceIdeal.Gen Cert.Fdd

variable (m : (ℓ : Loc nD τ sig) → Buf (Elt Ideal) ℓ) (ρ : Dev nD → PrngReg) (c : Dev nD)

set_option maxHeartbeats 40000000 in
/-- The high branch's vector over the first region's sums and the parameter arrays. -/
theorem W3_v80_eq : (W3 m ρ c (Proc.devRef .tc main_v80) : S32x256.Idx → EReal)
    = branchT (W2 m ρ c (Proc.devRef .tc main_v2_1)) (W2 m ρ c (Proc.devRef .tc main_arg14)) (W2 m ρ c (Proc.devRef .tc main_arg15)) (W2 m ρ c (Proc.devRef .tc main_arg16)) (W2 m ρ c (Proc.devRef .tc main_arg17))
        (W2 m ρ c (Proc.devRef .tc main_arg18)) (W2 m ρ c (Proc.devRef .tc main_arg19)) (W2 m ρ c (Proc.devRef .tc main_arg20)) (W2 m ρ c (Proc.devRef .tc main_arg21))
        (W2 m ρ c (Proc.devRef .tc main_arg22)) (W2 m ρ c (Proc.devRef .tc main_arg23)) (W2 m ρ c (Proc.devRef .tc main_arg24)) (W2 m ρ c (Proc.devRef .tc main_arg25)) := by
  show StableHlo.after hostOps1 (W2 m ρ c) (Proc.devRef .tc main_v80) = _
  unfold branchT outT hidT meanT s1T t1T s2T t2T bc16 bc256
  after_results_simp
  rfl

set_option maxHeartbeats 40000000 in
/-- One plus the softmax of the high branch's vector, laid out as [32, 256, 1]. -/
theorem W3_v108_eq : (W3 m ρ c (Proc.devRef .tc main_v108) : S32x256x1.Idx → EReal)
    = col3T (softT (W3 m ρ c (Proc.devRef .tc main_v80))) := by
  show StableHlo.after hostOps1 (W2 m ρ c) (Proc.devRef .tc main_v108)
    = col3T (softT (StableHlo.after hostOps1 (W2 m ρ c) (Proc.devRef .tc main_v80)))
  unfold col3T softT expT rowMaxT bcRow
  after_results_simp
  rfl

end Cert.ReferenceIdeal.RHost

end
-- ==== Proof.RefHost.lean ====
/-
  The host operations between the two regions of the two-pass program: from the per-channel pixel sums they form
  the means, run each branch (convolution, normalisation, ReLU, convolution, normalisation — the normalisation
  applied after each convolution) and take one plus the softmax over the channels; the results are laid out as
  [32, 256, 1] arrays for the second region.
-/
import proofs.«119149_g2000609679484958_pallasbulk_1271_18_alg».proof.Proof.Gen.ReferenceIdeal.Frame
import proofs.«119149_g2000609679484958_pallasbulk_1271_18_alg».proof.Proof.Spec
import proofs.«119149_g2000609679484958_pallasbulk_1271_18_alg».proof.Proof.RefHostMath
import proofs.«119149_g2000609679484958_pallasbulk_1271_18_alg».proof.Proof.RefHostLow
import proofs.«119149_g2000609679484958_pallasbulk_1271_18_alg».proof.Proof.RefHostHigh

noncomputable section

open scoped BigOperators

namespace Cert.ReferenceIdeal.RHost

open Idealize.ShloMosaic Idealize.ShloMosaic.TcCoe Idealize.ShloMosaic.ValueIdx Idealize.SL.Sem
open Cert.ReferenceIdeal Cert.ReferenceIdeal.Gen Cert.Fdd

variable (m : (ℓ : Loc nD τ sig) → Buf (Elt Ideal) ℓ) (ρ : Dev nD → PrngReg) (c : Dev nD)

/-- The low branch's parameters, read off the argument arrays. -/
def BL : Branch := Branch.ofArrays (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
/-- The high branch's parameters. -/
def BH : Branch := Branch.ofArrays (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25))

/-- The two sum arrays as the first region leaves them. -/
def lsumArr : S32x256x1.Idx → EReal := W2 m ρ c (Proc.devRef .tc main_v2_0)
def hsumArr : S32x256x1.Idx → EReal := W2 m ρ c (Proc.devRef .tc main_v2_1)

/-- The channel means the host forms from those sums: the sum times 1/4096. -/
def gL (n : Fin 32) (k : Fin 256) : EReal := lsumArr m ρ c (ix3 n k 0) * invW
def gH (n : Fin 32) (k : Fin 256) : EReal := hsumArr m ρ c (ix3 n k 0) * invW

/-- A parameter array holds at the first region's exit what it held at the launch: no window of the first region
    is a parameter array, and the two reshapes before it write only the reshaped images. -/
theorem W2_arg (b : Ref sig .tc) (hb : ∀ w, Pipeline.arrRef spec0 w ≠ b) (h0 : b ≠ main_v0) (h1 : b ≠ main_v1) :
    W2 m ρ c (Proc.devRef .tc b) = m ((c : Thread nD τ).loc b) :=
  calc W2 m ρ c (Proc.devRef .tc b)
    _ = W1 m ρ c (Proc.devRef .tc b) := W2_of_ne m ρ c b hb
    _ = W0 m ρ c (Proc.devRef .tc b) := StableHlo.after_of_forall_not_mem (b := Proc.devRef .tc b) _ _ (List.forall_iff_forall_mem.mp (by
          simp only [hostOps0, List.Forall, StableHlo.reshape_writes, Finset.mem_singleton]
          exact ⟨StableHlo.devRef_ne_of_ne h0, StableHlo.devRef_ne_of_ne h1⟩))
    _ = m ((c : Thread nD τ).loc b) := rfl

/-- The low branch's parameters are the launch's parameter arrays. -/
theorem BL_eq : Branch.ofArrays (W2 m ρ c (Proc.devRef .tc main_arg2)) (W2 m ρ c (Proc.devRef .tc main_arg3)) (W2 m ρ c (Proc.devRef .tc main_arg4)) (W2 m ρ c (Proc.devRef .tc main_arg5)) (W2 m ρ c (Proc.devRef .tc main_arg6)) (W2 m ρ c (Proc.devRef .tc main_arg7)) (W2 m ρ c (Proc.devRef .tc main_arg8)) (W2 m ρ c (Proc.devRef .tc main_arg9)) (W2 m ρ c (Proc.devRef .tc main_arg10)) (W2 m ρ c (Proc.devRef .tc main_arg11)) (W2 m ρ c (Proc.devRef .tc main_arg12)) (W2 m ρ c (Proc.devRef .tc main_arg13)) = BL m c := by
  unfold BL
  rw [W2_arg m ρ c main_arg2 (by decide) (by decide) (by decide),
    W2_arg m ρ c main_arg3 (by decide) (by decide) (by decide),
    W2_arg m ρ c main_arg4 (by decide) (by decide) (by decide),
    W2_arg m ρ c main_arg5 (by decide) (by decide) (by decide),
    W2_arg m ρ c main_arg6 (by decide) (by decide) (by decide),
    W2_arg m ρ c main_arg7 (by decide) (by decide) (by decide),
    W2_arg m ρ c main_arg8 (by decide) (by decide) (by decide),
    W2_arg m ρ c main_arg9 (by decide) (by decide) (by decide),
    W2_arg m ρ c main_arg10 (by decide) (by decide) (by decide),
    W2_arg m ρ c main_arg11 (by decide) (by decide) (by decide),
    W2_arg m ρ c main_arg12 (by decide) (by decide) (by decide),
    W2_arg m ρ c main_arg13 (by decide) (by decide) (by decide)]

/-- The high branch's parameters likewise. -/
theorem BH_eq : Branch.ofArrays (W2 m ρ c (Proc.devRef .tc main_arg14)) (W2 m ρ c (Proc.devRef .tc main_arg15)) (W2 m ρ c (Proc.devRef .tc main_arg16)) (W2 m ρ c (Proc.devRef .tc main_arg17)) (W2 m ρ c (Proc.devRef .tc main_arg18)) (W2 m ρ c (Proc.devRef .tc main_arg19)) (W2 m ρ c (Proc.devRef .tc main_arg20)) (W2 m ρ c (Proc.devRef .tc main_arg21)) (W2 m ρ c (Proc.devRef .tc main_arg22)) (W2 m ρ c (Proc.devRef .tc main_arg23)) (W2 m ρ c (Proc.devRef .tc main_arg24)) (W2 m ρ c (Proc.devRef .tc main_arg25)) = BH m c := by
  unfold BH
  rw [W2_arg m ρ c main_arg14 (by decide) (by decide) (by decide),
    W2_arg m ρ c main_arg15 (by decide) (by decide) (by decide),
    W2_arg m ρ c main_arg16 (by decide) (by decide) (by decide),
    W2_arg m ρ c main_arg17 (by decide) (by decide) (by decide),
    W2_arg m ρ c main_arg18 (by decide) (by decide) (by decide),
    W2_arg m ρ c main_arg19 (by decide) (by decide) (by decide),
    W2_arg m ρ c main_arg20 (by decide) (by decide) (by decide),
    W2_arg m ρ c main_arg21 (by decide) (by decide) (by decide),
    W2_arg m ρ c main_arg22 (by decide) (by decide) (by decide),
    W2_arg m ρ c main_arg23 (by decide) (by decide) (by decide),
    W2_arg m ρ c main_arg24 (by decide) (by decide) (by decide),
    W2_arg m ρ c main_arg25 (by decide) (by decide) (by decide)]

/-- The low branch's vector at (n, d). -/
theorem W3_v44_apply (n : Fin 32) (d : Fin 256) :
    (W3 m ρ c (Proc.devRef .tc main_v44) : S32x256.Idx → EReal) (ix2 n d) = vecR (BL m c) (gL m ρ c n) d := by
  rw [W3_v44_eq, branchT_apply, BL_eq]
  rfl

/-- The high branch's vector at (n, d). -/
theorem W3_v80_apply (n : Fin 32) (d : Fin 256) :
    (W3 m ρ c (Proc.devRef .tc main_v80) : S32x256.Idx → EReal) (ix2 n d) = vecR (BH m c) (gH m ρ c n) d := by
  rw [W3_v80_eq, branchT_apply, BH_eq]
  rfl

/-- The low branch's vector, as the second region receives it. -/
theorem W3_v109 (n : Fin 32) (d : Fin 256) :
    (W3 m ρ c (Proc.devRef .tc main_v109) : S32x256x1.Idx → EReal) (ix3 n d 0) = vecR (BL m c) (gL m ρ c n) d := by
  rw [W3_v109_eq, col3T_apply, W3_v44_apply]
/-- One plus the softmax of the low branch's vector. -/
theorem W3_v94 (n : Fin 32) (d : Fin 256) :
    (W3 m ρ c (Proc.devRef .tc main_v94) : S32x256x1.Idx → EReal) (ix3 n d 0) = gate (vecR (BL m c) (gL m ρ c n)) d := by
  rw [W3_v94_eq, col3T_apply, softT_apply]
  exact congrArg (fun v => gate v d) (funext fun d' => W3_v44_apply m ρ c n d')
/-- One plus the softmax of the high branch's vector. -/
theorem W3_v108 (n : Fin 32) (d : Fin 256) :
    (W3 m ρ c (Proc.devRef .tc main_v108) : S32x256x1.Idx → EReal) (ix3 n d 0) = gate (vecR (BH m c) (gH m ρ c n)) d := by
  rw [W3_v108_eq, col3T_apply, softT_apply]
  exact congrArg (fun v => gate v d) (funext fun d' => W3_v80_apply m ρ c n d')
/-- The host operations between the regions leave the reshaped images alone. -/
theorem W3_v0 : (W3 m ρ c (Proc.devRef .tc main_v0) : S32x256x4096.Idx → EReal) = W2 m ρ c (Proc.devRef .tc main_v0) :=
  StableHlo.after_of_forall_not_mem (b := Proc.devRef .tc main_v0) _ _ (List.forall_iff_forall_mem.mp (by
    simp only [hostOps1, List.Forall, StableHlo.nullary_writes, StableHlo.unary_writes, StableHlo.binary_writes,
      StableHlo.reshape_writes, Finset.mem_singleton]
    repeat' apply And.intro
    all_goals exact StableHlo.devRef_ne_of_ne (by decide)))
theorem W3_v1 : (W3 m ρ c (Proc.devRef .tc main_v1) : S32x256x4096.Idx → EReal) = W2 m ρ c (Proc.devRef .tc main_v1) :=
  StableHlo.after_of_forall_not_mem (b := Proc.devRef .tc main_v1) _ _ (List.forall_iff_forall_mem.mp (by
    simp only [hostOps1, List.Forall, StableHlo.nullary_writes, StableHlo.unary_writes, StableHlo.binary_writes,
      StableHlo.reshape_writes, Finset.mem_singleton]
    repeat' apply And.intro
    all_goals exact StableHlo.devRef_ne_of_ne (by decide)))

end Cert.ReferenceIdeal.RHost

end
-- ==== Proof.RefApplyPay.lean ====
/-
  The second region of the two-pass program, inside one block: what its body stores at each entry of its two output
  blocks (the image entry times the channel's gate, the low band adding the branch vector's entry), and how the
  printed index maps of its seven windows move over the 32 x 4 grid.
-/
import proofs.«119149_g2000609679484958_pallasbulk_1271_18_alg».proof.Proof.Gen.ReferenceIdeal.Frame
import Idealize.ShloMosaic.Lib.Pipeline.Value
import Idealize.ShloMosaic.Lib.ValueLayout
import Idealize.ShloMosaic.Lib.ValueIdx

noncomputable section

open scoped BigOperators

namespace Cert.ReferenceIdeal.RApply

open Idealize.ShloMosaic Idealize.ShloMosaic.TcCoe Idealize.ShloMosaic.ValueIdx Idealize.SL.Sem
open Cert.ReferenceIdeal Cert.ReferenceIdeal.Gen

/-- A column [a, 1] broadcast to [a, b] reads, at (i, j), the column's entry of row i. -/
theorem broadcastTo_a1_ab_apply {α : Type} {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- The low band's stored value at (0, d, p): the image entry times the gate of channel d, plus the branch vector's entry. -/
theorem lo_pay_apply (x0 : Vec Ideal S1x256x1024 .f32) (x2 x4 : Vec Ideal S1x256x1 .f32) (d : Fin 256) (p : Fin 1024) :
    k1_pay2 x0 x2 x4 (ix3 (0 : Fin 1) d p)
      = x0 (ix3 (0 : Fin 1) d p) * x2 (ix3 (0 : Fin 1) d (0 : Fin 1)) + x4 (ix3 (0 : Fin 1) d (0 : Fin 1)) := by
  unfold k1_pay2
  refine (shapeCast_ab_1ab_apply _ _ (0 : Fin 1) d p).trans ?_
  refine congrArg₂ (· + ·) (congrArg₂ (· * ·) ?_ ?_) ?_
  · exact shapeCast_1ab_ab_apply x0 _ d p
  · exact (broadcastTo_a1_ab_apply _ _ d p).trans (shapeCast_1ab_ab_apply x2 _ d (0 : Fin 1))
  · exact (broadcastTo_a1_ab_apply _ _ d p).trans (shapeCast_1ab_ab_apply x4 _ d (0 : Fin 1))

/-- The high band's stored value at (0, d, p): the image entry times the gate of channel d. -/
theorem hi_pay_apply (x1 : Vec Ideal S1x256x1024 .f32) (x3 : Vec Ideal S1x256x1 .f32) (d : Fin 256) (p : Fin 1024) :
    k1_pay1 x1 x3 (ix3 (0 : Fin 1) d p) = x1 (ix3 (0 : Fin 1) d p) * x3 (ix3 (0 : Fin 1) d (0 : Fin 1)) := by
  unfold k1_pay1
  refine (shapeCast_ab_1ab_apply _ _ (0 : Fin 1) d p).trans ?_
  refine congrArg₂ (· * ·) ?_ ?_
  · exact shapeCast_1ab_ab_apply x1 _ d p
  · exact (broadcastTo_a1_ab_apply _ _ d p).trans (shapeCast_1ab_ab_apply x3 _ d (0 : Fin 1))

/-- The zero offsets of a whole-block access, however spelt. -/
theorem zeros3 : (![0, 0, 0] : Fin 3 → Nat) = fun _ => 0 := funext fun a => by fin_cases a <;> rfl

/-- Every index of a [1, a, b] block is (0, d, p). -/
theorem exists_ix3_one {a b : ℕ} (j : (⟨3, ![1, a, b]⟩ : Shape).Idx) : ∃ (d : Fin a) (p : Fin b), j = ix3 (0 : Fin 1) d p :=
  ⟨j 1, j 2, (eq_ix3 j).trans (congrArg (fun u : Fin 1 => ix3 u (j 1) (j 2)) (Subsingleton.elim (α := Fin 1) (j 0) 0))⟩

/-- What the body leaves in the low band's output block, entry by entry. -/
theorem out5_apply (x0 x1 : Vec Ideal S1x256x1024 .f32) (x2 x3 x4 : Vec Ideal S1x256x1 .f32) (d : Fin 256) (p : Fin 1024) :
    out1_5 x0 x1 x2 x3 x4 (ix3 (0 : Fin 1) d p)
      = x0 (ix3 (0 : Fin 1) d p) * x2 (ix3 (0 : Fin 1) d (0 : Fin 1)) + x4 (ix3 (0 : Fin 1) d (0 : Fin 1)) := by
  unfold out1_5
  rw [View.canon_unit_zero zeros3]
  simp only [View.ld_unit_zero (S := S1x256x1024) zeros3, View.ld_unit_zero (S := S1x256x1) zeros3]
  exact lo_pay_apply x0 x2 x4 d p

/-- What the body leaves in the high band's output block, entry by entry. -/
theorem out6_apply (x0 x1 : Vec Ideal S1x256x1024 .f32) (x2 x3 x4 : Vec Ideal S1x256x1 .f32) (d : Fin 256) (p : Fin 1024) :
    out1_6 x0 x1 x2 x3 x4 (ix3 (0 : Fin 1) d p) = x1 (ix3 (0 : Fin 1) d p) * x3 (ix3 (0 : Fin 1) d (0 : Fin 1)) := by
  unfold out1_6
  rw [View.canon_unit_zero zeros3]
  simp only [View.ld_unit_zero (S := S1x256x1024) zeros3, View.ld_unit_zero (S := S1x256x1) zeros3]
  exact hi_pay_apply x1 x3 d p

/-- The printed index maps over the grid: the image windows and the output windows move together, the three
    per-channel windows follow the image index only, and the block indices stay in their ranges. -/
theorem idx_facts : ∀ t : Fin cfg1.N,
    win1_0.index t (0 : Fin 3) = win1_5.index t (0 : Fin 3) ∧ win1_0.index t (1 : Fin 3) = 0 ∧ win1_0.index t (2 : Fin 3) = win1_5.index t (2 : Fin 3)
    ∧ win1_1.index t (0 : Fin 3) = win1_5.index t (0 : Fin 3) ∧ win1_1.index t (1 : Fin 3) = 0 ∧ win1_1.index t (2 : Fin 3) = win1_5.index t (2 : Fin 3)
    ∧ win1_2.index t (0 : Fin 3) = win1_5.index t (0 : Fin 3) ∧ win1_2.index t (1 : Fin 3) = 0 ∧ win1_2.index t (2 : Fin 3) = 0
    ∧ win1_3.index t (0 : Fin 3) = win1_5.index t (0 : Fin 3) ∧ win1_3.index t (1 : Fin 3) = 0 ∧ win1_3.index t (2 : Fin 3) = 0
    ∧ win1_4.index t (0 : Fin 3) = win1_5.index t (0 : Fin 3) ∧ win1_4.index t (1 : Fin 3) = 0 ∧ win1_4.index t (2 : Fin 3) = 0
    ∧ win1_6.index t (0 : Fin 3) = win1_5.index t (0 : Fin 3) ∧ win1_6.index t (1 : Fin 3) = 0 ∧ win1_6.index t (2 : Fin 3) = win1_5.index t (2 : Fin 3)
    ∧ win1_5.index t (0 : Fin 3) ≤ 31 ∧ win1_5.index t (1 : Fin 3) = 0 ∧ win1_5.index t (2 : Fin 3) ≤ 3 :=
  (by decide +kernel : ∀ t : Fin grid1.N, _)

/-- Every block of the output arrays is some point's. -/
theorem idx_onto : ∀ (q0 : Fin 32) (q2 : Fin 4), ∃ t : Fin cfg1.N, win1_5.index t = ![q0.val, 0, q2.val] :=
  (by decide +kernel : ∀ (q0 : Fin 32) (q2 : Fin 4), ∃ t : Fin grid1.N, win1_5.index t = ![q0.val, 0, q2.val])

end Cert.ReferenceIdeal.RApply

end
-- ==== Proof.RefApply.lean ====
/-
  The second region of the two-pass program over its arrays: at grid point (n, j) it reads tile j of image n of each
  band and the three per-channel columns of image n, and writes tile j of image n of each output. The 128 tiles cover
  the output arrays, so each ends holding one function of the region's entry contents.
-/
import proofs.«119149_g2000609679484958_pallasbulk_1271_18_alg».proof.Proof.RefApplyPay
import proofs.«119149_g2000609679484958_pallasbulk_1271_18_alg».proof.Proof.Spec

noncomputable section

open scoped BigOperators

namespace Cert.ReferenceIdeal.RApply

open Idealize.ShloMosaic Idealize.ShloMosaic.TcCoe Idealize.ShloMosaic.ValueIdx Idealize.SL.Sem
open Cert.ReferenceIdeal Cert.ReferenceIdeal.Gen Cert.Fdd
open Idealize.ShloMosaic.Pipeline (Dat)

/-- The low band's output array from the image and the two per-channel arrays: the image entry times the gate of its
    image and channel, plus the branch vector's entry. -/
def loOf (X : S3.Idx → EReal) (g v : S32x256x1.Idx → EReal) : S3.Idx → EReal :=
  arr3 fun n d q => X (ix3 n d q) * g (ix3 n d (0 : Fin 1)) + v (ix3 n d (0 : Fin 1))

/-- The high band's output array from the image and its gate array. -/
def hiOf (Y : S3.Idx → EReal) (g : S32x256x1.Idx → EReal) : S3.Idx → EReal :=
  arr3 fun n d q => Y (ix3 n d q) * g (ix3 n d (0 : Fin 1))

theorem loOf_apply (X : S3.Idx → EReal) (g v : S32x256x1.Idx → EReal) (n : Fin 32) (d : Fin 256) (q : Fin 4096) :
    loOf X g v (ix3 n d q) = X (ix3 n d q) * g (ix3 n d (0 : Fin 1)) + v (ix3 n d (0 : Fin 1)) := rfl

theorem hiOf_apply (Y : S3.Idx → EReal) (g : S32x256x1.Idx → EReal) (n : Fin 32) (d : Fin 256) (q : Fin 4096) :
    hiOf Y g (ix3 n d q) = Y (ix3 n d q) * g (ix3 n d (0 : Fin 1)) := rfl

/-! ## Where a block's entry sits in its array: block index times block size plus the coordinate inside -/

theorem emb_w0 (t : Fin cfg1.N) (d : Fin 256) (p : Fin 1024) (n : Fin 32) (q : Fin 4096)
    (hn : n.val = win1_5.index t (0 : Fin 3)) (hq : q.val = win1_5.index t (2 : Fin 3) * 1024 + p.val) :
    (((cfg1.win 0).blk t).view.emb (ix3 (0 : Fin 1) d p : S1x256x1024.Idx) : S3.Idx) = ix3 n d q := by
  obtain ⟨e00, e01, e02, e10, e11, e12, e20, e21, e22, e30, e31, e32, e40, e41, e42, e60, e61, e62, b0, b1, b2⟩ := idx_facts t
  funext a; apply Fin.ext
  match a with
  | ⟨0, _⟩ => show win1_0.index t (0 : Fin 3) * 1 + 1 * 0 = n.val; omega
  | ⟨1, _⟩ => show win1_0.index t (1 : Fin 3) * 256 + 1 * d.val = d.val; omega
  | ⟨2, _⟩ => show win1_0.index t (2 : Fin 3) * 1024 + 1 * p.val = q.val; omega

theorem emb_w1 (t : Fin cfg1.N) (d : Fin 256) (p : Fin 1024) (n : Fin 32) (q : Fin 4096)
    (hn : n.val = win1_5.index t (0 : Fin 3)) (hq : q.val = win1_5.index t (2 : Fin 3) * 1024 + p.val) :
    (((cfg1.win 1).blk t).view.emb (ix3 (0 : Fin 1) d p : S1x256x1024.Idx) : S3.Idx) = ix3 n d q := by
  obtain ⟨e00, e01, e02, e10, e11, e12, e20, e21, e22, e30, e31, e32, e40, e41, e42, e60, e61, e62, b0, b1, b2⟩ := idx_facts t
  funext a; apply Fin.ext
  match a with
  | ⟨0, _⟩ => show win1_1.index t (0 : Fin 3) * 1 + 1 * 0 = n.val; omega
  | ⟨1, _⟩ => show win1_1.index t (1 : Fin 3) * 256 + 1 * d.val = d.val; omega
  | ⟨2, _⟩ => show win1_1.index t (2 : Fin 3) * 1024 + 1 * p.val = q.val; omega

theorem emb_w5 (t : Fin cfg1.N) (d : Fin 256) (p : Fin 1024) (n : Fin 32) (q : Fin 4096)
    (hn : n.val = win1_5.index t (0 : Fin 3)) (hq : q.val = win1_5.index t (2 : Fin 3) * 1024 + p.val) :
    (((cfg1.win 5).blk t).view.emb (ix3 (0 : Fin 1) d p : S1x256x1024.Idx) : S3.Idx) = ix3 n d q := by
  obtain ⟨e00, e01, e02, e10, e11, e12, e20, e21, e22, e30, e31, e32, e40, e41, e42, e60, e61, e62, b0, b1, b2⟩ := idx_facts t
  funext a; apply Fin.ext
  match a with
  | ⟨0, _⟩ => show win1_5.index t (0 : Fin 3) * 1 + 1 * 0 = n.val; omega
  | ⟨1, _⟩ => show win1_5.index t (1 : Fin 3) * 256 + 1 * d.val = d.val; omega
  | ⟨2, _⟩ => show win1_5.index t (2 : Fin 3) * 1024 + 1 * p.val = q.val; omega

theorem emb_w6 (t : Fin cfg1.N) (d : Fin 256) (p : Fin 1024) (n : Fin 32) (q : Fin 4096)
    (hn : n.val = win1_5.index t (0 : Fin 3)) (hq : q.val = win1_5.index t (2 : Fin 3) * 1024 + p.val) :
    (((cfg1.win 6).blk t).view.emb (ix3 (0 : Fin 1) d p : S1x256x1024.Idx) : S3.Idx) = ix3 n d q := by
  obtain ⟨e00, e01, e02, e10, e11, e12, e20, e21, e22, e30, e31, e32, e40, e41, e42, e60, e61, e62, b0, b1, b2⟩ := idx_facts t
  funext a; apply Fin.ext
  match a with
  | ⟨0, _⟩ => show win1_6.index t (0 : Fin 3) * 1 + 1 * 0 = n.val; omega
  | ⟨1, _⟩ => show win1_6.index t (1 : Fin 3) * 256 + 1 * d.val = d.val; omega
  | ⟨2, _⟩ => show win1_6.index t (2 : Fin 3) * 1024 + 1 * p.val = q.val; omega

theorem emb_w2 (t : Fin cfg1.N) (d : Fin 256) (n : Fin 32) (hn : n.val = win1_5.index t (0 : Fin 3)) :
    (((cfg1.win 2).blk t).view.emb (ix3 (0 : Fin 1) d (0 : Fin 1) : S1x256x1.Idx) : S32x256x1.Idx) = ix3 n d (0 : Fin 1) := by
  obtain ⟨e00, e01, e02, e10, e11, e12, e20, e21, e22, e30, e31, e32, e40, e41, e42, e60, e61, e62, b0, b1, b2⟩ := idx_facts t
  funext a; apply Fin.ext
  match a with
  | ⟨0, _⟩ => show win1_2.index t (0 : Fin 3) * 1 + 1 * 0 = n.val; omega
  | ⟨1, _⟩ => show win1_2.index t (1 : Fin 3) * 256 + 1 * d.val = d.val; omega
  | ⟨2, _⟩ => show win1_2.index t (2 : Fin 3) * 1 + 1 * 0 = 0; omega

theorem emb_w3 (t : Fin cfg1.N) (d : Fin 256) (n : Fin 32) (hn : n.val = win1_5.index t (0 : Fin 3)) :
    (((cfg1.win 3).blk t).view.emb (ix3 (0 : Fin 1) d (0 : Fin 1) : S1x256x1.Idx) : S32x256x1.Idx) = ix3 n d (0 : Fin 1) := by
  obtain ⟨e00, e01, e02, e10, e11, e12, e20, e21, e22, e30, e31, e32, e40, e41, e42, e60, e61, e62, b0, b1, b2⟩ := idx_facts t
  funext a; apply Fin.ext
  match a with
  | ⟨0, _⟩ => show win1_3.index t (0 : Fin 3) * 1 + 1 * 0 = n.val; omega
  | ⟨1, _⟩ => show win1_3.index t (1 : Fin 3) * 256 + 1 * d.val = d.val; omega
  | ⟨2, _⟩ => show win1_3.index t (2 : Fin 3) * 1 + 1 * 0 = 0; omega

theorem emb_w4 (t : Fin cfg1.N) (d : Fin 256) (n : Fin 32) (hn : n.val = win1_5.index t (0 : Fin 3)) :
    (((cfg1.win 4).blk t).view.emb (ix3 (0 : Fin 1) d (0 : Fin 1) : S1x256x1.Idx) : S32x256x1.Idx) = ix3 n d (0 : Fin 1) := by
  obtain ⟨e00, e01, e02, e10, e11, e12, e20, e21, e22, e30, e31, e32, e40, e41, e42, e60, e61, e62, b0, b1, b2⟩ := idx_facts t
  funext a; apply Fin.ext
  match a with
  | ⟨0, _⟩ => show win1_4.index t (0 : Fin 3) * 1 + 1 * 0 = n.val; omega
  | ⟨1, _⟩ => show win1_4.index t (1 : Fin 3) * 256 + 1 * d.val = d.val; omega
  | ⟨2, _⟩ => show win1_4.index t (2 : Fin 3) * 1 + 1 * 0 = 0; omega

section Arrays

variable (V : (c : Dev nD) → (b : Ref sig .tc) → Buf (Elt Ideal) ((c : Thread nD τ).loc b)) (c : Dev nD)

/-! ## The input blocks read where the output block's place says -/

theorem iblk_w0 (t : Fin cfg1.N) (d : Fin 256) (p : Fin 1024) (n : Fin 32) (q : Fin 4096)
    (hn : n.val = win1_5.index t (0 : Fin 3)) (hq : q.val = win1_5.index t (2 : Fin 3) * 1024 + p.val) :
    @Eq EReal ((iblk1 V c 0 t : S1x256x1024.Idx → EReal) (ix3 (0 : Fin 1) d p)) ((V c main_v0 : S3.Idx → EReal) (ix3 n d q)) :=
  congrArg (V c main_v0 : S3.Idx → EReal) (emb_w0 t d p n q hn hq)

theorem iblk_w1 (t : Fin cfg1.N) (d : Fin 256) (p : Fin 1024) (n : Fin 32) (q : Fin 4096)
    (hn : n.val = win1_5.index t (0 : Fin 3)) (hq : q.val = win1_5.index t (2 : Fin 3) * 1024 + p.val) :
    @Eq EReal ((iblk1 V c 1 t : S1x256x1024.Idx → EReal) (ix3 (0 : Fin 1) d p)) ((V c main_v1 : S3.Idx → EReal) (ix3 n d q)) :=
  congrArg (V c main_v1 : S3.Idx → EReal) (emb_w1 t d p n q hn hq)

theorem iblk_w2 (t : Fin cfg1.N) (d : Fin 256) (n : Fin 32) (hn : n.val = win1_5.index t (0 : Fin 3)) :
    @Eq EReal ((iblk1 V c 2 t : S1x256x1.Idx → EReal) (ix3 (0 : Fin 1) d (0 : Fin 1))) ((V c main_v94 : S32x256x1.Idx → EReal) (ix3 n d (0 : Fin 1))) :=
  congrArg (V c main_v94 : S32x256x1.Idx → EReal) (emb_w2 t d n hn)

theorem iblk_w3 (t : Fin cfg1.N) (d : Fin 256) (n : Fin 32) (hn : n.val = win1_5.index t (0 : Fin 3)) :
    @Eq EReal ((iblk1 V c 3 t : S1x256x1.Idx → EReal) (ix3 (0 : Fin 1) d (0 : Fin 1))) ((V c main_v108 : S32x256x1.Idx → EReal) (ix3 n d (0 : Fin 1))) :=
  congrArg (V c main_v108 : S32x256x1.Idx → EReal) (emb_w3 t d n hn)

theorem iblk_w4 (t : Fin cfg1.N) (d : Fin 256) (n : Fin 32) (hn : n.val = win1_5.index t (0 : Fin 3)) :
    @Eq EReal ((iblk1 V c 4 t : S1x256x1.Idx → EReal) (ix3 (0 : Fin 1) d (0 : Fin 1))) ((V c main_v109 : S32x256x1.Idx → EReal) (ix3 n d (0 : Fin 1))) :=
  congrArg (V c main_v109 : S32x256x1.Idx → EReal) (emb_w4 t d n hn)

/-- The two output arrays from the region's entry contents. -/
def loArr : S3.Idx → EReal := loOf (V c main_v0) (V c main_v94) (V c main_v109)
def hiArr : S3.Idx → EReal := hiOf (V c main_v1) (V c main_v108)

/-- What the body leaves in the low band's output block at point t is block t of the output array. -/
theorem block5_eq (t : Fin cfg1.N) :
    (out1_5 (iblk1 V c 0 t) (iblk1 V c 1 t) (iblk1 V c 2 t) (iblk1 V c 3 t) (iblk1 V c 4 t) : S1x256x1024.Idx → EReal)
      = fun y => loArr V c (((cfg1.win 5).blk t).view.emb y) := by
  funext y
  obtain ⟨d, p, rfl⟩ := exists_ix3_one y
  refine (out5_apply _ _ _ _ _ d p).trans ?_
  obtain ⟨e00, e01, e02, e10, e11, e12, e20, e21, e22, e30, e31, e32, e40, e41, e42, e60, e61, e62, b0, b1, b2⟩ := idx_facts t
  obtain ⟨n, hn⟩ : ∃ n : Fin 32, n.val = win1_5.index t (0 : Fin 3) := ⟨⟨win1_5.index t (0 : Fin 3), by omega⟩, rfl⟩
  obtain ⟨q, hq⟩ : ∃ q : Fin 4096, q.val = win1_5.index t (2 : Fin 3) * 1024 + p.val :=
    ⟨⟨win1_5.index t (2 : Fin 3) * 1024 + p.val, by have := p.isLt; omega⟩, rfl⟩
  refine (congrArg₂ (fun a b : EReal => a + b) (congrArg₂ (fun a b : EReal => a * b) (iblk_w0 V c t d p n q hn hq) (iblk_w2 V c t d n hn))
    (iblk_w4 V c t d n hn)).trans ?_
  exact (congrArg (loArr V c) (emb_w5 t d p n q hn hq)).symm

/-- The same for the high band. -/
theorem block6_eq (t : Fin cfg1.N) :
    (out1_6 (iblk1 V c 0 t) (iblk1 V c 1 t) (iblk1 V c 2 t) (iblk1 V c 3 t) (iblk1 V c 4 t) : S1x256x1024.Idx → EReal)
      = fun y => hiArr V c (((cfg1.win 6).blk t).view.emb y) := by
  funext y
  obtain ⟨d, p, rfl⟩ := exists_ix3_one y
  refine (out6_apply _ _ _ _ _ d p).trans ?_
  obtain ⟨e00, e01, e02, e10, e11, e12, e20, e21, e22, e30, e31, e32, e40, e41, e42, e60, e61, e62, b0, b1, b2⟩ := idx_facts t
  obtain ⟨n, hn⟩ : ∃ n : Fin 32, n.val = win1_5.index t (0 : Fin 3) := ⟨⟨win1_5.index t (0 : Fin 3), by omega⟩, rfl⟩
  obtain ⟨q, hq⟩ : ∃ q : Fin 4096, q.val = win1_5.index t (2 : Fin 3) * 1024 + p.val :=
    ⟨⟨win1_5.index t (2 : Fin 3) * 1024 + p.val, by have := p.isLt; omega⟩, rfl⟩
  refine (congrArg₂ (fun a b : EReal => a * b) (iblk_w1 V c t d p n q hn hq) (iblk_w3 V c t d n hn)).trans ?_
  exact (congrArg (hiArr V c) (emb_w6 t d p n q hn hq)).symm

/-- What point t writes back to the low band's array is block t of the output array. -/
theorem flushed5_eq (t : Fin cfg1.N) :
    (dat1 V c).flushed 5 t = ((cfg1.win 5).blk t).view.read (Elt Ideal) (loArr V c) := by
  show (cfg1.win 5).cut (grid1.coords t) ((dat1 V c).after 5 t) = _
  rw [after1_5]
  exact block5_eq V c t

theorem flushed6_eq (t : Fin cfg1.N) :
    (dat1 V c).flushed 6 t = ((cfg1.win 6).blk t).view.read (Elt Ideal) (hiArr V c) := by
  show (cfg1.win 6).cut (grid1.coords t) ((dat1 V c).after 6 t) = _
  rw [after1_6]
  exact block6_eq V c t

end Arrays

/-! ## The tiles cover the arrays -/

/-- An entry is in point t's tile iff each coordinate is in the tile's range on its axis. -/
theorem mem_blk5 (t : Fin cfg1.N) (i : S3.Idx) :
    i ∈ ((cfg1.win 5).blk t).view.set ↔ ∀ a : Fin 3, win1_5.index t a * S1x256x1024.size a ≤ (i a).val ∧ (i a).val < win1_5.index t a * S1x256x1024.size a + S1x256x1024.size a := by
  show i ∈ ((View.whole main_v110_0).slice (win1_5.rect t)).set ↔ _
  rw [View.set_slice_whole, Rect.mem_set_unit]
  exact Iff.rfl

theorem mem_blk6 (t : Fin cfg1.N) (i : S3.Idx) :
    i ∈ ((cfg1.win 6).blk t).view.set ↔ ∀ a : Fin 3, win1_6.index t a * S1x256x1024.size a ≤ (i a).val ∧ (i a).val < win1_6.index t a * S1x256x1024.size a + S1x256x1024.size a := by
  show i ∈ ((View.whole main_v110_1).slice (win1_6.rect t)).set ↔ _
  rw [View.set_slice_whole, Rect.mem_set_unit]
  exact Iff.rfl

/-- Entry (n, d, q) lies in the tile of the point with block index (n, 0, q / 1024). -/
theorem cover5 (i : S3.Idx) : ∃ t : Fin cfg1.N, (cfg1.win 5).flush t = true ∧ i ∈ ((cfg1.win 5).blk t).view.set := by
  have hi0 : (i 0).val < 32 := (i 0).isLt
  have hi1 : (i 1).val < 256 := (i 1).isLt
  have hi2 : (i 2).val < 4096 := (i 2).isLt
  obtain ⟨t, ht⟩ := idx_onto ⟨(i 0).val, hi0⟩ ⟨(i 2).val / 1024, by omega⟩
  have q0 : win1_5.index t (0 : Fin 3) = (i 0).val := congrFun ht 0
  have q1 : win1_5.index t (1 : Fin 3) = 0 := congrFun ht 1
  have q2 : win1_5.index t (2 : Fin 3) = (i 2).val / 1024 := congrFun ht 2
  refine ⟨t, flush1_5 t, ?_⟩
  rw [mem_blk5]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 256 ≤ (i 1).val ∧ (i 1).val < win1_5.index t (1 : Fin 3) * 256 + 256; omega
  | ⟨2, _⟩ => show win1_5.index t (2 : Fin 3) * 1024 ≤ (i 2).val ∧ (i 2).val < win1_5.index t (2 : Fin 3) * 1024 + 1024; omega

theorem cover6 (i : S3.Idx) : ∃ t : Fin cfg1.N, (cfg1.win 6).flush t = true ∧ i ∈ ((cfg1.win 6).blk t).view.set := by
  have hi0 : (i 0).val < 32 := (i 0).isLt
  have hi1 : (i 1).val < 256 := (i 1).isLt
  have hi2 : (i 2).val < 4096 := (i 2).isLt
  obtain ⟨t, ht⟩ := idx_onto ⟨(i 0).val, hi0⟩ ⟨(i 2).val / 1024, by omega⟩
  have q0 : win1_5.index t (0 : Fin 3) = (i 0).val := congrFun ht 0
  have q1 : win1_5.index t (1 : Fin 3) = 0 := congrFun ht 1
  have q2 : win1_5.index t (2 : Fin 3) = (i 2).val / 1024 := congrFun ht 2
  obtain ⟨e00, e01, e02, e10, e11, e12, e20, e21, e22, e30, e31, e32, e40, e41, e42, e60, e61, e62, b0, b1, b2⟩ := idx_facts t
  refine ⟨t, flush1_6 t, ?_⟩
  rw [mem_blk6]
  intro a
  match a with
  | ⟨0, _⟩ => show win1_6.index t (0 : Fin 3) * 1 ≤ (i 0).val ∧ (i 0).val < win1_6.index t (0 : Fin 3) * 1 + 1; omega
  | ⟨1, _⟩ => show win1_6.index t (1 : Fin 3) * 256 ≤ (i 1).val ∧ (i 1).val < win1_6.index t (1 : Fin 3) * 256 + 256; omega
  | ⟨2, _⟩ => show win1_6.index t (2 : Fin 3) * 1024 ≤ (i 2).val ∧ (i 2).val < win1_6.index t (2 : Fin 3) * 1024 + 1024; omega

/-! ## The arrays after the region -/

section Final

variable (V : (c : Dev nD) → (b : Ref sig .tc) → Buf (Elt Ideal) ((c : Thread nD τ).loc b)) (c : Dev nD)

/-- After the region the low band's output array is the image gated plus the branch vector, entry by entry. -/
theorem lo_final : ((dat1 V c).arrAt 5 cfg1.N : S3.Idx → EReal) = loArr V c :=
  (dat1 V c).arrAt_eq_of_cover 5 (loArr V c) (fun t _ => flushed5_eq V c t) cover5

/-- And the high band's the image gated. -/
theorem hi_final : ((dat1 V c).arrAt 6 cfg1.N : S3.Idx → EReal) = hiArr V c :=
  (dat1 V c).arrAt_eq_of_cover 6 (hiArr V c) (fun t _ => flushed6_eq V c t) cover6

end Final

end Cert.ReferenceIdeal.RApply

end
-- ==== Proof.RefTail.lean ====
/-
  The two results of the two-pass program: after its second region the program reshapes the region's two
  [32, 256, 4096] output arrays back to [32, 256, 64, 64], row-major, so the pixel index p = 64 h + w splits into (h, w).
-/
import proofs.«119149_g2000609679484958_pallasbulk_1271_18_alg».proof.Proof.Gen.ReferenceIdeal.Frame
import proofs.«119149_g2000609679484958_pallasbulk_1271_18_alg».proof.Proof.Spec

noncomputable section

open scoped BigOperators

namespace Cert.ReferenceIdeal.RTail

open Idealize.ShloMosaic Idealize.ShloMosaic.TcCoe Idealize.ShloMosaic.ValueIdx Idealize.SL.Sem
open Cert.ReferenceIdeal Cert.ReferenceIdeal.Gen Cert.Fdd

variable (m : (ℓ : Loc nD τ sig) → Buf (Elt Ideal) ℓ) (ρ : Dev nD → PrngReg) (c : Dev nD)

/-- The low band's result is the second region's first output array, reshaped. -/
theorem W5_v111_eq : (W5 m ρ c (Proc.devRef .tc main_v111) : S32x256x64x64.Idx → EReal) = to4 (W4 m ρ c (Proc.devRef .tc main_v110_0)) := by
  show StableHlo.after hostOps2 (W4 m ρ c) (Proc.devRef .tc main_v111) = _
  after_results
  rfl
/-- The high band's result is the second region's second output array, reshaped. -/
theorem W5_v112_eq : (W5 m ρ c (Proc.devRef .tc main_v112) : S32x256x64x64.Idx → EReal) = to4 (W4 m ρ c (Proc.devRef .tc main_v110_1)) := by
  show StableHlo.after hostOps2 (W4 m ρ c) (Proc.devRef .tc main_v112) = _
  after_results
  rfl

end Cert.ReferenceIdeal.RTail

end
-- ==== Proof.RefValue.lean ====
/-
  What the two-pass program's results are, as functions of the argument arrays: the contents of its two result
  arrays after the last host operation (Cert.Fdd.resLo / resHi at vecR).
-/
import proofs.«119149_g2000609679484958_pallasbulk_1271_18_alg».proof.Proof.Gen.ReferenceIdeal.Frame
import proofs.«119149_g2000609679484958_pallasbulk_1271_18_alg».proof.Proof.Spec
import proofs.«119149_g2000609679484958_pallasbulk_1271_18_alg».proof.Proof.RefGap
import proofs.«119149_g2000609679484958_pallasbulk_1271_18_alg».proof.Proof.RefHost
import proofs.«119149_g2000609679484958_pallasbulk_1271_18_alg».proof.Proof.RefApply
import proofs.«119149_g2000609679484958_pallasbulk_1271_18_alg».proof.Proof.RefTail

noncomputable section

open scoped BigOperators

namespace Cert.ReferenceIdeal.RValue

open Idealize.ShloMosaic Idealize.ShloMosaic.TcCoe Idealize.ShloMosaic.ValueIdx Idealize.SL.Sem
open Cert.ReferenceIdeal Cert.ReferenceIdeal.Gen Cert.Fdd
open Cert.ReferenceIdeal.RGap Cert.ReferenceIdeal.RHost Cert.ReferenceIdeal.RApply Cert.ReferenceIdeal.RTail

variable (m : (ℓ : Loc nD τ sig) → Buf (Elt Ideal) ℓ) (ρ : Dev nD → PrngReg) (c : Dev nD)

/-! ## What the second region is entered with -/

/-- The two images reach the second region as the arguments reshaped: neither the first region nor the host
    operations between the regions write them. -/
theorem entry_img0 : (V3 m ρ c main_v0 : S3.Idx → EReal) = to3 (m ((c : Thread nD τ).loc main_arg0)) :=
  (W3_v0 m ρ c).trans ((W2_arr m ρ c 0).trans (in0_kept m ρ c))
theorem entry_img1 : (V3 m ρ c main_v1 : S3.Idx → EReal) = to3 (m ((c : Thread nD τ).loc main_arg1)) :=
  (W3_v1 m ρ c).trans ((W2_arr m ρ c 1).trans (in1_kept m ρ c))

/-- The channel means the host forms are the means of the argument images: the first region leaves the pixel sums. -/
theorem gL_eq (n : Fin 32) : gL m ρ c n = gapOf (coords3 (to3 (m ((c : Thread nD τ).loc main_arg0)))) n := by
  funext k
  have h : (lsumArr m ρ c : S32x256x1.Idx → EReal) = (dat0 (V1 m ρ) c).arrAt 2 cfg0.N := W2_arr m ρ c 2
  unfold gL gapOf coords3
  rw [h, lsum_apply]
theorem gH_eq (n : Fin 32) : gH m ρ c n = gapOf (coords3 (to3 (m ((c : Thread nD τ).loc main_arg1)))) n := by
  funext k
  have h : (hsumArr m ρ c : S32x256x1.Idx → EReal) = (dat0 (V1 m ρ) c).arrAt 3 cfg0.N := W2_arr m ρ c 3
  unfold gH gapOf coords3
  rw [h, hsum_apply]

/-! ## The output arrays of the second region, from the argument arrays -/

theorem loArr_eq : loArr (V3 m ρ) c = arr3 (loAt vecR (BL m c) (coords3 (to3 (m ((c : Thread nD τ).loc main_arg0))))) := by
  refine ext3 fun n d q => ?_
  refine (loOf_apply _ _ _ n d q).trans ?_
  rw [arr3_apply]
  unfold loAt
  rw [← gL_eq m ρ c n]
  exact congrArg₂ (fun a b : EReal => a + b)
    (congrArg₂ (fun a b : EReal => a * b) (congrFun (entry_img0 m ρ c) (ix3 n d q)) (W3_v94 m ρ c n d)) (W3_v109 m ρ c n d)

theorem hiArr_eq : hiArr (V3 m ρ) c = arr3 (hiAt vecR (BH m c) (coords3 (to3 (m ((c : Thread nD τ).loc main_arg1))))) := by
  refine ext3 fun n d q => ?_
  refine (hiOf_apply _ _ n d q).trans ?_
  rw [arr3_apply]
  unfold hiAt
  rw [← gH_eq m ρ c n]
  exact congrArg₂ (fun a b : EReal => a * b) (congrFun (entry_img1 m ρ c) (ix3 n d q)) (W3_v108 m ρ c n d)

/-! ## The results -/

theorem W5_v111 : (W5 m ρ c (Proc.devRef .tc main_v111) : S32x256x64x64.Idx → EReal)
    = resLo vecR (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) :=
  (W5_v111_eq m ρ c).trans (congrArg to4 ((W4_arr m ρ c 5).trans ((lo_final (V3 m ρ) c).trans (loArr_eq m ρ c))))

theorem W5_v112 : (W5 m ρ c (Proc.devRef .tc main_v112) : S32x256x64x64.Idx → EReal)
    = resHi vecR (m ((c.tc : Thread nD τ).loc main_arg1)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) :=
  (W5_v112_eq m ρ c).trans (congrArg to4 ((W4_arr m ρ c 6).trans ((hi_final (V3 m ρ) c).trans (hiArr_eq m ρ c))))

end Cert.ReferenceIdeal.RValue

end
-- ==== Proof.RefRun.lean ====
/-
  The two-pass program's run with its results named: every weakly fair execution terminates, nothing faulting,
  with each of the two result arrays at what the last segment boundary holds there (the fold through the host
  operations and the two regions), and the argument arrays as launched. The launch over the segments is the one
  that gives the frame; the final state is read at the two result buffers as well as at the arguments.
-/
import proofs.«119149_g2000609679484958_pallasbulk_1271_18_alg».proof.Proof.Gen.ReferenceIdeal.Frame

set_option maxRecDepth 16384

noncomputable section

namespace Cert.ReferenceIdeal.RRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run : θ_run defs (onTc (τ := τ) (main (F := F))) ⟨m, fun _ => 0, ρ⟩ (fun r => ∀ c : Dev nD,
      r.2.mem ((c.tc : Thread nD τ).loc main_v111) = W5 m ρ c (Proc.devRef .tc main_v111)
      ∧ r.2.mem ((c.tc : Thread nD τ).loc main_v112) = W5 m ρ c (Proc.devRef .tc main_v112)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v111 (by decide)),
       h c _ (mem_uc main_v112 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c),
       (h c _ (mem_uc main_arg13 (by decide))).trans (W5_main_arg13 m ρ c),
       (h c _ (mem_uc main_arg14 (by decide))).trans (W5_main_arg14 m ρ c),
       (h c _ (mem_uc main_arg15 (by decide))).trans (W5_main_arg15 m ρ c),
       (h c _ (mem_uc main_arg16 (by decide))).trans (W5_main_arg16 m ρ c),
       (h c _ (mem_uc main_arg17 (by decide))).trans (W5_main_arg17 m ρ c),
       (h c _ (mem_uc main_arg18 (by decide))).trans (W5_main_arg18 m ρ c),
       (h c _ (mem_uc main_arg19 (by decide))).trans (W5_main_arg19 m ρ c),
       (h c _ (mem_uc main_arg20 (by decide))).trans (W5_main_arg20 m ρ c),
       (h c _ (mem_uc main_arg21 (by decide))).trans (W5_main_arg21 m ρ c),
       (h c _ (mem_uc main_arg22 (by decide))).trans (W5_main_arg22 m ρ c),
       (h c _ (mem_uc main_arg23 (by decide))).trans (W5_main_arg23 m ρ c),
       (h c _ (mem_uc main_arg24 (by decide))).trans (W5_main_arg24 m ρ c),
       (h c _ (mem_uc main_arg25 (by decide))).trans (W5_main_arg25 m ρ c)⟩)

end Cert.ReferenceIdeal.RRun

end
-- ==== Proof.Bridge.lean ====
/-
  The two programs compute one function. The fused kernel ends with its results at the gated images built from
  the branch vector with the normalisations folded into the weights (vecK); the two-pass program ends with them
  built from the vector with each normalisation applied after its convolution (vecR). Under the precondition every
  input is a real number and the running variances are not negative, so the normalisation's scale is a real
  number, a real factor moves across the finite sums of the two convolutions, and the two vectors are equal
  (Cert.Fdd.vecK_eq_vecR); everything after the vector is the same expression of it.
-/
import proofs.«119149_g2000609679484958_pallasbulk_1271_18_alg».proof.Defs
import proofs.«119149_g2000609679484958_pallasbulk_1271_18_alg».proof.Proof.Spec
import proofs.«119149_g2000609679484958_pallasbulk_1271_18_alg».proof.Proof.KernelValue
import proofs.«119149_g2000609679484958_pallasbulk_1271_18_alg».proof.Proof.RefValue
import proofs.«119149_g2000609679484958_pallasbulk_1271_18_alg».proof.Proof.RefRun

noncomputable section

namespace Cert.Bridge

open Idealize.ShloMosaic Idealize.ShloMosaic.ValueIdx Idealize.SL.Sem Cert.Fdd Cert.EdgeLoss

/-- A reshaped array of real numbers holds real numbers. -/
theorem isReal_coords3_to3 (a : S4.Idx → EReal) (ha : ∀ i, IsReal (a i)) (n : Fin 32) (k : Fin 256) (p : Fin 4096) :
    IsReal (coords3 (to3 a) n k p) := ha _

/-- The low result is the same array whichever way the normalisations are applied. -/
theorem resLo_eq (a : S4.Idx → EReal) (ha : ∀ i, IsReal (a i))
    (w1 : (⟨2, ![16, 256]⟩ : Shape).Idx → EReal) (b1 γ1 β1 μ1 v1 : (⟨1, ![16]⟩ : Shape).Idx → EReal)
    (w2 : (⟨2, ![256, 16]⟩ : Shape).Idx → EReal) (b2 γ2 β2 μ2 v2 : (⟨1, ![256]⟩ : Shape).Idx → EReal)
    (hB : (Branch.ofArrays w1 b1 γ1 β1 μ1 v1 w2 b2 γ2 β2 μ2 v2).Ok) :
    resLo vecR a w1 b1 γ1 β1 μ1 v1 w2 b2 γ2 β2 μ2 v2 = resLo vecK a w1 b1 γ1 β1 μ1 v1 w2 b2 γ2 β2 μ2 v2 := by
  unfold resLo
  rw [loAt_eq _ hB _ (isReal_coords3_to3 a ha)]

/-- The high result likewise. -/
theorem resHi_eq (a : S4.Idx → EReal) (ha : ∀ i, IsReal (a i))
    (w1 : (⟨2, ![16, 256]⟩ : Shape).Idx → EReal) (b1 γ1 β1 μ1 v1 : (⟨1, ![16]⟩ : Shape).Idx → EReal)
    (w2 : (⟨2, ![256, 16]⟩ : Shape).Idx → EReal) (b2 γ2 β2 μ2 v2 : (⟨1, ![256]⟩ : Shape).Idx → EReal)
    (hB : (Branch.ofArrays w1 b1 γ1 β1 μ1 v1 w2 b2 γ2 β2 μ2 v2).Ok) :
    resHi vecR a w1 b1 γ1 β1 μ1 v1 w2 b2 γ2 β2 μ2 v2 = resHi vecK a w1 b1 γ1 β1 μ1 v1 w2 b2 γ2 β2 μ2 v2 := by
  unfold resHi
  rw [hiAt_eq _ hB _ (isReal_coords3_to3 a ha)]

open Cert.KernelIdeal in
/-- What the precondition gives, on every core: both images hold real numbers and both branches' parameters are
    real with non-negative variances. -/
def PreGives (m : (ℓ : Loc Cert.KernelIdeal.nD Cert.KernelIdeal.τ Cert.KernelIdeal.sig) → Buf (Elt Ideal) ℓ) : Prop :=
  ∀ c : Dev Cert.KernelIdeal.nD,
    (∀ i, IsReal ((m ((c.tc : Thread nD τ).loc main_arg0) : S4.Idx → EReal) i))
    ∧ (∀ i, IsReal ((m ((c.tc : Thread nD τ).loc main_arg1) : S4.Idx → EReal) i))
    ∧ (Branch.ofArrays (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))).Ok
    ∧ (Branch.ofArrays (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))).Ok

/-- The algebraic claim, from what the precondition gives. -/
theorem algebraic_of [Cert.Pre_finite_inputs.Facts]
    (hpre : ∀ m, Cert.Pre_KernelIdeal m → PreGives m) : Cert.algebraic_KernelIdeal_ReferenceIdeal := by
  intro m ρ m' ρ' hp hagree
  refine ⟨_, _, Cert.KernelIdeal.KValue.run m ρ, ?_⟩
  refine (θ_run Cert.ReferenceIdeal.defs _ _).mono (fun r h c => ?_) (Cert.ReferenceIdeal.RRun.run (F := Ideal) m' ρ')
  obtain ⟨h111, h112, hargs⟩ := h c
  obtain ⟨hX, hY, hBL, hBH⟩ := hpre m hp c
  obtain ⟨e0, e1, e2, e3, e4, e5, e6, e7, e8, e9, e10, e11, e12, e13, e14, e15, e16, e17, e18, e19, e20, e21, e22, e23, e24, e25⟩ := hagree c
  refine ⟨h111.trans ?_, h112.trans ?_, hargs⟩
  · rw [Cert.ReferenceIdeal.RValue.W5_v111 m' ρ' c, e0, e2, e3, e4, e5, e6, e7, e8, e9, e10, e11, e12, e13]
    exact resLo_eq _ hX _ _ _ _ _ _ _ _ _ _ _ _ hBL
  · rw [Cert.ReferenceIdeal.RValue.W5_v112 m' ρ' c, e1, e14, e15, e16, e17, e18, e19, e20, e21, e22, e23, e24, e25]
    exact resHi_eq _ hY _ _ _ _ _ _ _ _ _ _ _ _ hBH

end Cert.Bridge

end
-- ==== Proof.lean ====
/-
  The certificate's claim: the three programs run without fault and leave their arguments unchanged (the generated
  frames), the idealized kernel is the kernel's sanctioned idealization (no rewrite was applied, so there is
  nothing to show), and at the extended reals the fused kernel and the two-pass reference end with equal results.
  The last is Cert.Bridge.algebraic_of: both programs' results are named as functions of the argument arrays, and
  the two functions agree wherever the precondition holds — every input a real number, every running variance
  non-negative — because a real normalisation scale moves across the convolutions' finite sums.
-/
import proofs.«119149_g2000609679484958_pallasbulk_1271_18_alg».proof.Defs
import proofs.«119149_g2000609679484958_pallasbulk_1271_18_alg».proof.Proof.Gen.Kernel
import proofs.«119149_g2000609679484958_pallasbulk_1271_18_alg».proof.Proof.Gen.Kernel.Skeleton
import proofs.«119149_g2000609679484958_pallasbulk_1271_18_alg».proof.Proof.Gen.Kernel.Launch
import proofs.«119149_g2000609679484958_pallasbulk_1271_18_alg».proof.Proof.Gen.Kernel.Points
import proofs.«119149_g2000609679484958_pallasbulk_1271_18_alg».proof.Proof.Gen.Kernel.Frame
import proofs.«119149_g2000609679484958_pallasbulk_1271_18_alg».proof.Proof.Gen.KernelIdeal
import proofs.«119149_g2000609679484958_pallasbulk_1271_18_alg».proof.Proof.Gen.KernelIdeal.Skeleton
import proofs.«119149_g2000609679484958_pallasbulk_1271_18_alg».proof.Proof.Gen.KernelIdeal.Launch
import proofs.«119149_g2000609679484958_pallasbulk_1271_18_alg».proof.Proof.Gen.KernelIdeal.Points
import proofs.«119149_g2000609679484958_pallasbulk_1271_18_alg».proof.Proof.Gen.KernelIdeal.Frame
import proofs.«119149_g2000609679484958_pallasbulk_1271_18_alg».proof.Proof.Gen.ReferenceIdeal
import proofs.«119149_g2000609679484958_pallasbulk_1271_18_alg».proof.Proof.Gen.ReferenceIdeal.Skeleton
import proofs.«119149_g2000609679484958_pallasbulk_1271_18_alg».proof.Proof.Gen.ReferenceIdeal.Launch
import proofs.«119149_g2000609679484958_pallasbulk_1271_18_alg».proof.Proof.Gen.ReferenceIdeal.Points
import proofs.«119149_g2000609679484958_pallasbulk_1271_18_alg».proof.Proof.Gen.ReferenceIdeal.Frame
import proofs.«119149_g2000609679484958_pallasbulk_1271_18_alg».proof.Proof.Gen.Pre_finite_inputs
import Idealize.ShloMosaic.Adequacy
import Idealize.ShloMosaic.Init
import proofs.«119149_g2000609679484958_pallasbulk_1271_18_alg».proof.Proof.PreFacts
import proofs.«119149_g2000609679484958_pallasbulk_1271_18_alg».proof.Proof.Bridge

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- The precondition, opened on every core. -/
theorem pre_gives (m : (ℓ : Loc Cert.KernelIdeal.nD Cert.KernelIdeal.τ Cert.KernelIdeal.sig) → Buf (Elt Ideal) ℓ)
    (h : Cert.Pre_KernelIdeal m) : Cert.Bridge.PreGives m :=
  fun c => Cert.PreFacts.facts_of_pre _ _ _ _ _ _ _ _ _ _ _ _ _ _ _ _ _ _ _ _ _ _ _ _ _ _ (h c)

theorem claim : Cert.Claim := ⟨Cert.Kernel.Gen.facts, Cert.KernelIdeal.Gen.facts, Cert.ReferenceIdeal.Gen.facts, Cert.Pre_finite_inputs.Gen.facts,
  frame_k, frame_ki, frame_ri, trivial, Cert.Bridge.algebraic_of pre_gives⟩

end Cert.Proof

end
